-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8192x4096 : Shape := ⟨2, ![8192, 4096]⟩
abbrev S512x512 : Shape := ⟨2, ![512, 512]⟩
abbrev S4096x512 : Shape := ⟨2, ![4096, 512]⟩
abbrev S512x4096 : Shape := ⟨2, ![512, 4096]⟩
abbrev S512x8x64 : Shape := ⟨3, ![512, 8, 64]⟩
abbrev S512x8 : Shape := ⟨2, ![512, 8]⟩
abbrev S512x8x1 : Shape := ⟨3, ![512, 8, 1]⟩

abbrev nBuf : Space → Nat
  | .hbm => 30
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S8192x4096, .f32⟩
  | .hbm, ⟨28, _⟩ => ⟨S8192x4096, .f32⟩
  | .hbm, ⟨29, _⟩ => ⟨S4x2048x4096, .f32⟩
  | .local _ .vmem, ⟨0, _⟩ => ⟨S512x512, .f32⟩
  | .local _ .vmem, ⟨1, _⟩ => ⟨S512x512, .f32⟩
  | .local _ .vmem, ⟨2, _⟩ => ⟨S4096x512, .bf16⟩
  | .local _ .vmem, ⟨3, _⟩ => ⟨S4096x512, .bf16⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S512x8x64 : S512x512.ShapeCasts S512x8x64
  reduces_S512x8x64_S512x8 : S512x8x64.Reduces [2] S512x8
  shapeCasts_S512x8_S512x8x1 : S512x8.ShapeCasts S512x8x1
  broadcasts_S512x8x1_S512x8x64 : S512x8x1.Broadcasts S512x8x64
  shapeCasts_S512x8x64_S512x512 : S512x8x64.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S8192x4096_S4x2048x4096 : S8192x4096.ShapeCasts S4x2048x4096
  dot_S512x512_S4096x512_S512x4096_1_1_0_0_n_n_wf : DotDims.WF S512x512 S4096x512 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_v13) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4x2048x64x64 : Shape := ⟨4, ![4, 2048, 64, 64]⟩
abbrev S_ : Shape := ⟨0, ![]⟩
abbrev S4x2048x64 : Shape := ⟨3, ![4, 2048, 64]⟩
abbrev S4x2048x64x1 : Shape := ⟨4, ![4, 2048, 64, 1]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4x2048x64x64, .f32⟩
  | .hbm, ⟨3, _⟩ => ⟨S4x2048x64x64, .f32⟩
  | .hbm, ⟨4, _⟩ => ⟨S_, .f32⟩
  | .hbm, ⟨5, _⟩ => ⟨S4x2048x64, .f32⟩
  | .hbm, ⟨6, _⟩ => ⟨S4x2048x64x1, .f32⟩
  | .hbm, ⟨7, _⟩ => ⟨S_, .f32⟩
  | .hbm, ⟨8, _⟩ => ⟨S_, .f32⟩
  | .hbm, ⟨9, _⟩ => ⟨S4x2048x64x1, .f32⟩
  | .hbm, ⟨10, _⟩ => ⟨S4x2048x64x1, .f32⟩
  | .hbm, ⟨11, _⟩ => ⟨S_, .f32⟩
  | .hbm, ⟨12, _⟩ => ⟨S4x2048x64x1, .f32⟩
  | .hbm, ⟨13, _⟩ => ⟨S4x2048x64x1, .f32⟩
  | .hbm, ⟨14, _⟩ => ⟨S4x2048x64x64, .f32⟩
  | .hbm, ⟨15, _⟩ => ⟨S4x2048x64x64, .f32⟩
  | .hbm, ⟨16, _⟩ => ⟨S4x2048x64x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4x2048x64x64, .f32⟩
  | .hbm, ⟨21, _⟩ => ⟨S4x2048x64x64, .f32⟩
  | .hbm, ⟨22, _⟩ => ⟨S_, .f32⟩
  | .hbm, ⟨23, _⟩ => ⟨S4x2048x64x64, .f32⟩
  | .hbm, ⟨24, _⟩ => ⟨S4x2048x64x64, .f32⟩
  | .hbm, ⟨25, _⟩ => ⟨S4x2048x64x64, .f32⟩
  | .hbm, ⟨26, _⟩ => ⟨S4x2048x64x64, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_call5_v2 : Ref sig .tc := ⟨.hbm, 48, rfl⟩
abbrev main_call5_v3 : Ref sig .tc := ⟨.hbm, 49, rfl⟩
abbrev main_call5_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩

abbrev nD : Nat := 1
abbrev τ : Topo := Topo.v7x

variable {F : FTy → Type} [FloatOps F]

class Facts₀ : Prop where
  shapeCasts_S4x2048x4096_S4x2048x64x64 : S4x2048x4096.ShapeCasts S4x2048x64x64
  reducesTo_S4x2048x64x64_S4x2048x64_d3 : S4x2048x64x64.ReducesTo [3] S4x2048x64
  h_S_ : 0 < S_.numel
  bcast_S4x2048x64_S4x2048x64x1_0_1_2 : S4x2048x64.BroadcastsInDim S4x2048x64x1 (![0, 1, 2] : Fin 3 → Fin S4x2048x64x1.rank)
  bcast_S_S4x2048x64x1 : S_.BroadcastsInDim S4x2048x64x1 (![] : Fin 0 → Fin S4x2048x64x1.rank)
  bcast_S4x2048x64x1_S4x2048x64x64_0_1_2_3 : S4x2048x64x1.BroadcastsInDim S4x2048x64x64 (![0, 1, 2, 3] : Fin 4 → Fin S4x2048x64x64.rank)
  bcast_S_S4x2048x64x64 : S_.BroadcastsInDim S4x2048x64x64 (![] : Fin 0 → Fin S4x2048x64x64.rank)
  shapeCasts_S4x2048x64x64_S4x2048x4096 : S4x2048x64x64.ShapeCasts S4x2048x4096
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KPieces.lean ====
/-
  What one grid point of the kernel leaves in its accumulator and in its output block, as values.

  The body has three cases over the position k on the contraction axis. At k = 0 it stores the zero block in the
  accumulator and then the update of that zero block; at 0 < k < 7 it stores the update of what the point before
  left; at k = 7 it does the same and copies the accumulator into the output block. The update is the body's one
  arithmetic term `k0_pay2` of the activation block, the weight block and the accumulator's previous contents.
-/
import proofs.«102947_j88905823027952_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A point in the middle of the contraction axis leaves, in the accumulator holding `xs0`, the update of `xs0`. -/
theorem acc_mid (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond0_0 i) (hc1 : ¬cond0_1 i)
    (x0 : Vec F S512x512 .f32) (x1 : Vec F S4096x512 .bf16) (xs0 : Vec F S512x4096 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread,
    View.ld_unit_zero (S := S512x512) hz, View.ld_unit_zero (S := S4096x512) hz, View.ld_unit_zero (S := S512x4096) hz]

/-- The first point of the contraction axis leaves the update of the zero block. -/
theorem acc_first (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : cond0_0 i) (hc1 : ¬cond0_1 i)
    (x0 : Vec F S512x512 .f32) (x1 : Vec F S4096x512 .bf16) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x4096) hz, View.readCov_unit_zero (S := S512x4096) _ hz]
  simp only [View.readAt_eq_ld, harg2.read_unread, harg3.read_unread,
    View.ld_unit_zero (S := S512x512) hz, View.ld_unit_zero (S := S4096x512) hz, View.ld_unit_zero (S := S512x4096) hz]

/-- The last point of the contraction axis leaves the update of `xs0` in the accumulator … -/
theorem acc_last (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond0_0 i) (hc1 : cond0_1 i)
    (x0 : Vec F S512x512 .f32) (x1 : Vec F S4096x512 .bf16) (xs0 : Vec F S512x4096 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S512x512) hz, View.ld_unit_zero (S := S4096x512) hz, View.ld_unit_zero (S := S512x4096) hz]

/-- … and the same block in the output. -/
theorem out_last (c : Dev nD) (i : grid0.Coords) (arg2 : Memref sig .tc .vmem S512x512 .f32) (harg2 : arg2.IsWhole) (arg3 : Memref sig .tc .vmem S4096x512 .bf16) (harg3 : arg3.IsWhole) (arg4 : Memref sig .tc .vmem S512x4096 .f32) (harg4 : arg4.IsWhole) (arg5 : Memref sig .tc .vmem S512x4096 .f32) (harg5 : arg5.IsWhole) (hc0 : ¬cond0_0 i) (hc1 : cond0_1 i)
    (x0 : Vec F S512x512 .f32) (x1 : Vec F S4096x512 .bf16) (xs0 : Vec F S512x4096 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S512x4096) _ hz]
  simp only [View.readAt_eq_ld, harg2.read_unread, harg3.read_unread, harg5.read_unread,
    View.ld_unit_zero (S := S512x512) hz, View.ld_unit_zero (S := S4096x512) hz, View.ld_unit_zero (S := S512x4096) hz]

end Cert.KernelIdeal.Pieces

end
-- ==== Proof.KAcc.lean ====
/-
  The accumulator over a row tile's eight grid points, as a fold. At the first point of a row tile (t % 8 = 0) the
  accumulator is reset to the update of the zero block by that point's blocks; at each later point it is the update,
  by that point's blocks, of what the point before left; at the last point (t % 8 = 7) the output block receives a
  copy. So after point t the accumulator holds the fold, over the points 8·(t/8) … t, of the body's update term.
-/
import proofs.«102947_j88905823027952_2_alg».proof.Proof.KPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The accumulator after the first point of a row tile: the update of the zero block by the point's blocks. -/
def reset (c : Dev nD) (n : ℕ) (h : n < cfg0.N) : Vec F S512x4096 .f32 :=
  k0_pay2 (iblk m c 0 ⟨n, h⟩) (iblk m c 1 ⟨n, h⟩) (k0_pay1 (F := F))

/-- The accumulator after a later point: the update of what it held by the point's blocks. -/
def step (c : Dev nD) (n : ℕ) (h : n < cfg0.N) (acc : Vec F S512x4096 .f32) : Vec F S512x4096 .f32 :=
  k0_pay2 (iblk m c 0 ⟨n, h⟩) (iblk m c 1 ⟨n, h⟩) acc

theorem scratch_reset (c : Dev nD) (n : ℕ) (h : n < cfg0.N) (h0 : n % 8 = 0) :
    (outsAt0 m c n h).2 = reset m c n h := by
  have h1 : ¬n % 8 = 7 := by omega
  refine (congrArg Prod.snd (outsAt0_A m c (⟨n, h⟩ : Fin cfg0.N) h0 h1)).trans ?_
  dsimp only
  exact acc_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N))

theorem scratch_step (c : Dev nD) (n : ℕ) (h : n + 1 < cfg0.N) (h0 : ¬(n + 1) % 8 = 0) :
    (outsAt0 m c (n + 1) h).2 = step m c (n + 1) h (outsAt0 m c n (Nat.lt_of_succ_lt h)).2 := by
  by_cases h1 : (n + 1) % 8 = 7
  · refine (congrArg Prod.snd (outsAt0_C m c (⟨n + 1, h⟩ : Fin cfg0.N) h0 h1)).trans ?_
    dsimp only
    exact acc_last c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (outsAt0 m c n (Nat.lt_of_succ_lt h)).2
  · refine (congrArg Prod.snd (outsAt0_B m c (⟨n + 1, h⟩ : Fin cfg0.N) h0 h1)).trans ?_
    dsimp only
    exact acc_mid c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (outsAt0 m c n (Nat.lt_of_succ_lt h)).2

/-- After point `t` the accumulator holds the fold over the points 8·(t/8) … t. -/
theorem scratch_eq_fold (c : Dev nD) (t : ℕ) (ht : t < cfg0.N) (h' : 8 * (t / 8) + t % 8 < cfg0.N) :
    (outsAt0 m c t ht).2 = Pipeline.accAt (reset m c) (step m c) (8 * (t / 8)) (t % 8) h' :=
  Pipeline.eq_accAt_of_mod (fun n h => (outsAt0 m c n h).2) 8 (reset m c) (step m c)
    (scratch_reset m c) (scratch_step m c) (by decide) t ht h'

/-- At the last point of a row tile the output block holds what the accumulator holds. -/
theorem out_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (out_last c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) (outsAt0 m c (t.val - 1) (Nat.lt_of_le_of_lt (Nat.sub_le _ _) t.isLt)).2).trans
    (acc_last c (grid0.coords t) (ms0_0 t) (hs0_0 t) (ms0_1 t) (hs0_1 t) (ms0_2 t) (hs0_2 t) scM0_0 (Memref.isWhole_whole _) (fun hh => h0 ((hcond0_0 t).mp hh)) ((hcond0_1 t).mpr h7) (iblk m c 0 t) (iblk m c 1 t) (outsAt0 m c (t.val - 1) (Nat.lt_of_le_of_lt (Nat.sub_le _ _) t.isLt)).2).symm

end Cert.KernelIdeal.Acc

end
-- ==== Proof.KBlocks.lean ====
/-
  Where the kernel's windows sit in their arrays. The grid is 16 × 8: point t is row tile t / 8 and contraction
  tile t % 8. The activation window's block at t is rows 512·(t/8) … +511 and columns 512·(t%8) … +511 of the
  8192 × 4096 activation matrix; the weight window's block is all 4096 rows and the same 512 columns of the weight
  matrix; the output window's block is the row tile's 512 full rows.
-/
import proofs.«102947_j88905823027952_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The activation window's block index at point `t`: (t / 8, t % 8), decided over the grid's 128 points. -/
theorem idx0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
/-- The weight window's: (0, t % 8). -/
theorem idx1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
/-- The output window's: (t / 8, 0). -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- Entry (p, kk) of the activation block at point `t` is entry (512·(t/8) + p, 512·(t%8) + kk) of the matrix. -/
theorem iblk0_apply (c : Dev nD) (t : Fin cfg0.N) (p kk : Fin 512) (r : Fin 8192) (cc : Fin 4096)
    (hr : r.val = 512 * (t.val / 8) + p.val) (hc : cc.val = 512 * (t.val % 8) + kk.val) :
    (iblk m c 0 t : Vec F S512x512 .f32) (ix2 p kk) = (V m c main_v13 : S8192x4096.Idx → F .f32) (ix2 r cc) := by
  unfold iblk
  rw [View.read_apply]
  show V m c main_v13 _ = V m c main_v13 _
  refine congrArg (V m c main_v13) ?_
  funext a; apply Fin.ext
  match a with
  | ⟨0, _⟩ => show win0_0.index t 0 * 512 + 1 * p.val = r.val; rw [(idx0 t).1, hr]; omega
  | ⟨1, _⟩ => show win0_0.index t 1 * 512 + 1 * kk.val = cc.val; rw [(idx0 t).2, hc]; omega

/-- Entry (o, kk) of the weight block at point `t` is entry (o, 512·(t%8) + kk) of the weight matrix. -/
theorem iblk1_apply (c : Dev nD) (t : Fin cfg0.N) (o : Fin 4096) (kk : Fin 512) (cc : Fin 4096)
    (hc : cc.val = 512 * (t.val % 8) + kk.val) :
    (iblk m c 1 t : Vec F S4096x512 .bf16) (ix2 o kk) = (V m c main_v12 : S4096x4096.Idx → F .bf16) (ix2 o cc) := by
  unfold iblk
  rw [View.read_apply]
  show V m c main_v12 _ = V m c main_v12 _
  refine congrArg (V m c main_v12) ?_
  funext a; apply Fin.ext
  match a with
  | ⟨0, _⟩ => show win0_1.index t 0 * 4096 + 1 * o.val = o.val; rw [(idx1 t).1]; omega
  | ⟨1, _⟩ => show win0_1.index t 1 * 512 + 1 * kk.val = cc.val; rw [(idx1 t).2, hc]; omega

end Cert.KernelIdeal.Blocks

end
-- ==== Proof.Spec.lean ====
/-
  The layer as one function of its two arguments, over the extended reals.

  Activations x[b, s, c] (4 × 2048 × 4096) are quantised in groups of 64 consecutive columns: with
  a = max over the group of |x| (from -∞), scale = 127 / max(ε, a), the quantised value is
  clip(roundeven(x · scale), -127, 127) / scale.  The weights enter only as a matrix W[o, c]; the result is
  out[b, s, o] = Σ_c Q(x)[b, s, c] · W[o, c].
-/
import Idealize.ShloMosaic.PureOps.Ideal
import Idealize.ShloMosaic.PureOps.Ideal.Laws
import Idealize.ShloMosaic.Lib.ValueIdx

noncomputable section

open scoped BigOperators

namespace Cert.BitLinear

open Idealize.ShloMosaic Idealize.ShloMosaic.ValueIdx

/-- The activations' shape, the weights' shape, and the activations as a matrix of 8192 rows. -/
abbrev SX : Shape := ⟨3, ![4, 2048, 4096]⟩
abbrev SW : Shape := ⟨2, ![4096, 4096]⟩
abbrev SR : Shape := ⟨2, ![8192, 4096]⟩

/-- Column `l` of the group of 64 columns that holds column `c`. -/
def grpCol (c : Fin 4096) (l : Fin 64) : Fin 4096 := ⟨64 * (c.val / 64) + l.val, by omega⟩

/-- The maximum of 64 values, from -∞ (the f32 pattern 0xFF800000). -/
def gmax (f : Fin 64 → EReal) : EReal :=
  (Finset.univ : Finset (Fin 64)).fold max (Ideal.ofBits .f32 0xFF800000#32) f

/-- The scale of a group whose largest magnitude is `a`: 127 / max(ε, a). -/
def scl (a : EReal) : EReal :=
  Ideal.div (Ideal.ofBits .f32 0x42FE0000#32) (max (Ideal.ofBits .f32 0x3727C5AC#32) a)

/-- One value quantised at scale `s`: clip(roundeven(x·s), -127, 127) / s. -/
def qz (s x : EReal) : EReal :=
  Ideal.div (min (Ideal.ofBits .f32 0x42FE0000#32)
    (max (Ideal.ofBits .f32 0xC2FE0000#32) (Ideal.liftRound Ideal.roundHalfEven (x * s)))) s

/-- The quantised activation at (b, s, c). -/
def Q (x : SX.Idx → EReal) (b : Fin 4) (s : Fin 2048) (c : Fin 4096) : EReal :=
  qz (scl (gmax fun l => max (x (ix3 b s (grpCol c l))) (-(x (ix3 b s (grpCol c l)))))) (x (ix3 b s c))

/-- The layer's result. -/
def G (x : SX.Idx → EReal) (W : SW.Idx → EReal) : SX.Idx → EReal :=
  fun i => ∑ c : Fin 4096, Q x (i 0) (i 1) c * W (ix2 (i 2) c)

/-- The same quantisation on the activations laid out as 8192 rows. -/
def Q2 (X : SR.Idx → EReal) (r : Fin 8192) (c : Fin 4096) : EReal :=
  qz (scl (gmax fun l => max (X (ix2 r (grpCol c l))) (-(X (ix2 r (grpCol c l)))))) (X (ix2 r c))

/-- Adding back the difference: for a real `x` and any extended real `q`, x + (q - x) = q. -/
theorem add_sub_cancel_real (x : ℝ) (q : EReal) : (x : EReal) + (q - (x : EReal)) = q := by
  induction q using EReal.rec with
  | bot => simp
  | top => simp
  | coe r => rw [← EReal.coe_sub, ← EReal.coe_add]; congr 1; ring

end Cert.BitLinear

end
-- ==== Proof.LibRank3Layouts.lean ====
/-
  Layout operations on rank-3 arrays read at an index written by coordinates: the forms a pairwise sum
  `x[:, None, :] + y[None, :, :]` and a last-axis reduction kept as a unit axis (`keepdims`) are built from.
  Each is the parent lemma of Lib/Pipeline/Value.lean (`shapeCast_apply`: equal row-major positions;
  `broadcastTo_apply`: the operand's coordinate is the result's, or 0 on a unit axis) with both indices written
  `ix2 …` / `ix3 …`, general in the extents.
  • `shapeCast_ac_a1c_apply`   [a, c]    → [a, 1, c]  : (i, u, j) reads (i, j)
  • `shapeCast_ab_ab1_apply`   [a, b]    → [a, b, 1]  : (i, j, u) reads (i, j)
  • `broadcastTo_a1c_abc_apply` [a, 1, c] → [a, b, c]  : (i, q, j) reads (i, 0, j)
  • `broadcastTo_1bc_abc_apply` [1, b, c] → [a, b, c]  : (p, i, j) reads (0, i, j)
  • `broadcastTo_ab1_abc_apply` [a, b, 1] → [a, b, c]  : (i, j, k) reads (i, j, 0)
-/
import Idealize.ShloMosaic.Lib.ValueLayout

namespace Cert.LibRank3

open Idealize.ShloMosaic Idealize.ShloMosaic.ValueIdx

variable {α : Type}

/-- An `[a, c]` array cast to `[a, 1, c]` reads, at `(i, u, j)`, the operand at `(i, j)`: the unit axis adds nothing
    to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, q, j)`, the operand's one middle entry `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (j : Fin c) :
    broadcastTo ⟨3, ![a, b, c]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand's one leading entry `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(i, j, k)`, the operand's one trailing entry `(i, j, 0)`:
    a kept reduction spread back over the reduced axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibRank3
-- ==== Proof.KPay.lean ====
/-
  The body's one arithmetic term, read at an entry, over the extended reals.

  The term takes a [512, 512] block x of activations, a [4096, 512] block w of weights and the accumulator's previous
  contents a. It cuts each row of x into 8 groups of 64 consecutive columns; per group it takes the largest magnitude m
  (a maximum of the 64 values |x| from -∞), the scale s = 127 / max(ε, m), and replaces every entry of the group by
  clip(roundeven(x · s), -127, 127) / s; the quantised block q is then multiplied with w over the second axis of both and
  added to a. At entry (p, o):  a[p, o] + Σ_k q[p, k] · w[o, k], with q[p, k] the quantisation of x[p, k] within the
  group of 64 columns that holds column k.

  Read at an entry, each step is elementary: a change of layout reads the entry at the same row-major position
  ((p, g, l) of the [512, 8, 64] layout is (p, 64 g + l) of the block, and back (p, k) is (p, k / 64, k mod 64));
  a maximum over the last axis is the maximum of the 64 entries along it; a scale kept on a unit axis and spread back
  over the group reads the group's one scale; a narrowing of the format is the identity on extended reals; and the
  product into the zero block is the sum over the one contraction coordinate.
-/
import proofs.«102947_j88905823027952_2_alg».proof.Proof.Gen.KernelIdeal.Skeleton
import proofs.«102947_j88905823027952_2_alg».proof.Proof.Spec
import proofs.«102947_j88905823027952_2_alg».proof.Proof.LibRank3Layouts
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.BitLinear Idealize.ShloMosaic Idealize.ShloMosaic.ValueIdx

/-- Column l of the group of 64 columns that holds column kk of a 512-wide block. -/
def gcol (kk : Fin 512) (l : Fin 64) : Fin 512 := ⟨64 * (kk.val / 64) + l.val, by omega⟩

/-- One entry of a block of activations, quantised within its group of 64 columns. -/
def bq (x0 : Vec Ideal S512x512 .f32) (p kk : Fin 512) : EReal :=
  qz (scl (gmax fun l => max (x0 (ix2 p (gcol kk l))) (-(x0 (ix2 p (gcol kk l)))))) (x0 (ix2 p kk))

/-! ## The layout steps at an index -/

/-- A [512, 512] block cast to [512, 8, 64] reads, at (p, g, l), the block at (p, 64 g + l): the columns are cut into
    8 groups of 64 consecutive ones. -/
theorem cast_in_apply {α : Type} (x : S512x512.Idx → α) (h : S512x512.ShapeCasts S512x8x64) (p : Fin 512) (g : Fin 8) (l : Fin 64) :
    shapeCast S512x8x64 x h (ix3 p g l) = x (ix2 p ⟨64 * g.val + l.val, by omega⟩) :=
  shapeCast_apply x h _ _ (by
    rw [Shape.rowMajor_val_two, Shape.rowMajor_val_three]
    show p.val * 512 + (64 * g.val + l.val) = (p.val * 8 + g.val) * 64 + l.val
    omega)

/-- A [512, 8, 64] array cast back to [512, 512] reads, at (p, kk), the array at (p, kk / 64, kk mod 64). -/
theorem cast_out_apply {α : Type} (y : S512x8x64.Idx → α) (h : S512x8x64.ShapeCasts S512x512) (p kk : Fin 512) :
    shapeCast S512x512 y h (ix2 p kk) = y (ix3 p ⟨kk.val / 64, by omega⟩ ⟨kk.val % 64, by omega⟩) :=
  shapeCast_apply y h _ _ (by
    rw [Shape.rowMajor_val_three, Shape.rowMajor_val_two]
    show (p.val * 8 + kk.val / 64) * 64 + kk.val % 64 = p.val * 512 + kk.val
    omega)

/-! ## The maximum over a group -/

/-- The index over (p, g) with coordinate l put back on the reduced axis is (p, g, l). -/
theorem lift_eq (h : S512x8x64.Reduces [2] S512x8) (p : Fin 512) (g : Fin 8) (l : Fin 64) :
    h.lift (ix2 p g) l = ix3 p g l := by
  funext c
  match c with
  | ⟨0, _⟩ => rfl
  | ⟨1, _⟩ => rfl
  | ⟨2, _⟩ => rfl

/-- The maximum over the last axis from -∞, at (p, g), is the maximum of the 64 entries (p, g, ·). -/
theorem rowmax_apply (v : FVec Ideal S512x8x64 .f32) (h : S512x8x64.Reduces [2] S512x8) (hφ : FKind.Formats .f32)
    (hacc : (0xFF800000#32 : BitVec 32) = 0xFF800000#32) (p : Fin 512) (g : Fin 8) :
    multiReduction (F := Ideal) .maximumf [2] S512x8 v 0xFF800000#32 h hφ hacc (ix2 p g) = gmax fun l => v (ix3 p g l) := by
  refine (Ideal.multiReduction_maximumf_single v 0xFF800000#32 h hφ hacc (ix2 p g)).trans ?_
  unfold gmax
  have e : (v ∘ h.lift (ix2 p g)) = fun l : Fin 64 => v (ix3 p g l) := funext fun l => congrArg v (lift_eq h p g l)
  rw [e]
  rfl

/-! ## The scale and the quantised entry -/

/-- The scale of group (p, g), 127 / max(ε, the group's largest magnitude), on the unit axis kept for it. -/
theorem scale_apply (v5 : FVec Ideal S512x8x64 .f32) (h : S512x8x64.Reduces [2] S512x8) (hφ : FKind.Formats .f32)
    (hacc : (0xFF800000#32 : BitVec 32) = 0xFF800000#32) (h8 : S512x8.ShapeCasts S512x8x1)
    (p : Fin 512) (g : Fin 8) (u : Fin 1) :
    divf (F := Ideal) (broadcast S512x8x1 (FloatOps.ofBits .f32 0x42FE0000#32))
        (maximumf (broadcast S512x8x1 (FloatOps.ofBits .f32 0x3727C5AC#32))
          (shapeCast S512x8x1 (multiReduction .maximumf [2] S512x8 (absf v5) 0xFF800000#32 h hφ hacc) h8)) (ix3 p g u)
      = scl (gmax fun l => max (v5 (ix3 p g l)) (-(v5 (ix3 p g l)))) := by
  rw [divf_apply, maximumf_apply, broadcast_apply, broadcast_apply, Cert.LibRank3.shapeCast_ab_ab1_apply, rowmax_apply]
  rfl

/-- Entry (p, g, l) quantised at a scale kept per group: clip(roundeven(x · s), -127, 127) / s with s the scale of
    group (p, g). -/
theorem quant_apply (v5 : FVec Ideal S512x8x64 .f32) (sc : FVec Ideal S512x8x1 .f32) (hb : S512x8x1.Broadcasts S512x8x64)
    (p : Fin 512) (g : Fin 8) (l : Fin 64) :
    divf (F := Ideal)
        (minimumf (broadcast S512x8x64 (FloatOps.ofBits .f32 0x42FE0000#32))
          (maximumf (broadcast S512x8x64 (FloatOps.ofBits .f32 0xC2FE0000#32))
            (roundeven (mulf v5 (broadcastTo S512x8x64 sc hb)))))
        (broadcastTo S512x8x64 sc hb) (ix3 p g l)
      = qz (sc (ix3 p g (0 : Fin 1))) (v5 (ix3 p g l)) := by
  have hr : ∀ (v : FVec Ideal S512x8x64 .f32) (i : S512x8x64.Idx),
      roundeven v i = Ideal.liftRound Ideal.roundHalfEven (v i) := fun _ _ => rfl
  rw [divf_apply, minimumf_apply, maximumf_apply, broadcast_apply, broadcast_apply, hr, mulf_apply,
    Cert.LibRank3.broadcastTo_ab1_abc_apply]
  rfl

/-! ## The product with the weight block -/

/-- The left operand's row is the result's row … -/
theorem lhs_0 (j : S512x4096.Idx) (q : dot_S512x512_S4096x512_S512x4096_1_1_0_0_n_n.contr.Idx) :
    (dot_S512x512_S4096x512_S512x4096_1_1_0_0_n_n.lhsIdx j q 0).val = (j 0).val := by
  unfold DotDims.lhsIdx
  rw [dif_neg (show ¬(0 : Fin S512x512.rank) ∈ dot_S512x512_S4096x512_S512x4096_1_1_0_0_n_n.lhsBatch by decide),
    dif_pos (show (0 : Fin S512x512.rank) ∈ dot_S512x512_S4096x512_S512x4096_1_1_0_0_n_n.lhsNonContracting by decide)]
  rfl
/-- … and its column the contraction position. -/
theorem lhs_1 (j : S512x4096.Idx) (q : dot_S512x512_S4096x512_S512x4096_1_1_0_0_n_n.contr.Idx) :
    (dot_S512x512_S4096x512_S512x4096_1_1_0_0_n_n.lhsIdx j q 1).val = (q ⟨0, by decide⟩).val :=
  dot_S512x512_S4096x512_S512x4096_1_1_0_0_n_n.lhsIdx_val_of_single rfl j q
/-- The right operand's row is the result's column … -/
theorem rhs_0 (j : S512x4096.Idx) (q : dot_S512x512_S4096x512_S512x4096_1_1_0_0_n_n.contr.Idx) :
    (dot_S512x512_S4096x512_S512x4096_1_1_0_0_n_n.rhsIdx j q 0).val = (j 1).val := by
  unfold DotDims.rhsIdx
  rw [dif_neg (show ¬(0 : Fin S4096x512.rank) ∈ dot_S512x512_S4096x512_S512x4096_1_1_0_0_n_n.rhsBatch by decide),
    dif_pos (show (0 : Fin S4096x512.rank) ∈ dot_S512x512_S4096x512_S512x4096_1_1_0_0_n_n.rhsNonContracting by decide)]
  rfl
/-- … and its column the contraction position. -/
theorem rhs_1 (j : S512x4096.Idx) (q : dot_S512x512_S4096x512_S512x4096_1_1_0_0_n_n.contr.Idx) :
    (dot_S512x512_S4096x512_S512x4096_1_1_0_0_n_n.rhsIdx j q 1).val = (q ⟨0, by decide⟩).val :=
  dot_S512x512_S4096x512_S512x4096_1_1_0_0_n_n.rhsIdx_val_of_single rfl j q

/-- The product of a [512, 512] block with a [4096, 512] block over the second axis of both, into the zero block:
    at (p, o) the sum over k of q[p, k] · w[o, k]. -/
theorem matmul_zero_apply (q : FVec Ideal S512x512 .bf16) (w : FVec Ideal S4096x512 .bf16) (p : Fin 512) (o : Fin 4096) :
    matmul (F := Ideal) dot_S512x512_S4096x512_S512x4096_1_1_0_0_n_n none q w (constant S512x4096 .f32 0x00000000#32) (ix2 p o)
      = ∑ k : Fin 512, q (ix2 p k) * w (ix2 o k) := by
  refine (Ideal.matmul_constant_zero_apply dot_S512x512_S4096x512_S512x4096_1_1_0_0_n_n none q w (ix2 p o)).trans ?_
  rw [← Equiv.sum_comp (contrEquiv1 dot_S512x512_S4096x512_S512x4096_1_1_0_0_n_n 512 rfl rfl).symm]
  refine Finset.sum_congr rfl fun k _ => ?_
  have hk := contrEquiv1_symm_val dot_S512x512_S4096x512_S512x4096_1_1_0_0_n_n 512 rfl rfl k
  have el : dot_S512x512_S4096x512_S512x4096_1_1_0_0_n_n.lhsIdx (ix2 p o)
      ((contrEquiv1 dot_S512x512_S4096x512_S512x4096_1_1_0_0_n_n 512 rfl rfl).symm k) = ix2 p k :=
    funext fun a => Fin.ext (by
      match a with
      | ⟨0, _⟩ => exact lhs_0 _ _
      | ⟨1, _⟩ => exact (lhs_1 _ _).trans hk)
  have er : dot_S512x512_S4096x512_S512x4096_1_1_0_0_n_n.rhsIdx (ix2 p o)
      ((contrEquiv1 dot_S512x512_S4096x512_S512x4096_1_1_0_0_n_n 512 rfl rfl).symm k) = ix2 o k :=
    funext fun a => Fin.ext (by
      match a with
      | ⟨0, _⟩ => exact rhs_0 _ _
      | ⟨1, _⟩ => exact (rhs_1 _ _).trans hk)
  rw [el, er]

/-! ## The two stored blocks at an index -/

/-- The block the first grid point of a row stores first is the zero block. -/
theorem pay1_apply (j : S512x4096.Idx) : k0_pay1 (F := Ideal) j = 0 := by
  unfold k0_pay1
  rw [shapeCast_self]
  exact Ideal.ofBits_zero_f32

/-- The update of the accumulator: entry (p, o) gains the sum over the block's 512 columns of the quantised activation
    times the weight. -/
theorem pay2_apply (x0 : Vec Ideal S512x512 .f32) (x1 : Vec Ideal S4096x512 .bf16) (acc : Vec Ideal S512x4096 .f32)
    (p : Fin 512) (o : Fin 4096) :
    k0_pay2 (F := Ideal) x0 x1 acc (ix2 p o) = acc (ix2 p o) + ∑ kk : Fin 512, bq x0 p kk * x1 (ix2 o kk) := by
  unfold k0_pay2
  simp only [shapeCast_self]
  rw [addf_apply]
  refine congrArg (acc (ix2 p o) + ·) ?_
  refine (matmul_zero_apply _ _ p o).trans ?_
  refine Finset.sum_congr rfl fun kk _ => ?_
  refine congrArg (· * x1 (ix2 o kk)) ?_
  rw [truncf_apply, cast_out_apply, quant_apply, scale_apply]
  simp only [cast_in_apply]
  have hkk : (⟨64 * (kk.val / 64) + kk.val % 64, by omega⟩ : Fin 512) = kk :=
    Fin.ext (by show 64 * (kk.val / 64) + kk.val % 64 = kk.val; omega)
  rw [hkk]
  rfl

end Cert.KernelIdeal.Pay

end
-- ==== Proof.Tiles.lean ====
/-
  The result on the 8192-row layout, and its splitting over contraction tiles. With the activations as a matrix X of
  8192 rows, out2[r, o] = Σ_c Q2(X)[r, c] · W[o, c]. The kernel computes row tile q (rows 512q … 512q+511) in eight
  steps, step s adding Σ_{kk < 512} of the products at the columns 512 s + kk; the eight partial sums are the whole sum
  over the 4096 columns, because addition of extended reals is commutative and associative.
-/
import proofs.«102947_j88905823027952_2_alg».proof.Proof.Spec
import Mathlib.Algebra.BigOperators.Fin
import Mathlib.Logic.Equiv.Fin.Basic

noncomputable section

open scoped BigOperators

namespace Cert.BitLinear

open Idealize.ShloMosaic Idealize.ShloMosaic.ValueIdx

/-- A row tile's accumulator block. -/
abbrev SB : Shape := ⟨2, ![512, 4096]⟩

/-- The result on the 8192-row layout. -/
def R2 (X : SR.Idx → EReal) (W : SW.Idx → EReal) : SR.Idx → EReal :=
  fun j => ∑ c : Fin 4096, Q2 X (j 0) c * W (ix2 (j 1) c)

/-- Row `p` of the row tile of grid point `n`, and column `kk` of its contraction tile. -/
def tileRow (n : ℕ) (p : Fin 512) : Fin 8192 := ⟨512 * (n / 8 % 16) + p.val, by omega⟩
def tileCol (n : ℕ) (kk : Fin 512) : Fin 4096 := ⟨512 * (n % 8) + kk.val, by omega⟩

/-- What grid point `n` adds to entry `j` of its row tile's accumulator. -/
def addend (X : SR.Idx → EReal) (W : SW.Idx → EReal) (n : ℕ) (j : SB.Idx) : EReal :=
  ∑ kk : Fin 512, Q2 X (tileRow n (j 0)) (tileCol n kk) * W (ix2 (j 1) (tileCol n kk))

/-- Eight tiles of 512 columns are the 4096 columns. -/
theorem sum_tiles (f : Fin 4096 → EReal) :
    ∑ s ∈ Finset.range 8, ∑ kk : Fin 512, f ⟨512 * (s % 8) + kk.val, by omega⟩ = ∑ c : Fin 4096, f c := by
  rw [Finset.sum_range, ← Fintype.sum_prod_type' (f := fun (s : Fin 8) (kk : Fin 512) => f ⟨512 * (s.val % 8) + kk.val, by omega⟩)]
  refine Fintype.sum_equiv (finProdFinEquiv (m := 8) (n := 512)) _ _ fun x => ?_
  refine congrArg f (Fin.ext ?_)
  have h1 := x.1.isLt
  show 512 * (x.1.val % 8) + x.2.val = x.2.val + 512 * x.1.val
  omega

/-- The eight addends of row tile `q` sum to the result's entry. -/
theorem sum_addends (X : SR.Idx → EReal) (W : SW.Idx → EReal) (q : ℕ) (hq : q < 16) (j : SB.Idx) :
    ∑ s ∈ Finset.range 8, addend X W (8 * q + s) j = R2 X W (ix2 (tileRow (8 * q) (j 0)) (j 1)) := by
  unfold R2
  rw [← sum_tiles]
  refine Finset.sum_congr rfl fun s hs => ?_
  have hs8 : s < 8 := Finset.mem_range.mp hs
  unfold addend
  have er : tileRow (8 * q + s) (j 0) = tileRow (8 * q) (j 0) := Fin.ext (by show 512 * ((8 * q + s) / 8 % 16) + _ = 512 * (8 * q / 8 % 16) + _; omega)
  have ec : ∀ kk : Fin 512, tileCol (8 * q + s) kk = ⟨512 * (s % 8) + kk.val, by omega⟩ := fun kk =>
    Fin.ext (by show 512 * ((8 * q + s) % 8) + kk.val = 512 * (s % 8) + kk.val; omega)
  refine Finset.sum_congr rfl fun kk _ => ?_
  rw [er, ec kk]

end Cert.BitLinear

end
-- ==== Proof.KFold.lean ====
/-
  One grid point's update and a row tile's fold, read at an index of the accumulator block, in terms of the two
  matrices the kernel's windows stage: X (the activations as 8192 rows) and W (the quantised weights). Grid point n
  adds to entry (p, o) the sum over its 512 columns of Q2(X)[row, col] · W[o, col]: the block's quantisation is the
  matrix's, because a block's 512 columns hold whole groups of 64 columns. After the row tile's last point the
  accumulator holds 0 plus the eight points' addends.
-/
import proofs.«102947_j88905823027952_2_alg».proof.Proof.KAcc
import proofs.«102947_j88905823027952_2_alg».proof.Proof.KBlocks
import proofs.«102947_j88905823027952_2_alg».proof.Proof.KPay
import proofs.«102947_j88905823027952_2_alg».proof.Proof.Tiles

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.BitLinear Cert.KernelIdeal.Pay Cert.KernelIdeal.Blocks Cert.KernelIdeal.Acc

variable (m : (ℓ : Loc nD τ sig) → Buf (Elt Ideal) ℓ)

/-- The activations as the region finds them, 8192 rows; and the quantised weights. -/
abbrev X (c : Dev nD) : SR.Idx → EReal := V m c main_v13
abbrev Wk (c : Dev nD) : SW.Idx → EReal := V m c main_v12

/-- A block entry quantised within the block is the matrix entry quantised within the matrix. -/
theorem bq_block (c : Dev nD) (n : ℕ) (h : n < cfg0.N) (p kk : Fin 512) :
    bq (iblk m c 0 ⟨n, h⟩) p kk = Q2 (X m c) (tileRow n p) (tileCol n kk) := by
  have hN : n < 128 := lt_of_lt_of_eq h (show cfg0.N = 128 from N_0)
  have hr : (tileRow n p).val = 512 * ((⟨n, h⟩ : Fin cfg0.N).val / 8) + p.val := by
    show 512 * (n / 8 % 16) + p.val = 512 * (n / 8) + p.val; omega
  have e0 : (iblk m c 0 ⟨n, h⟩ : Vec Ideal S512x512 .f32) (ix2 p kk) = X m c (ix2 (tileRow n p) (tileCol n kk)) :=
    iblk0_apply m c ⟨n, h⟩ p kk (tileRow n p) (tileCol n kk) hr rfl
  have e : ∀ l : Fin 64, (iblk m c 0 ⟨n, h⟩ : Vec Ideal S512x512 .f32) (ix2 p (gcol kk l))
      = X m c (ix2 (tileRow n p) (grpCol (tileCol n kk) l)) := fun l =>
    iblk0_apply m c ⟨n, h⟩ p (gcol kk l) (tileRow n p) (grpCol (tileCol n kk) l) hr (by
      show 64 * ((512 * (n % 8) + kk.val) / 64) + l.val = 512 * (n % 8) + (64 * (kk.val / 64) + l.val)
      have := kk.isLt; omega)
  unfold bq Q2
  rw [e0]
  simp only [e]

/-- Grid point `n`'s update at an entry: what was there plus the point's addend. -/
theorem update_apply (c : Dev nD) (n : ℕ) (h : n < cfg0.N) (acc : Vec Ideal S512x4096 .f32) (j : S512x4096.Idx) :
    k0_pay2 (F := Ideal) (iblk m c 0 ⟨n, h⟩) (iblk m c 1 ⟨n, h⟩) acc j = acc j + addend (X m c) (Wk m c) n j := by
  obtain ⟨p, o, rfl⟩ : ∃ (p : Fin 512) (o : Fin 4096), j = ix2 p o := ⟨j 0, j 1, eq_ix2 j⟩
  rw [pay2_apply]
  refine congrArg (acc (ix2 p o) + ·) ?_
  unfold addend
  refine Finset.sum_congr rfl fun kk _ => ?_
  rw [bq_block m c n h p kk, iblk1_apply m c ⟨n, h⟩ o kk (tileCol n kk) rfl]

/-- After a row tile's eight points the accumulator holds 0 plus their addends. -/
theorem fold_apply (c : Dev nD) (q : ℕ) (h : 8 * q + 7 < cfg0.N) (j : S512x4096.Idx) :
    Pipeline.accAt (reset m c) (step m c) (8 * q) 7 h j
      = 0 + ∑ s ∈ Finset.range 8, addend (X m c) (Wk m c) (8 * q + s) j :=
  Pipeline.accAt_add_apply (reset m c) (step m c) (fun _ => (0 : EReal)) (fun n j => addend (X m c) (Wk m c) n j) (8 * q) 7
    (fun h i => by
      show k0_pay2 (F := Ideal) (iblk m c 0 ⟨8 * q, h⟩) (iblk m c 1 ⟨8 * q, h⟩) (k0_pay1 (F := Ideal)) i = _
      rw [update_apply, pay1_apply])
    (fun n h acc i _ _ => update_apply m c n h acc i) 7 le_rfl h j

end Cert.KernelIdeal.Fold

end
-- ==== Proof.KFinal.lean ====
/-
  From the row tiles' blocks to the kernel's whole output matrix. The output window is written back at the last point
  of each row tile (t % 8 = 7); what it writes there is the accumulator's fold, which at entry (p, o) is the result
  R2[512·(t/8) + p, o]. The sixteen written blocks cover the 8192 × 4096 matrix, so after the region the output array
  is R2 of the activation matrix and the quantised weights.
-/
import proofs.«102947_j88905823027952_2_alg».proof.Proof.KFold

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BitLinear Cert.KernelIdeal.Blocks Cert.KernelIdeal.Acc Cert.KernelIdeal.Fold

variable (m : (ℓ : Loc nD τ sig) → Buf (Elt Ideal) ℓ) (ρ : Dev nD → PrngReg)

/-- The output block at the last point of a row tile, entry by entry. -/
theorem out_block (c : Dev nD) (t : Fin cfg0.N) (h7 : t.val % 8 = 7) (j : S512x4096.Idx) :
    (outsAt0 m c t.val t.isLt).1 j = R2 (X m c) (Wk m c) (ix2 (tileRow t.val (j 0)) (j 1)) := by
  have hN : t.val < 128 := lt_of_lt_of_eq t.isLt (show cfg0.N = 128 from N_0)
  have h' : 8 * (t.val / 8) + t.val % 8 < cfg0.N := by rw [Nat.div_add_mod]; exact t.isLt
  have key : ∀ (r : ℕ) (_ : r = 7) (hr : 8 * (t.val / 8) + r < cfg0.N),
      Pipeline.accAt (reset m c) (step m c) (8 * (t.val / 8)) r hr j
        = 0 + ∑ s ∈ Finset.range 8, addend (X m c) (Wk m c) (8 * (t.val / 8) + s) j := by
    intro r hr7 hr; subst hr7; exact fold_apply m c (t.val / 8) hr j
  rw [out_eq_scratch m c t h7, scratch_eq_fold m c t.val t.isLt h', key (t.val % 8) h7 h', zero_add,
    sum_addends (X m c) (Wk m c) (t.val / 8) (by omega) j]
  refine congrArg (fun r => R2 (X m c) (Wk m c) (ix2 r (j 1))) (Fin.ext ?_)
  show 512 * (8 * (t.val / 8) / 8 % 16) + (j 0).val = 512 * (t.val / 8 % 16) + (j 0).val
  omega

/-- What a writing point writes back is its block of R2. -/
theorem flushed_eq (c : Dev nD) (t : Fin cfg0.N) (hf : (cfg0.win 2).flush t = true) :
    (dats m 0 c).flushed 2 t = ((cfg0.win 2).blk t).view.read (Elt Ideal) (R2 (X m c) (Wk m c)) := by
  have h7 : t.val % 8 = 7 := (flush0_2 t).mp hf
  have hN : t.val < 128 := lt_of_lt_of_eq t.isLt (show cfg0.N = 128 from N_0)
  show (cfg0.win 2).cut (grid0.coords t) ((dats m 0 c).after 2 t) = _
  rw [after0_2]
  funext j
  show (outsAt0 m c t.val t.isLt).1 j = R2 (X m c) (Wk m c) (((cfg0.win 2).blk t).view.emb j)
  rw [out_block m c t h7 j]
  refine congrArg (R2 (X m c) (Wk m c)) ?_
  funext a; apply Fin.ext
  match a with
  | ⟨0, _⟩ =>
    show 512 * (t.val / 8 % 16) + (j 0).val = win0_2.index t 0 * 512 + 1 * (j 0).val
    rw [(idx2 t).1]; omega
  | ⟨1, _⟩ =>
    show (j 1).val = win0_2.index t 1 * 4096 + 1 * (j 1).val
    rw [(idx2 t).2]; omega

/-- Every entry of the output matrix is in the block of its row tile's last point. -/
theorem cover (i : S8192x4096.Idx) :
    ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  have ht : 8 * ((i 0).val / 512) + 7 < cfg0.N := by rw [hN]; omega
  refine ⟨⟨8 * ((i 0).val / 512) + 7, ht⟩, (flush0_2 _).mpr (by show (8 * ((i 0).val / 512) + 7) % 8 = 7; omega), ?_⟩
  show i ∈ ((View.whole main_v14).slice (win0_2.rect ⟨8 * ((i 0).val / 512) + 7, ht⟩)).set
  rw [View.set_slice_whole, Rect.mem_set_unit]
  intro a
  match a with
  | ⟨0, _⟩ =>
    show win0_2.index ⟨8 * ((i 0).val / 512) + 7, ht⟩ 0 * 512 ≤ (i 0).val ∧ (i 0).val < win0_2.index ⟨8 * ((i 0).val / 512) + 7, ht⟩ 0 * 512 + 512
    rw [(idx2 ⟨8 * ((i 0).val / 512) + 7, ht⟩).1]
    show (8 * ((i 0).val / 512) + 7) / 8 * 512 ≤ (i 0).val ∧ (i 0).val < (8 * ((i 0).val / 512) + 7) / 8 * 512 + 512
    omega
  | ⟨1, _⟩ =>
    show win0_2.index ⟨8 * ((i 0).val / 512) + 7, ht⟩ 1 * 4096 ≤ (i 1).val ∧ (i 1).val < win0_2.index ⟨8 * ((i 0).val / 512) + 7, ht⟩ 1 * 4096 + 4096
    rw [(idx2 ⟨8 * ((i 0).val / 512) + 7, ht⟩).2]
    omega

/-- The output array after the region. -/
theorem final (c : Dev nD) : (dats m 0 c).arrAt 2 cfg0.N = R2 (X m c) (Wk m c) :=
  (dats m 0 c).arrAt_eq_of_cover 2 (R2 (X m c) (Wk m c)) (flushed_eq m c) cover

end Cert.KernelIdeal.Final

end
-- ==== Proof.KHost.lean ====
/-
  The host operations around the kernel's region. Before it: the weights are quantised (the same chain of operations
  as the reference's, then a change of format) and the activations are reshaped to 8192 rows. After it: the output
  matrix is reshaped back to 4 × 2048 × 4096. A reshape keeps row-major positions, so row 2048·b + s is row (b, s).
-/
import proofs.«102947_j88905823027952_2_alg».proof.Proof.Gen.KernelIdeal.Frame
import proofs.«102947_j88905823027952_2_alg».proof.Proof.RefReadP
import proofs.«102947_j88905823027952_2_alg».proof.Proof.Tiles
import Idealize.ShloMosaic.Lib.Pipeline.Value
import Idealize.ShloMosaic.Lib.StableHlo.Run
import Idealize.ShloMosaic.Lib.ValueIdx

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen Cert.BitLinear

variable {F : FTy → Type} [FloatOps F]
variable (m : (ℓ : Loc nD τ sig) → Buf (Elt F) ℓ)

/-- The activation matrix the region finds is the argument reshaped to 8192 rows. -/
theorem V_v13 (c : Dev nD) : (V m c main_v13 : S8192x4096.Idx → F .f32)
    = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The weight matrix the region finds is the reference's quantised weight matrix of the same argument (a change of
    format is the identity on the extended reals). -/
theorem V_v12 (c : Dev nD) : (V m c main_v12 : S4096x4096.Idx → F .bf16)
    = truncf .bf16 (Cert.ReferenceIdeal.ReadP.val_main_v27 (F := F) (m ((c : Thread nD τ).loc main_arg1))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The host's reshape after the region, applied to whatever the output array holds. -/
theorem tail_eq (c : Dev nD) (Z : S8192x4096.Idx → F .f32) (hfinal : (dats m 0 c).arrAt 2 cfg0.N = Z) :
    Pipeline.afterTail₀ cfgs (dats m) 0 (V0 m) [hostOps1] c main_v15 = shapeCast S4x2048x4096 Z shapeCasts_S8192x4096_S4x2048x4096 := by
  have e : Pipeline.withArrays (cfgs 0).spec c (V0 m c) (fun w => (dats m 0 c).arrAt w (cfgs 0).N) (Proc.tc.devRef main_v14) = Z :=
    (Pipeline.withArrays_arr spec0 launch0.win.arr_inj c _ _ 2).trans hfinal
  unfold Pipeline.afterTail₀
  show StableHlo.after hostOps1 _ (Proc.devRef .tc main_v15) = _
  after_results
  rw [e]
  rfl

/-- Row 2048·b + s of the 8192-row matrix is row (b, s) of the argument. -/
theorem reshape_rows (x : S4x2048x4096.Idx → EReal) (b : Fin 4) (s : Fin 2048) (cc : Fin 4096) (r : Fin 8192) (hr : r.val = 2048 * b.val + s.val) :
    shapeCast S8192x4096 x shapeCasts_S4x2048x4096_S8192x4096 (ix2 r cc) = x (ix3 b s cc) :=
  shapeCast_apply x _ _ _ (by
    rw [Shape.rowMajor_val_three, Shape.rowMajor_val_two]
    show (b.val * 2048 + s.val) * 4096 + cc.val = r.val * 4096 + cc.val
    rw [hr]; ring)

end Cert.KernelIdeal.HostSide

end
-- ==== Proof.KRun.lean ====
/-
  The kernel's run, read: its result array is the layer's function G of the activations and of the reference's
  quantised weight matrix. The output matrix R2 is reshaped; entry (b, s, o) is R2 at row 2048·b + s, whose quantised
  activations are those of row (b, s) of the argument, group by group.
-/
import proofs.«102947_j88905823027952_2_alg».proof.Proof.KFinal
import proofs.«102947_j88905823027952_2_alg».proof.Proof.KHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.BitLinear Cert.KernelIdeal.Fold Cert.KernelIdeal.Final Cert.KernelIdeal.HostSide

variable (m : (ℓ : Loc nD τ sig) → Buf (Elt Ideal) ℓ) (ρ : Dev nD → PrngReg)

/-- Quantising row 2048·b + s of the reshaped activations is quantising row (b, s) of the argument. -/
theorem Q2_rows (x : S4x2048x4096.Idx → EReal) (b : Fin 4) (s : Fin 2048) (cc : Fin 4096) (r : Fin 8192)
    (hr : r.val = 2048 * b.val + s.val) :
    Q2 (shapeCast S8192x4096 x shapeCasts_S4x2048x4096_S8192x4096) r cc = Q x b s cc := by
  unfold Q2 Q
  rw [reshape_rows x b s cc r hr]
  rw [funext fun l => show max (shapeCast S8192x4096 x shapeCasts_S4x2048x4096_S8192x4096 (ix2 r (grpCol cc l)))
        (-(shapeCast S8192x4096 x shapeCasts_S4x2048x4096_S8192x4096 (ix2 r (grpCol cc l))))
      = max (x (ix3 b s (grpCol cc l))) (-(x (ix3 b s (grpCol cc l)))) from by rw [reshape_rows x b s (grpCol cc l) r hr]]

/-- The reshaped output matrix is G of the argument and the reference's quantised weights. -/
theorem value (c : Dev nD) :
    shapeCast S4x2048x4096 (R2 (X m c) (Wk m c)) shapeCasts_S8192x4096_S4x2048x4096
      = G (m ((c : Thread nD τ).loc main_arg0)) (Cert.ReferenceIdeal.ReadP.val_main_v27 (F := Ideal) (m ((c : Thread nD τ).loc main_arg1))) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [shapeCast_apply (R2 (X m c) (Wk m c)) shapeCasts_S8192x4096_S4x2048x4096 (ix3 b s o)
    (ix2 (⟨2048 * b.val + s.val, by omega⟩ : Fin 8192) o) (by
      rw [Shape.rowMajor_val_three, Shape.rowMajor_val_two]
      show (2048 * b.val + s.val) * 4096 + o.val = (b.val * 2048 + s.val) * 4096 + o.val
      ring)]
  unfold R2 G
  refine Finset.sum_congr rfl fun cc _ => ?_
  show Q2 (X m c) (⟨2048 * b.val + s.val, by omega⟩ : Fin 8192) cc * Wk m c (ix2 o cc) = Q _ b s cc * _
  rw [show X m c = shapeCast S8192x4096 (m ((c : Thread nD τ).loc main_arg0)) shapeCasts_S4x2048x4096_S8192x4096 from V_v13 m c,
    Q2_rows _ b s cc _ rfl, show Wk m c = _ from V_v12 m c]
  rfl

/-- Every weakly fair execution of the kernel's program terminates with the result array at G and the arguments
    unchanged. -/
theorem run : θ_run defs (onTc (τ := τ) (main (F := Ideal))) ⟨m, fun _ => 0, ρ⟩ fun r => ∀ c : Dev nD,
      r.2.mem ((c.tc : Thread nD τ).loc main_v15)
        = G (m ((c.tc : Thread nD τ).loc main_arg0)) (Cert.ReferenceIdeal.ReadP.val_main_v27 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans
        ((tail_eq m c _ (final m c)).trans (value m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.RefSide.lean ====
/-
  The reference program's result, read index by index over the extended reals, is the layer G of the specification.

  The activations x[b, s, c] are regrouped as x[b, s, g, l] with c = 64·g + l; the group's largest magnitude is the
  maximum over l of |x[b, s, g, l]| from -∞; the scale is 127 / max(ε, that); each value is multiplied by the scale,
  rounded to the nearest even integer, clipped to [-127, 127] and divided by the scale again; regrouped back this is
  Q(x)[b, s, c].  The program then forms x + (Q(x) - x), which is Q(x) where x is a real number, and likewise
  w + (W - w) = W for the quantised weights W, and contracts the two over c.
-/
import proofs.«102947_j88905823027952_2_alg».proof.Proof.RefReadP
import proofs.«102947_j88905823027952_2_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.BitLinear.Ref

open Cert.ReferenceIdeal Cert.ReferenceIdeal.ReadP Cert.BitLinear Idealize.ShloMosaic Idealize.ShloMosaic.ValueIdx

/-- Column 64·g + l of the ungrouped activations. -/
def col (g l : Fin 64) : Fin 4096 := ⟨64 * g.val + l.val, by omega⟩

/-- Regrouping reads the grouped index (b, s, g, l) at the ungrouped (b, s, 64·g + l). -/
theorem idx_v0_ix4 (b : Fin 4) (s : Fin 2048) (g l : Fin 64) :
    idx_main_v0 (ix4 b s g l) = ix3 b s (col g l) := by
  funext a
  match a with
  | ⟨0, _⟩ =>
    apply Fin.ext
    show (((b.val * 2048 + s.val) * 64 + g.val) * 64 + l.val) / 8388608 = b.val
    omega
  | ⟨1, _⟩ =>
    apply Fin.ext
    show (((b.val * 2048 + s.val) * 64 + g.val) * 64 + l.val) / 4096 % 2048 = s.val
    omega
  | ⟨2, _⟩ =>
    apply Fin.ext
    show (((b.val * 2048 + s.val) * 64 + g.val) * 64 + l.val) % 4096 = 64 * g.val + l.val
    omega

/-- The regrouped activations at (b, s, g, l). -/
theorem v0_at (x : FVec Ideal S4x2048x4096 .f32) (b : Fin 4) (s : Fin 2048) (g l : Fin 64) :
    val_main_v0 (F := Ideal) x (ix4 b s g l) = x (ix3 b s (col g l)) := by
  rw [val_main_v0_apply, idx_v0_ix4]

/-- Their magnitudes at (b, s, g, l). -/
theorem v1_at (x : FVec Ideal S4x2048x4096 .f32) (b : Fin 4) (s : Fin 2048) (g l : Fin 64) :
    val_main_v1 (F := Ideal) x (ix4 b s g l) = max (x (ix3 b s (col g l))) (-(x (ix3 b s (col g l)))) := by
  rw [val_main_v1_apply, v0_at]
  rfl

/-- The shape fact that names the index with a coordinate put back on the reduced axis. -/
theorem reduces_d3 : S4x2048x64x64.Reduces [3] S4x2048x64 := by decide

/-- The group index (b, s, g) with l put back on the last axis is (b, s, g, l). -/
theorem lift_ix3 (b : Fin 4) (s : Fin 2048) (g : Fin 64) (l : Fin (S4x2048x64x64.size 3)) :
    reduces_d3.lift (ix3 b s g) l = ix4 b s g (⟨l.val, l.isLt⟩ : Fin 64) := by
  funext c
  apply Fin.ext
  match c with
  | ⟨0, _⟩ => rfl
  | ⟨1, _⟩ => rfl
  | ⟨2, _⟩ => rfl
  | ⟨3, _⟩ => rfl

/-- The largest magnitude of group g of row (b, s): the maximum from -∞ over the group's 64 columns. -/
theorem absmax_at (x : FVec Ideal S4x2048x4096 .f32) (b : Fin 4) (s : Fin 2048) (g : Fin 64) :
    val_main_v2 (F := Ideal) x (ix3 b s g)
      = gmax fun l => max (x (ix3 b s (col g l))) (-(x (ix3 b s (col g l)))) := by
  unfold val_main_v2
  refine (Host.reduce_eq_fold_single (α := Ideal .f32) (FloatOps.maximumf (F := Ideal) (φ := .f32))
    (val_main_v1 (F := Ideal) x) (val_main_cst (F := Ideal))
    Gen.reducesTo_S4x2048x64x64_S4x2048x64_d3 reduces_d3 Gen.h_S_ (ix3 b s g)).trans ?_
  have hf : (val_main_v1 (F := Ideal) x ∘ reduces_d3.lift (ix3 b s g))
      = fun l : Fin 64 => max (x (ix3 b s (col g l))) (-(x (ix3 b s (col g l)))) :=
    funext fun l => by
      show val_main_v1 (F := Ideal) x (reduces_d3.lift (ix3 b s g) l) = _
      rw [lift_ix3, v1_at]
      rfl
  unfold gmax
  exact congrArg (fun f => Finset.fold max (Ideal.ofBits .f32 0xFF800000#32) f (Finset.univ : Finset (Fin 64))) hf

/-- The broadcast of the group maxima along a new last axis reads (b, s, g, 0) at (b, s, g). -/
theorem idx_v3_ix4 (b : Fin 4) (s : Fin 2048) (g : Fin 64) :
    idx_main_v3 (ix4 b s g (0 : Fin 1)) = ix3 b s g := by
  funext a
  match a with
  | ⟨0, _⟩ => rfl
  | ⟨1, _⟩ => rfl
  | ⟨2, _⟩ => rfl

/-- The scale of group g of row (b, s): 127 / max(ε, the group's largest magnitude). -/
theorem scale_at (x : FVec Ideal S4x2048x4096 .f32) (b : Fin 4) (s : Fin 2048) (g : Fin 64) :
    val_main_v6 (F := Ideal) x (ix4 b s g (0 : Fin 1))
      = scl (gmax fun l => max (x (ix3 b s (col g l))) (-(x (ix3 b s (col g l))))) := by
  rw [val_main_v6_apply, val_main_v5_apply, val_main_cst_1_apply, val_main_v4_apply, val_main_call0_v1_apply,
    val_main_call0_v0_apply, val_main_cst_0_apply, val_main_v3_apply, idx_v3_ix4, absmax_at]
  rfl

/-- The broadcast of the scales over the groups' columns reads (b, s, g, l) at (b, s, g, 0). -/
theorem idx_v7_ix4 (b : Fin 4) (s : Fin 2048) (g l : Fin 64) :
    idx_main_v7 (ix4 b s g l) = ix4 b s g (0 : Fin 1) := by
  funext a
  match a with
  | ⟨0, _⟩ => rfl
  | ⟨1, _⟩ => rfl
  | ⟨2, _⟩ => rfl
  | ⟨3, _⟩ => rfl

/-- The same for the second broadcast of the scales. -/
theorem idx_v11_ix4 (b : Fin 4) (s : Fin 2048) (g l : Fin 64) :
    idx_main_v11 (ix4 b s g l) = ix4 b s g (0 : Fin 1) := by
  funext a
  match a with
  | ⟨0, _⟩ => rfl
  | ⟨1, _⟩ => rfl
  | ⟨2, _⟩ => rfl
  | ⟨3, _⟩ => rfl

/-- The quantised value at (b, s, g, l): the activation there, quantised at its group's scale. -/
theorem quant_at (x : FVec Ideal S4x2048x4096 .f32) (b : Fin 4) (s : Fin 2048) (g l : Fin 64) :
    val_main_v12 (F := Ideal) x (ix4 b s g l)
      = qz (scl (gmax fun l' => max (x (ix3 b s (col g l'))) (-(x (ix3 b s (col g l')))))) (x (ix3 b s (col g l))) := by
  rw [val_main_v12_apply, val_main_v10_apply, val_main_call2_v4_apply, val_main_call2_v3_apply, val_main_cst_3_apply,
    val_main_call2_v2_apply, val_main_call2_v1_apply, val_main_call2_v0_apply, val_main_cst_2_apply, val_main_v9_apply,
    val_main_v8_apply, val_main_v7_apply, val_main_v11_apply, idx_v7_ix4, idx_v11_ix4, scale_at, v0_at]
  rfl

/-- Regrouping back reads the ungrouped index (b, s, c) at the grouped (b, s, c / 64, c % 64). -/
theorem idx_v13_ix3 (b : Fin 4) (s : Fin 2048) (c : Fin 4096) :
    idx_main_v13 (ix3 b s c) = ix4 b s (⟨c.val / 64, by omega⟩ : Fin 64) (⟨c.val % 64, by omega⟩ : Fin 64) := by
  funext a
  match a with
  | ⟨0, _⟩ =>
    apply Fin.ext
    show ((b.val * 2048 + s.val) * 4096 + c.val) / 8388608 = b.val
    omega
  | ⟨1, _⟩ =>
    apply Fin.ext
    show ((b.val * 2048 + s.val) * 4096 + c.val) / 4096 % 2048 = s.val
    omega
  | ⟨2, _⟩ =>
    apply Fin.ext
    show ((b.val * 2048 + s.val) * 4096 + c.val) / 64 % 64 = c.val / 64
    omega
  | ⟨3, _⟩ =>
    apply Fin.ext
    show ((b.val * 2048 + s.val) * 4096 + c.val) % 64 = c.val % 64
    omega

/-- Column c is column c % 64 of group c / 64. -/
theorem col_div_mod (c : Fin 4096) : col (⟨c.val / 64, by omega⟩ : Fin 64) (⟨c.val % 64, by omega⟩ : Fin 64) = c := by
  apply Fin.ext
  show 64 * (c.val / 64) + c.val % 64 = c.val
  omega

/-- The quantised activations, regrouped back: at (b, s, c) they are Q. -/
theorem v13_at (x : FVec Ideal S4x2048x4096 .f32) (b : Fin 4) (s : Fin 2048) (c : Fin 4096) :
    val_main_v13 (F := Ideal) x (ix3 b s c) = Q x b s c := by
  rw [val_main_v13_apply, idx_v13_ix3, quant_at, col_div_mod]
  rfl

/-- Where x is a real number, x + (Q(x) - x) is Q(x). -/
theorem ste_x (x : FVec Ideal S4x2048x4096 .f32) (hx : ∀ i, ∃ r : ℝ, (x i : EReal) = (r : EReal))
    (b : Fin 4) (s : Fin 2048) (c : Fin 4096) :
    val_main_v15 (F := Ideal) x (ix3 b s c) = Q x b s c := by
  rw [val_main_v15_apply, val_main_v14_apply, v13_at]
  obtain ⟨r, hr⟩ := hx (ix3 b s c)
  have e := add_sub_cancel_real r (Q x b s c)
  rw [← hr] at e
  exact e

/-- Where w is a real number, w + (W - w) is W, for the quantised weights W. -/
theorem ste_w (w : FVec Ideal S4096x4096 .f32) (hw : ∀ j, ∃ r : ℝ, (w j : EReal) = (r : EReal)) (j : S4096x4096.Idx) :
    val_main_v29 (F := Ideal) w j = val_main_v27 (F := Ideal) w j := by
  rw [val_main_v29_apply, val_main_v28_apply]
  obtain ⟨r, hr⟩ := hw j
  have e := add_sub_cancel_real r (val_main_v27 (F := Ideal) w j)
  rw [← hr] at e
  exact e

/-- The contraction reads the activations at (b, s, k) … -/
theorem lidx_ix3 (b : Fin 4) (s : Fin 2048) (o k : Fin 4096) : lidx_main_v30 (ix3 b s o) k = ix3 b s k := by
  funext a
  match a with
  | ⟨0, _⟩ => rfl
  | ⟨1, _⟩ => rfl
  | ⟨2, _⟩ => rfl

/-- … and the weights at (o, k). -/
theorem ridx_ix3 (b : Fin 4) (s : Fin 2048) (o k : Fin 4096) : ridx_main_v30 (ix3 b s o) k = ix2 o k := by
  funext a
  match a with
  | ⟨0, _⟩ => rfl
  | ⟨1, _⟩ => rfl

/-- The reference's result on real inputs is the layer G of the quantised activations and the quantised weights. -/
theorem ref_value (x : FVec Ideal S4x2048x4096 .f32) (w : FVec Ideal S4096x4096 .f32)
    (hx : ∀ i, ∃ r : ℝ, (x i : EReal) = (r : EReal)) (hw : ∀ j, ∃ r : ℝ, (w j : EReal) = (r : EReal)) :
    val_main_v30 (F := Ideal) x w = G x (val_main_v27 (F := Ideal) w) := by
  funext i
  obtain ⟨b, s, o, rfl⟩ : ∃ (b : Fin 4) (s : Fin 2048) (o : Fin 4096), i = ix3 b s o := ⟨i 0, i 1, i 2, eq_ix3 i⟩
  rw [val_main_v30_apply]
  unfold G
  refine Finset.sum_congr rfl fun k _ => ?_
  rw [lidx_ix3, ridx_ix3, ste_x x hx, ste_w w hw]

end Cert.BitLinear.Ref

end
-- ==== Proof.RefRun.lean ====
/-
  The reference program runs: from any memory with zero counters every weakly fair execution of it terminates, and then
  the result buffer holds the last stage of the program as a function of the two arguments' launch contents, the
  arguments unchanged.

  The program is a straight line of 55 operations, each writing one buffer of its own from buffers written before it.
  The buffers' contents after the line are followed one operation at a time: after operation k every buffer still read
  later holds its stage as a function of the arguments, because operation k writes its stage from operands that held
  theirs, and leaves every other buffer as it was.
-/
import proofs.«102947_j88905823027952_2_alg».proof.Proof.RefReadP

noncomputable section

namespace Cert.BitLinear.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operations, in program order -/

abbrev op0 : HloOp τ sig (Elt F) :=
  reshape main_arg0 main_v0 rfl shapeCasts_S4x2048x4096_S4x2048x64x64
abbrev op1 : HloOp τ sig (Elt F) :=
  unary main_v0 main_v1 (Host.absf : (⟨S4x2048x64x64, .f32⟩ : BufTy).Contents (Elt F) → (⟨S4x2048x64x64, .f32⟩ : BufTy).Contents (Elt F))
abbrev op2 : HloOp τ sig (Elt F) :=
  nullary main_cst (constant S_ .f32 0xFF800000#32)
abbrev op3 : HloOp τ sig (Elt F) :=
  binary main_v1 main_cst main_v2 ((fun x v => Host.reduce FloatOps.maximumf x v reducesTo_S4x2048x64x64_S4x2048x64_d3 h_S_) : (⟨S4x2048x64x64, .f32⟩ : BufTy).Contents (Elt F) → (⟨S_, .f32⟩ : BufTy).Contents (Elt F) → (⟨S4x2048x64, .f32⟩ : BufTy).Contents (Elt F))
abbrev op4 : HloOp τ sig (Elt F) :=
  unary main_v2 main_v3 (broadcastInDim S4x2048x64x1 ![0, 1, 2] bcast_S4x2048x64_S4x2048x64x1_0_1_2 : (⟨S4x2048x64, .f32⟩ : BufTy).Contents (Elt F) → (⟨S4x2048x64x1, .f32⟩ : BufTy).Contents (Elt F))
abbrev op5 : HloOp τ sig (Elt F) :=
  nullary main_cst_0 (constant S_ .f32 0x3727C5AC#32)
abbrev op6 : HloOp τ sig (Elt F) :=
  TRef.unary (TRef.of (T := ⟨S_, .f32⟩) main_cst_0) (TRef.of (T := ⟨S_, .f32⟩) main_call0_v0) id
abbrev op7 : HloOp τ sig (Elt F) :=
  TRef.unary (TRef.of (T := ⟨S_, .f32⟩) main_call0_v0) (TRef.of (T := ⟨S4x2048x64x1, .f32⟩) main_call0_v1) (broadcastInDim S4x2048x64x1 ![] bcast_S_S4x2048x64x1)
abbrev op8 : HloOp τ sig (Elt F) :=
  TRef.binary (TRef.of (T := ⟨S4x2048x64x1, .f32⟩) main_call0_v1) (TRef.of (T := ⟨S4x2048x64x1, .f32⟩) main_v3) (TRef.of (T := ⟨S4x2048x64x1, .f32⟩) main_v4) maximumf
abbrev op9 : HloOp τ sig (Elt F) :=
  nullary main_cst_1 (constant S_ .f32 0x42FE0000#32)
abbrev op10 : HloOp τ sig (Elt F) :=
  unary main_cst_1 main_v5 (broadcastInDim S4x2048x64x1 ![] bcast_S_S4x2048x64x1 : (⟨S_, .f32⟩ : BufTy).Contents (Elt F) → (⟨S4x2048x64x1, .f32⟩ : BufTy).Contents (Elt F))
abbrev op11 : HloOp τ sig (Elt F) :=
  binary main_v5 main_v4 main_v6 (Host.divf : (⟨S4x2048x64x1, .f32⟩ : BufTy).Contents (Elt F) → (⟨S4x2048x64x1, .f32⟩ : BufTy).Contents (Elt F) → (⟨S4x2048x64x1, .f32⟩ : BufTy).Contents (Elt F))
abbrev op12 : HloOp τ sig (Elt F) :=
  unary main_v6 main_v7 (broadcastInDim S4x2048x64x64 ![0, 1, 2, 3] bcast_S4x2048x64x1_S4x2048x64x64_0_1_2_3 : (⟨S4x2048x64x1, .f32⟩ : BufTy).Contents (Elt F) → (⟨S4x2048x64x64, .f32⟩ : BufTy).Contents (Elt F))
abbrev op13 : HloOp τ sig (Elt F) :=
  binary main_v0 main_v7 main_v8 (mulf : (⟨S4x2048x64x64, .f32⟩ : BufTy).Contents (Elt F) → (⟨S4x2048x64x64, .f32⟩ : BufTy).Contents (Elt F) → (⟨S4x2048x64x64, .f32⟩ : BufTy).Contents (Elt F))
abbrev op14 : HloOp τ sig (Elt F) :=
  TRef.unary (TRef.of (T := ⟨S4x2048x64x64, .f32⟩) main_v8) (TRef.of (T := ⟨S4x2048x64x64, .f32⟩) main_v9) Host.roundeven
abbrev op15 : HloOp τ sig (Elt F) :=
  nullary main_cst_2 (constant S_ .f32 0xC2FE0000#32)
abbrev op16 : HloOp τ sig (Elt F) :=
  nullary main_cst_3 (constant S_ .f32 0x42FE0000#32)
abbrev op17 : HloOp τ sig (Elt F) :=
  TRef.unary (TRef.of (T := ⟨S_, .f32⟩) main_cst_2) (TRef.of (T := ⟨S_, .f32⟩) main_call2_v0) id
abbrev op18 : HloOp τ sig (Elt F) :=
  TRef.unary (TRef.of (T := ⟨S_, .f32⟩) main_call2_v0) (TRef.of (T := ⟨S4x2048x64x64, .f32⟩) main_call2_v1) (broadcastInDim S4x2048x64x64 ![] bcast_S_S4x2048x64x64)
abbrev op19 : HloOp τ sig (Elt F) :=
  TRef.binary (TRef.of (T := ⟨S4x2048x64x64, .f32⟩) main_call2_v1) (TRef.of (T := ⟨S4x2048x64x64, .f32⟩) main_v9) (TRef.of (T := ⟨S4x2048x64x64, .f32⟩) main_call2_v2) maximumf
abbrev op20 : HloOp τ sig (Elt F) :=
  TRef.unary (TRef.of (T := ⟨S_, .f32⟩) main_cst_3) (TRef.of (T := ⟨S_, .f32⟩) main_call2_v3) id
abbrev op21 : HloOp τ sig (Elt F) :=
  TRef.unary (TRef.of (T := ⟨S_, .f32⟩) main_call2_v3) (TRef.of (T := ⟨S4x2048x64x64, .f32⟩) main_call2_v4) (broadcastInDim S4x2048x64x64 ![] bcast_S_S4x2048x64x64)
abbrev op22 : HloOp τ sig (Elt F) :=
  TRef.binary (TRef.of (T := ⟨S4x2048x64x64, .f32⟩) main_call2_v4) (TRef.of (T := ⟨S4x2048x64x64, .f32⟩) main_call2_v2) (TRef.of (T := ⟨S4x2048x64x64, .f32⟩) main_v10) minimumf
abbrev op23 : HloOp τ sig (Elt F) :=
  unary main_v6 main_v11 (broadcastInDim S4x2048x64x64 ![0, 1, 2, 3] bcast_S4x2048x64x1_S4x2048x64x64_0_1_2_3 : (⟨S4x2048x64x1, .f32⟩ : BufTy).Contents (Elt F) → (⟨S4x2048x64x64, .f32⟩ : BufTy).Contents (Elt F))
abbrev op24 : HloOp τ sig (Elt F) :=
  binary main_v10 main_v11 main_v12 (Host.divf : (⟨S4x2048x64x64, .f32⟩ : BufTy).Contents (Elt F) → (⟨S4x2048x64x64, .f32⟩ : BufTy).Contents (Elt F) → (⟨S4x2048x64x64, .f32⟩ : BufTy).Contents (Elt F))
abbrev op25 : HloOp τ sig (Elt F) :=
  reshape main_v12 main_v13 rfl shapeCasts_S4x2048x64x64_S4x2048x4096
abbrev op26 : HloOp τ sig (Elt F) :=
  binary main_v13 main_arg0 main_v14 (subf : (⟨S4x2048x4096, .f32⟩ : BufTy).Contents (Elt F) → (⟨S4x2048x4096, .f32⟩ : BufTy).Contents (Elt F) → (⟨S4x2048x4096, .f32⟩ : BufTy).Contents (Elt F))
abbrev op27 : HloOp τ sig (Elt F) :=
  binary main_arg0 main_v14 main_v15 (addf : (⟨S4x2048x4096, .f32⟩ : BufTy).Contents (Elt F) → (⟨S4x2048x4096, .f32⟩ : BufTy).Contents (Elt F) → (⟨S4x2048x4096, .f32⟩ : BufTy).Contents (Elt F))
abbrev op28 : HloOp τ sig (Elt F) :=
  unary main_arg1 main_v16 (Host.absf : (⟨S4096x4096, .f32⟩ : BufTy).Contents (Elt F) → (⟨S4096x4096, .f32⟩ : BufTy).Contents (Elt F))
abbrev op29 : HloOp τ sig (Elt F) :=
  nullary main_cst_4 (constant S_ .f32 0x00000000#32)
abbrev op30 : HloOp τ sig (Elt F) :=
  binary main_v16 main_cst_4 main_v17 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F))
abbrev op31 : HloOp τ sig (Elt F) :=
  unary main_v17 main_v18 (broadcastInDim S4096x1 ![0] bcast_S4096_S4096x1_0 : (⟨S4096, .f32⟩ : BufTy).Contents (Elt F) → (⟨S4096x1, .f32⟩ : BufTy).Contents (Elt F))
abbrev op32 : HloOp τ sig (Elt F) :=
  nullary main_cst_5 (constant S_ .f32 0x45800000#32)
abbrev op33 : HloOp τ sig (Elt F) :=
  unary main_cst_5 main_v19 (broadcastInDim S4096x1 ![] bcast_S_S4096x1 : (⟨S_, .f32⟩ : BufTy).Contents (Elt F) → (⟨S4096x1, .f32⟩ : BufTy).Contents (Elt F))
abbrev op34 : HloOp τ sig (Elt F) :=
  binary main_v18 main_v19 main_v20 (Host.divf : (⟨S4096x1, .f32⟩ : BufTy).Contents (Elt F) → (⟨S4096x1, .f32⟩ : BufTy).Contents (Elt F) → (⟨S4096x1, .f32⟩ : BufTy).Contents (Elt F))
abbrev op35 : HloOp τ sig (Elt F) :=
  nullary main_cst_6 (constant S_ .f32 0x3727C5AC#32)
abbrev op36 : HloOp τ sig (Elt F) :=
  TRef.unary (TRef.of (T := ⟨S_, .f32⟩) main_cst_6) (TRef.of (T := ⟨S_, .f32⟩) main_call3_v0) id
abbrev op37 : HloOp τ sig (Elt F) :=
  TRef.unary (TRef.of (T := ⟨S_, .f32⟩) main_call3_v0) (TRef.of (T := ⟨S4096x1, .f32⟩) main_call3_v1) (broadcastInDim S4096x1 ![] bcast_S_S4096x1)
abbrev op38 : HloOp τ sig (Elt F) :=
  TRef.binary (TRef.of (T := ⟨S4096x1, .f32⟩) main_call3_v1) (TRef.of (T := ⟨S4096x1, .f32⟩) main_v20) (TRef.of (T := ⟨S4096x1, .f32⟩) main_v21) maximumf
abbrev op39 : HloOp τ sig (Elt F) :=
  unary main_v21 main_v22 (broadcastInDim S4096x4096 ![0, 1] bcast_S4096x1_S4096x4096_0_1 : (⟨S4096x1, .f32⟩ : BufTy).Contents (Elt F) → (⟨S4096x4096, .f32⟩ : BufTy).Contents (Elt F))
abbrev op40 : HloOp τ sig (Elt F) :=
  binary main_arg1 main_v22 main_v23 (Host.divf : (⟨S4096x4096, .f32⟩ : BufTy).Contents (Elt F) → (⟨S4096x4096, .f32⟩ : BufTy).Contents (Elt F) → (⟨S4096x4096, .f32⟩ : BufTy).Contents (Elt F))
abbrev op41 : HloOp τ sig (Elt F) :=
  TRef.unary (TRef.of (T := ⟨S4096x4096, .f32⟩) main_v23) (TRef.of (T := ⟨S4096x4096, .f32⟩) main_v24) Host.roundeven
abbrev op42 : HloOp τ sig (Elt F) :=
  nullary main_cst_7 (constant S_ .f32 0xBF800000#32)
abbrev op43 : HloOp τ sig (Elt F) :=
  nullary main_cst_8 (constant S_ .f32 0x3F800000#32)
abbrev op44 : HloOp τ sig (Elt F) :=
  TRef.unary (TRef.of (T := ⟨S_, .f32⟩) main_cst_7) (TRef.of (T := ⟨S_, .f32⟩) main_call5_v0) id
abbrev op45 : HloOp τ sig (Elt F) :=
  TRef.unary (TRef.of (T := ⟨S_, .f32⟩) main_call5_v0) (TRef.of (T := ⟨S4096x4096, .f32⟩) main_call5_v1) (broadcastInDim S4096x4096 ![] bcast_S_S4096x4096)
abbrev op46 : HloOp τ sig (Elt F) :=
  TRef.binary (TRef.of (T := ⟨S4096x4096, .f32⟩) main_call5_v1) (TRef.of (T := ⟨S4096x4096, .f32⟩) main_v24) (TRef.of (T := ⟨S4096x4096, .f32⟩) main_call5_v2) maximumf
abbrev op47 : HloOp τ sig (Elt F) :=
  TRef.unary (TRef.of (T := ⟨S_, .f32⟩) main_cst_8) (TRef.of (T := ⟨S_, .f32⟩) main_call5_v3) id
abbrev op48 : HloOp τ sig (Elt F) :=
  TRef.unary (TRef.of (T := ⟨S_, .f32⟩) main_call5_v3) (TRef.of (T := ⟨S4096x4096, .f32⟩) main_call5_v4) (broadcastInDim S4096x4096 ![] bcast_S_S4096x4096)
abbrev op49 : HloOp τ sig (Elt F) :=
  TRef.binary (TRef.of (T := ⟨S4096x4096, .f32⟩) main_call5_v4) (TRef.of (T := ⟨S4096x4096, .f32⟩) main_call5_v2) (TRef.of (T := ⟨S4096x4096, .f32⟩) main_v25) minimumf
abbrev op50 : HloOp τ sig (Elt F) :=
  unary main_v21 main_v26 (broadcastInDim S4096x4096 ![0, 1] bcast_S4096x1_S4096x4096_0_1 : (⟨S4096x1, .f32⟩ : BufTy).Contents (Elt F) → (⟨S4096x4096, .f32⟩ : BufTy).Contents (Elt F))
abbrev op51 : HloOp τ sig (Elt F) :=
  binary main_v25 main_v26 main_v27 (mulf : (⟨S4096x4096, .f32⟩ : BufTy).Contents (Elt F) → (⟨S4096x4096, .f32⟩ : BufTy).Contents (Elt F) → (⟨S4096x4096, .f32⟩ : BufTy).Contents (Elt F))
abbrev op52 : HloOp τ sig (Elt F) :=
  binary main_v27 main_arg1 main_v28 (subf : (⟨S4096x4096, .f32⟩ : BufTy).Contents (Elt F) → (⟨S4096x4096, .f32⟩ : BufTy).Contents (Elt F) → (⟨S4096x4096, .f32⟩ : BufTy).Contents (Elt F))
abbrev op53 : HloOp τ sig (Elt F) :=
  binary main_arg1 main_v28 main_v29 (addf : (⟨S4096x4096, .f32⟩ : BufTy).Contents (Elt F) → (⟨S4096x4096, .f32⟩ : BufTy).Contents (Elt F) → (⟨S4096x4096, .f32⟩ : BufTy).Contents (Elt F))
abbrev op54 : HloOp τ sig (Elt F) :=
  binary main_v15 main_v29 main_v30 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F))

/-- The program's operations as one list. -/
abbrev ops : List (HloOp τ sig (Elt F)) :=
  [op0, op1, op2, op3, op4, op5, op6, op7, op8, op9, op10, op11, op12, op13, op14, op15, op16, op17, op18, op19, op20, op21, op22, op23, op24, op25, op26, op27, op28, op29, op30, op31, op32, op33, op34, op35, op36, op37, op38, op39, op40, op41, op42, op43, op44, op45, op46, op47, op48, op49, op50, op51, op52, op53, op54]

set_option maxRecDepth 8192 in
/-- The program is the line of these operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches buffers of the one memory only. -/
theorem ops_sub : (ops : List (HloOp τ sig (Elt F))).Forall fun op => op.bufs ⊆ tcRefs τ sig :=
  ⟨reshape_bufs_sub .., unary_bufs_sub .., nullary_bufs_sub .., binary_bufs_sub .., unary_bufs_sub .., nullary_bufs_sub .., unary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub .., binary_bufs_sub ..⟩

/-! ## A value at a buffer's own type

The operations of a called function are stated over values at the function's types and moved to each buffer's own type;
the two types are the same, so moving a value there or back does nothing. -/

theorem toBuf_main_cst_0 (v : (⟨S_, .f32⟩ : BufTy).Contents (Elt F)) :
    (TRef.of (sig := sig) (T := ⟨S_, .f32⟩) main_cst_0).toBuf (Val := Elt F) v = v := rfl
theorem ofBuf_main_cst_0 (v : main_cst_0.ty.Contents (Elt F)) :
    (TRef.of (sig := sig) (T := ⟨S_, .f32⟩) main_cst_0).ofBuf (Val := Elt F) v = v := rfl
theorem toBuf_main_call0_v0 (v : (⟨S_, .f32⟩ : BufTy).Contents (Elt F)) :
    (TRef.of (sig := sig) (T := ⟨S_, .f32⟩) main_call0_v0).toBuf (Val := Elt F) v = v := rfl
theorem ofBuf_main_call0_v0 (v : main_call0_v0.ty.Contents (Elt F)) :
    (TRef.of (sig := sig) (T := ⟨S_, .f32⟩) main_call0_v0).ofBuf (Val := Elt F) v = v := rfl
theorem toBuf_main_call0_v1 (v : (⟨S4x2048x64x1, .f32⟩ : BufTy).Contents (Elt F)) :
    (TRef.of (sig := sig) (T := ⟨S4x2048x64x1, .f32⟩) main_call0_v1).toBuf (Val := Elt F) v = v := rfl
theorem ofBuf_main_call0_v1 (v : main_call0_v1.ty.Contents (Elt F)) :
    (TRef.of (sig := sig) (T := ⟨S4x2048x64x1, .f32⟩) main_call0_v1).ofBuf (Val := Elt F) v = v := rfl
theorem toBuf_main_v3 (v : (⟨S4x2048x64x1, .f32⟩ : BufTy).Contents (Elt F)) :
    (TRef.of (sig := sig) (T := ⟨S4x2048x64x1, .f32⟩) main_v3).toBuf (Val := Elt F) v = v := rfl
theorem ofBuf_main_v3 (v : main_v3.ty.Contents (Elt F)) :
    (TRef.of (sig := sig) (T := ⟨S4x2048x64x1, .f32⟩) main_v3).ofBuf (Val := Elt F) v = v := rfl
theorem toBuf_main_v4 (v : (⟨S4x2048x64x1, .f32⟩ : BufTy).Contents (Elt F)) :
    (TRef.of (sig := sig) (T := ⟨S4x2048x64x1, .f32⟩) main_v4).toBuf (Val := Elt F) v = v := rfl
theorem ofBuf_main_v4 (v : main_v4.ty.Contents (Elt F)) :
    (TRef.of (sig := sig) (T := ⟨S4x2048x64x1, .f32⟩) main_v4).ofBuf (Val := Elt F) v = v := rfl
theorem toBuf_main_v8 (v : (⟨S4x2048x64x64, .f32⟩ : BufTy).Contents (Elt F)) :
    (TRef.of (sig := sig) (T := ⟨S4x2048x64x64, .f32⟩) main_v8).toBuf (Val := Elt F) v = v := rfl
theorem ofBuf_main_v8 (v : main_v8.ty.Contents (Elt F)) :
    (TRef.of (sig := sig) (T := ⟨S4x2048x64x64, .f32⟩) main_v8).ofBuf (Val := Elt F) v = v := rfl
theorem toBuf_main_v9 (v : (⟨S4x2048x64x64, .f32⟩ : BufTy).Contents (Elt F)) :
    (TRef.of (sig := sig) (T := ⟨S4x2048x64x64, .f32⟩) main_v9).toBuf (Val := Elt F) v = v := rfl
theorem ofBuf_main_v9 (v : main_v9.ty.Contents (Elt F)) :
    (TRef.of (sig := sig) (T := ⟨S4x2048x64x64, .f32⟩) main_v9).ofBuf (Val := Elt F) v = v := rfl
theorem toBuf_main_cst_2 (v : (⟨S_, .f32⟩ : BufTy).Contents (Elt F)) :
    (TRef.of (sig := sig) (T := ⟨S_, .f32⟩) main_cst_2).toBuf (Val := Elt F) v = v := rfl
theorem ofBuf_main_cst_2 (v : main_cst_2.ty.Contents (Elt F)) :
    (TRef.of (sig := sig) (T := ⟨S_, .f32⟩) main_cst_2).ofBuf (Val := Elt F) v = v := rfl
theorem toBuf_main_call2_v0 (v : (⟨S_, .f32⟩ : BufTy).Contents (Elt F)) :
    (TRef.of (sig := sig) (T := ⟨S_, .f32⟩) main_call2_v0).toBuf (Val := Elt F) v = v := rfl
theorem ofBuf_main_call2_v0 (v : main_call2_v0.ty.Contents (Elt F)) :
    (TRef.of (sig := sig) (T := ⟨S_, .f32⟩) main_call2_v0).ofBuf (Val := Elt F) v = v := rfl
theorem toBuf_main_call2_v1 (v : (⟨S4x2048x64x64, .f32⟩ : BufTy).Contents (Elt F)) :
    (TRef.of (sig := sig) (T := ⟨S4x2048x64x64, .f32⟩) main_call2_v1).toBuf (Val := Elt F) v = v := rfl
theorem ofBuf_main_call2_v1 (v : main_call2_v1.ty.Contents (Elt F)) :
    (TRef.of (sig := sig) (T := ⟨S4x2048x64x64, .f32⟩) main_call2_v1).ofBuf (Val := Elt F) v = v := rfl
theorem toBuf_main_call2_v2 (v : (⟨S4x2048x64x64, .f32⟩ : BufTy).Contents (Elt F)) :
    (TRef.of (sig := sig) (T := ⟨S4x2048x64x64, .f32⟩) main_call2_v2).toBuf (Val := Elt F) v = v := rfl
theorem ofBuf_main_call2_v2 (v : main_call2_v2.ty.Contents (Elt F)) :
    (TRef.of (sig := sig) (T := ⟨S4x2048x64x64, .f32⟩) main_call2_v2).ofBuf (Val := Elt F) v = v := rfl
theorem toBuf_main_cst_3 (v : (⟨S_, .f32⟩ : BufTy).Contents (Elt F)) :
    (TRef.of (sig := sig) (T := ⟨S_, .f32⟩) main_cst_3).toBuf (Val := Elt F) v = v := rfl
theorem ofBuf_main_cst_3 (v : main_cst_3.ty.Contents (Elt F)) :
    (TRef.of (sig := sig) (T := ⟨S_, .f32⟩) main_cst_3).ofBuf (Val := Elt F) v = v := rfl
theorem toBuf_main_call2_v3 (v : (⟨S_, .f32⟩ : BufTy).Contents (Elt F)) :
    (TRef.of (sig := sig) (T := ⟨S_, .f32⟩) main_call2_v3).toBuf (Val := Elt F) v = v := rfl
theorem ofBuf_main_call2_v3 (v : main_call2_v3.ty.Contents (Elt F)) :
    (TRef.of (sig := sig) (T := ⟨S_, .f32⟩) main_call2_v3).ofBuf (Val := Elt F) v = v := rfl
theorem toBuf_main_call2_v4 (v : (⟨S4x2048x64x64, .f32⟩ : BufTy).Contents (Elt F)) :
    (TRef.of (sig := sig) (T := ⟨S4x2048x64x64, .f32⟩) main_call2_v4).toBuf (Val := Elt F) v = v := rfl
theorem ofBuf_main_call2_v4 (v : main_call2_v4.ty.Contents (Elt F)) :
    (TRef.of (sig := sig) (T := ⟨S4x2048x64x64, .f32⟩) main_call2_v4).ofBuf (Val := Elt F) v = v := rfl
theorem toBuf_main_v10 (v : (⟨S4x2048x64x64, .f32⟩ : BufTy).Contents (Elt F)) :
    (TRef.of (sig := sig) (T := ⟨S4x2048x64x64, .f32⟩) main_v10).toBuf (Val := Elt F) v = v := rfl
theorem ofBuf_main_v10 (v : main_v10.ty.Contents (Elt F)) :
    (TRef.of (sig := sig) (T := ⟨S4x2048x64x64, .f32⟩) main_v10).ofBuf (Val := Elt F) v = v := rfl
theorem toBuf_main_cst_6 (v : (⟨S_, .f32⟩ : BufTy).Contents (Elt F)) :
    (TRef.of (sig := sig) (T := ⟨S_, .f32⟩) main_cst_6).toBuf (Val := Elt F) v = v := rfl
theorem ofBuf_main_cst_6 (v : main_cst_6.ty.Contents (Elt F)) :
    (TRef.of (sig := sig) (T := ⟨S_, .f32⟩) main_cst_6).ofBuf (Val := Elt F) v = v := rfl
theorem toBuf_main_call3_v0 (v : (⟨S_, .f32⟩ : BufTy).Contents (Elt F)) :
    (TRef.of (sig := sig) (T := ⟨S_, .f32⟩) main_call3_v0).toBuf (Val := Elt F) v = v := rfl
theorem ofBuf_main_call3_v0 (v : main_call3_v0.ty.Contents (Elt F)) :
    (TRef.of (sig := sig) (T := ⟨S_, .f32⟩) main_call3_v0).ofBuf (Val := Elt F) v = v := rfl
theorem toBuf_main_call3_v1 (v : (⟨S4096x1, .f32⟩ : BufTy).Contents (Elt F)) :
    (TRef.of (sig := sig) (T := ⟨S4096x1, .f32⟩) main_call3_v1).toBuf (Val := Elt F) v = v := rfl
theorem ofBuf_main_call3_v1 (v : main_call3_v1.ty.Contents (Elt F)) :
    (TRef.of (sig := sig) (T := ⟨S4096x1, .f32⟩) main_call3_v1).ofBuf (Val := Elt F) v = v := rfl
theorem toBuf_main_v20 (v : (⟨S4096x1, .f32⟩ : BufTy).Contents (Elt F)) :
    (TRef.of (sig := sig) (T := ⟨S4096x1, .f32⟩) main_v20).toBuf (Val := Elt F) v = v := rfl
theorem ofBuf_main_v20 (v : main_v20.ty.Contents (Elt F)) :
    (TRef.of (sig := sig) (T := ⟨S4096x1, .f32⟩) main_v20).ofBuf (Val := Elt F) v = v := rfl
theorem toBuf_main_v21 (v : (⟨S4096x1, .f32⟩ : BufTy).Contents (Elt F)) :
    (TRef.of (sig := sig) (T := ⟨S4096x1, .f32⟩) main_v21).toBuf (Val := Elt F) v = v := rfl
theorem ofBuf_main_v21 (v : main_v21.ty.Contents (Elt F)) :
    (TRef.of (sig := sig) (T := ⟨S4096x1, .f32⟩) main_v21).ofBuf (Val := Elt F) v = v := rfl
theorem toBuf_main_v23 (v : (⟨S4096x4096, .f32⟩ : BufTy).Contents (Elt F)) :
    (TRef.of (sig := sig) (T := ⟨S4096x4096, .f32⟩) main_v23).toBuf (Val := Elt F) v = v := rfl
theorem ofBuf_main_v23 (v : main_v23.ty.Contents (Elt F)) :
    (TRef.of (sig := sig) (T := ⟨S4096x4096, .f32⟩) main_v23).ofBuf (Val := Elt F) v = v := rfl
theorem toBuf_main_v24 (v : (⟨S4096x4096, .f32⟩ : BufTy).Contents (Elt F)) :
    (TRef.of (sig := sig) (T := ⟨S4096x4096, .f32⟩) main_v24).toBuf (Val := Elt F) v = v := rfl
theorem ofBuf_main_v24 (v : main_v24.ty.Contents (Elt F)) :
    (TRef.of (sig := sig) (T := ⟨S4096x4096, .f32⟩) main_v24).ofBuf (Val := Elt F) v = v := rfl
theorem toBuf_main_cst_7 (v : (⟨S_, .f32⟩ : BufTy).Contents (Elt F)) :
    (TRef.of (sig := sig) (T := ⟨S_, .f32⟩) main_cst_7).toBuf (Val := Elt F) v = v := rfl
theorem ofBuf_main_cst_7 (v : main_cst_7.ty.Contents (Elt F)) :
    (TRef.of (sig := sig) (T := ⟨S_, .f32⟩) main_cst_7).ofBuf (Val := Elt F) v = v := rfl
theorem toBuf_main_call5_v0 (v : (⟨S_, .f32⟩ : BufTy).Contents (Elt F)) :
    (TRef.of (sig := sig) (T := ⟨S_, .f32⟩) main_call5_v0).toBuf (Val := Elt F) v = v := rfl
theorem ofBuf_main_call5_v0 (v : main_call5_v0.ty.Contents (Elt F)) :
    (TRef.of (sig := sig) (T := ⟨S_, .f32⟩) main_call5_v0).ofBuf (Val := Elt F) v = v := rfl
theorem toBuf_main_call5_v1 (v : (⟨S4096x4096, .f32⟩ : BufTy).Contents (Elt F)) :
    (TRef.of (sig := sig) (T := ⟨S4096x4096, .f32⟩) main_call5_v1).toBuf (Val := Elt F) v = v := rfl
theorem ofBuf_main_call5_v1 (v : main_call5_v1.ty.Contents (Elt F)) :
    (TRef.of (sig := sig) (T := ⟨S4096x4096, .f32⟩) main_call5_v1).ofBuf (Val := Elt F) v = v := rfl
theorem toBuf_main_call5_v2 (v : (⟨S4096x4096, .f32⟩ : BufTy).Contents (Elt F)) :
    (TRef.of (sig := sig) (T := ⟨S4096x4096, .f32⟩) main_call5_v2).toBuf (Val := Elt F) v = v := rfl
theorem ofBuf_main_call5_v2 (v : main_call5_v2.ty.Contents (Elt F)) :
    (TRef.of (sig := sig) (T := ⟨S4096x4096, .f32⟩) main_call5_v2).ofBuf (Val := Elt F) v = v := rfl
theorem toBuf_main_cst_8 (v : (⟨S_, .f32⟩ : BufTy).Contents (Elt F)) :
    (TRef.of (sig := sig) (T := ⟨S_, .f32⟩) main_cst_8).toBuf (Val := Elt F) v = v := rfl
theorem ofBuf_main_cst_8 (v : main_cst_8.ty.Contents (Elt F)) :
    (TRef.of (sig := sig) (T := ⟨S_, .f32⟩) main_cst_8).ofBuf (Val := Elt F) v = v := rfl
theorem toBuf_main_call5_v3 (v : (⟨S_, .f32⟩ : BufTy).Contents (Elt F)) :
    (TRef.of (sig := sig) (T := ⟨S_, .f32⟩) main_call5_v3).toBuf (Val := Elt F) v = v := rfl
theorem ofBuf_main_call5_v3 (v : main_call5_v3.ty.Contents (Elt F)) :
    (TRef.of (sig := sig) (T := ⟨S_, .f32⟩) main_call5_v3).ofBuf (Val := Elt F) v = v := rfl
theorem toBuf_main_call5_v4 (v : (⟨S4096x4096, .f32⟩ : BufTy).Contents (Elt F)) :
    (TRef.of (sig := sig) (T := ⟨S4096x4096, .f32⟩) main_call5_v4).toBuf (Val := Elt F) v = v := rfl
theorem ofBuf_main_call5_v4 (v : main_call5_v4.ty.Contents (Elt F)) :
    (TRef.of (sig := sig) (T := ⟨S4096x4096, .f32⟩) main_call5_v4).ofBuf (Val := Elt F) v = v := rfl
theorem toBuf_main_v25 (v : (⟨S4096x4096, .f32⟩ : BufTy).Contents (Elt F)) :
    (TRef.of (sig := sig) (T := ⟨S4096x4096, .f32⟩) main_v25).toBuf (Val := Elt F) v = v := rfl
theorem ofBuf_main_v25 (v : main_v25.ty.Contents (Elt F)) :
    (TRef.of (sig := sig) (T := ⟨S4096x4096, .f32⟩) main_v25).ofBuf (Val := Elt F) v = v := rfl

/-! ## The buffers after the line -/

set_option maxHeartbeats 2000000 in
/-- Whatever holds of every contents with the last stage in the result buffer and the arguments as they were holds of
    the contents after the line. -/
theorem after_ops (V : Valuation τ sig (Elt F)) (P : Valuation τ sig (Elt F) → Prop)
    (hP : ∀ W : Valuation τ sig (Elt F),
      W (Proc.devRef (τ := τ) .tc main_v30) = val_main_v30 (F := F) (V (Proc.devRef (τ := τ) .tc main_arg0)) (V (Proc.devRef (τ := τ) .tc main_arg1)) →
      W (Proc.devRef (τ := τ) .tc main_arg0) = V (Proc.devRef (τ := τ) .tc main_arg0) → W (Proc.devRef (τ := τ) .tc main_arg1) = V (Proc.devRef (τ := τ) .tc main_arg1) → P W) :
    P (after (ops (F := F)) V) := by
  have h_main_arg0 : V (Proc.devRef (τ := τ) .tc main_arg0) = V (Proc.devRef (τ := τ) .tc main_arg0) := rfl
  have h_main_arg1 : V (Proc.devRef (τ := τ) .tc main_arg1) = V (Proc.devRef (τ := τ) .tc main_arg1) := rfl
  -- operation 0 writes main_v0
  rw [after_cons]
  have n_main_v0 : (op0 (F := F)).result V (Proc.devRef (τ := τ) .tc main_v0) = val_main_v0 (F := F) (V (Proc.devRef (τ := τ) .tc main_arg0)) := by
    rw [reshape_result] <;> rfl
  have k_main_arg0 : (op0 (F := F)).result V (Proc.devRef (τ := τ) .tc main_arg0) = (V (Proc.devRef (τ := τ) .tc main_arg0)) := by
    rw [reshape_result_ne (h := show main_arg0 ≠ main_v0 by decide)] <;> exact h_main_arg0
  have k_main_arg1 : (op0 (F := F)).result V (Proc.devRef (τ := τ) .tc main_arg1) = (V (Proc.devRef (τ := τ) .tc main_arg1)) := by
    rw [reshape_result_ne (h := show main_arg1 ≠ main_v0 by decide)] <;> exact h_main_arg1
  generalize (op0 (F := F)).result V = W0 at n_main_v0 k_main_arg0 k_main_arg1 ⊢
  clear h_main_arg0 h_main_arg1
  have h_main_v0 := n_main_v0; clear n_main_v0
  have h_main_arg0 := k_main_arg0; clear k_main_arg0
  have h_main_arg1 := k_main_arg1; clear k_main_arg1
  -- operation 1 writes main_v1
  rw [after_cons]
  have n_main_v1 : (op1 (F := F)).result W0 (Proc.devRef (τ := τ) .tc main_v1) = val_main_v1 (F := F) (V (Proc.devRef (τ := τ) .tc main_arg0)) := by
    rw [unary_result, h_main_v0] <;> rfl
  have k_main_arg0 : (op1 (F := F)).result W0 (Proc.devRef (τ := τ) .tc main_arg0) = (V (Proc.devRef (τ := τ) .tc main_arg0)) := by
    rw [unary_result_ne (h := show main_arg0 ≠ main_v1 by decide)] <;> exact h_main_arg0
  have k_main_arg1 : (op1 (F := F)).result W0 (Proc.devRef (τ := τ) .tc main_arg1) = (V (Proc.devRef (τ := τ) .tc main_arg1)) := by
    rw [unary_result_ne (h := show main_arg1 ≠ main_v1 by decide)] <;> exact h_main_arg1
  have k_main_v0 : (op1 (F := F)).result W0 (Proc.devRef (τ := τ) .tc main_v0) = val_main_v0 (F := F) (V (Proc.devRef (τ := τ) .tc main_arg0)) := by
    rw [unary_result_ne (h := show main_v0 ≠ main_v1 by decide)] <;> exact h_main_v0
  generalize (op1 (F := F)).result W0 = W1 at n_main_v1 k_main_arg0 k_main_arg1 k_main_v0 ⊢
  clear h_main_arg0 h_main_arg1 h_main_v0
  have h_main_v1 := n_main_v1; clear n_main_v1
  have h_main_arg0 := k_main_arg0; clear k_main_arg0
  have h_main_arg1 := k_main_arg1; clear k_main_arg1
  have h_main_v0 := k_main_v0; clear k_main_v0
  -- operation 2 writes main_cst
  rw [after_cons]
  have n_main_cst : (op2 (F := F)).result W1 (Proc.devRef (τ := τ) .tc main_cst) = val_main_cst (F := F) := by
    rw [nullary_result] <;> rfl
  have k_main_arg0 : (op2 (F := F)).result W1 (Proc.devRef (τ := τ) .tc main_arg0) = (V (Proc.devRef (τ := τ) .tc main_arg0)) := by
    rw [nullary_result_ne (h := show main_arg0 ≠ main_cst by decide)] <;> exact h_main_arg0
  have k_main_arg1 : (op2 (F := F)).result W1 (Proc.devRef (τ := τ) .tc main_arg1) = (V (Proc.devRef (τ := τ) .tc main_arg1)) := by
    rw [nullary_result_ne (h := show main_arg1 ≠ main_cst by decide)] <;> exact h_main_arg1
  have k_main_v0 : (op2 (F := F)).result W1 (Proc.devRef (τ := τ) .tc main_v0) = val_main_v0 (F := F) (V (Proc.devRef (τ := τ) .tc main_arg0)) := by
    rw [nullary_result_ne (h := show main_v0 ≠ main_cst by decide)] <;> exact h_main_v0
  have k_main_v1 : (op2 (F := F)).result W1 (Proc.devRef (τ := τ) .tc main_v1) = val_main_v1 (F := F) (V (Proc.devRef (τ := τ) .tc main_arg0)) := by
    rw [nullary_result_ne (h := show main_v1 ≠ main_cst by decide)] <;> exact h_main_v1
  generalize (op2 (F := F)).result W1 = W2 at n_main_cst k_main_arg0 k_main_arg1 k_main_v0 k_main_v1 ⊢
  clear h_main_arg0 h_main_arg1 h_main_v0 h_main_v1
  have h_main_cst := n_main_cst; clear n_main_cst
  have h_main_arg0 := k_main_arg0; clear k_main_arg0
  have h_main_arg1 := k_main_arg1; clear k_main_arg1
  have h_main_v0 := k_main_v0; clear k_main_v0
  have h_main_v1 := k_main_v1; clear k_main_v1
  -- operation 3 writes main_v2
  rw [after_cons]
  have n_main_v2 : (op3 (F := F)).result W2 (Proc.devRef (τ := τ) .tc main_v2) = val_main_v2 (F := F) (V (Proc.devRef (τ := τ) .tc main_arg0)) := by
    rw [binary_result, h_main_v1, h_main_cst] <;> rfl
  have k_main_arg0 : (op3 (F := F)).result W2 (Proc.devRef (τ := τ) .tc main_arg0) = (V (Proc.devRef (τ := τ) .tc main_arg0)) := by
    rw [binary_result_ne (h := show main_arg0 ≠ main_v2 by decide)] <;> exact h_main_arg0
  have k_main_arg1 : (op3 (F := F)).result W2 (Proc.devRef (τ := τ) .tc main_arg1) = (V (Proc.devRef (τ := τ) .tc main_arg1)) := by
    rw [binary_result_ne (h := show main_arg1 ≠ main_v2 by decide)] <;> exact h_main_arg1
  have k_main_v0 : (op3 (F := F)).result W2 (Proc.devRef (τ := τ) .tc main_v0) = val_main_v0 (F := F) (V (Proc.devRef (τ := τ) .tc main_arg0)) := by
    rw [binary_result_ne (h := show main_v0 ≠ main_v2 by decide)] <;> exact h_main_v0
  generalize (op3 (F := F)).result W2 = W3 at n_main_v2 k_main_arg0 k_main_arg1 k_main_v0 ⊢
  clear h_main_arg0 h_main_arg1 h_main_v0 h_main_v1 h_main_cst
  have h_main_v2 := n_main_v2; clear n_main_v2
  have h_main_arg0 := k_main_arg0; clear k_main_arg0
  have h_main_arg1 := k_main_arg1; clear k_main_arg1
  have h_main_v0 := k_main_v0; clear k_main_v0
  -- operation 4 writes main_v3
  rw [after_cons]
  have n_main_v3 : (op4 (F := F)).result W3 (Proc.devRef (τ := τ) .tc main_v3) = val_main_v3 (F := F) (V (Proc.devRef (τ := τ) .tc main_arg0)) := by
    rw [unary_result, h_main_v2] <;> rfl
  have k_main_arg0 : (op4 (F := F)).result W3 (Proc.devRef (τ := τ) .tc main_arg0) = (V (Proc.devRef (τ := τ) .tc main_arg0)) := by
    rw [unary_result_ne (h := show main_arg0 ≠ main_v3 by decide)] <;> exact h_main_arg0
  have k_main_arg1 : (op4 (F := F)).result W3 (Proc.devRef (τ := τ) .tc main_arg1) = (V (Proc.devRef (τ := τ) .tc main_arg1)) := by
    rw [unary_result_ne (h := show main_arg1 ≠ main_v3 by decide)] <;> exact h_main_arg1
  have k_main_v0 : (op4 (F := F)).result W3 (Proc.devRef (τ := τ) .tc main_v0) = val_main_v0 (F := F) (V (Proc.devRef (τ := τ) .tc main_arg0)) := by
    rw [unary_result_ne (h := show main_v0 ≠ main_v3 by decide)] <;> exact h_main_v0
  generalize (op4 (F := F)).result W3 = W4 at n_main_v3 k_main_arg0 k_main_arg1 k_main_v0 ⊢
  clear h_main_arg0 h_main_arg1 h_main_v0 h_main_v2
  have h_main_v3 := n_main_v3; clear n_main_v3
  have h_main_arg0 := k_main_arg0; clear k_main_arg0
  have h_main_arg1 := k_main_arg1; clear k_main_arg1
  have h_main_v0 := k_main_v0; clear k_main_v0
  -- operation 5 writes main_cst_0
  rw [after_cons]
  have n_main_cst_0 : (op5 (F := F)).result W4 (Proc.devRef (τ := τ) .tc main_cst_0) = val_main_cst_0 (F := F) := by
    rw [nullary_result] <;> rfl
  have k_main_arg0 : (op5 (F := F)).result W4 (Proc.devRef (τ := τ) .tc main_arg0) = (V (Proc.devRef (τ := τ) .tc main_arg0)) := by
    rw [nullary_result_ne (h := show main_arg0 ≠ main_cst_0 by decide)] <;> exact h_main_arg0
  have k_main_arg1 : (op5 (F := F)).result W4 (Proc.devRef (τ := τ) .tc main_arg1) = (V (Proc.devRef (τ := τ) .tc main_arg1)) := by
    rw [nullary_result_ne (h := show main_arg1 ≠ main_cst_0 by decide)] <;> exact h_main_arg1
  have k_main_v0 : (op5 (F := F)).result W4 (Proc.devRef (τ := τ) .tc main_v0) = val_main_v0 (F := F) (V (Proc.devRef (τ := τ) .tc main_arg0)) := by
    rw [nullary_result_ne (h := show main_v0 ≠ main_cst_0 by decide)] <;> exact h_main_v0
  have k_main_v3 : (op5 (F := F)).result W4 (Proc.devRef (τ := τ) .tc main_v3) = val_main_v3 (F := F) (V (Proc.devRef (τ := τ) .tc main_arg0)) := by
    rw [nullary_result_ne (h := show main_v3 ≠ main_cst_0 by decide)] <;> exact h_main_v3
  generalize (op5 (F := F)).result W4 = W5 at n_main_cst_0 k_main_arg0 k_main_arg1 k_main_v0 k_main_v3 ⊢
  clear h_main_arg0 h_main_arg1 h_main_v0 h_main_v3
  have h_main_cst_0 := n_main_cst_0; clear n_main_cst_0
  have h_main_arg0 := k_main_arg0; clear k_main_arg0
  have h_main_arg1 := k_main_arg1; clear k_main_arg1
  have h_main_v0 := k_main_v0; clear k_main_v0
  have h_main_v3 := k_main_v3; clear k_main_v3
  -- operation 6 writes main_call0_v0
  rw [after_cons]
  have n_main_call0_v0 : (op6 (F := F)).result W5 (Proc.devRef (τ := τ) .tc main_call0_v0) = val_main_call0_v0 (F := F) := by
    rw [unary_result]
    beta_reduce
    rw [toBuf_main_call0_v0, ofBuf_main_cst_0, h_main_cst_0] <;> rfl
  have k_main_arg0 : (op6 (F := F)).result W5 (Proc.devRef (τ := τ) .tc main_arg0) = (V (Proc.devRef (τ := τ) .tc main_arg0)) := by
    rw [unary_result_ne (h := show main_arg0 ≠ main_call0_v0 by decide)] <;> exact h_main_arg0
  have k_main_arg1 : (op6 (F := F)).result W5 (Proc.devRef (τ := τ) .tc main_arg1) = (V (Proc.devRef (τ := τ) .tc main_arg1)) := by
    rw [unary_result_ne (h := show main_arg1 ≠ main_call0_v0 by decide)] <;> exact h_main_arg1
  have k_main_v0 : (op6 (F := F)).result W5 (Proc.devRef (τ := τ) .tc main_v0) = val_main_v0 (F := F) (V (Proc.devRef (τ := τ) .tc main_arg0)) := by
    rw [unary_result_ne (h := show main_v0 ≠ main_call0_v0 by decide)] <;> exact h_main_v0
  have k_main_v3 : (op6 (F := F)).result W5 (Proc.devRef (τ := τ) .tc main_v3) = val_main_v3 (F := F) (V (Proc.devRef (τ := τ) .tc main_arg0)) := by
    rw [unary_result_ne (h := show main_v3 ≠ main_call0_v0 by decide)] <;> exact h_main_v3
  generalize (op6 (F := F)).result W5 = W6 at n_main_call0_v0 k_main_arg0 k_main_arg1 k_main_v0 k_main_v3 ⊢
  clear h_main_arg0 h_main_arg1 h_main_v0 h_main_v3 h_main_cst_0
  have h_main_call0_v0 := n_main_call0_v0; clear n_main_call0_v0
  have h_main_arg0 := k_main_arg0; clear k_main_arg0
  have h_main_arg1 := k_main_arg1; clear k_main_arg1
  have h_main_v0 := k_main_v0; clear k_main_v0
  have h_main_v3 := k_main_v3; clear k_main_v3
  -- operation 7 writes main_call0_v1
  rw [after_cons]
  have n_main_call0_v1 : (op7 (F := F)).result W6 (Proc.devRef (τ := τ) .tc main_call0_v1) = val_main_call0_v1 (F := F) := by
    rw [unary_result]
    beta_reduce
    rw [toBuf_main_call0_v1, ofBuf_main_call0_v0, h_main_call0_v0] <;> rfl
  have k_main_arg0 : (op7 (F := F)).result W6 (Proc.devRef (τ := τ) .tc main_arg0) = (V (Proc.devRef (τ := τ) .tc main_arg0)) := by
    rw [unary_result_ne (h := show main_arg0 ≠ main_call0_v1 by decide)] <;> exact h_main_arg0
  have k_main_arg1 : (op7 (F := F)).result W6 (Proc.devRef (τ := τ) .tc main_arg1) = (V (Proc.devRef (τ := τ) .tc main_arg1)) := by
    rw [unary_result_ne (h := show main_arg1 ≠ main_call0_v1 by decide)] <;> exact h_main_arg1
  have k_main_v0 : (op7 (F := F)).result W6 (Proc.devRef (τ := τ) .tc main_v0) = val_main_v0 (F := F) (V (Proc.devRef (τ := τ) .tc main_arg0)) := by
    rw [unary_result_ne (h := show main_v0 ≠ main_call0_v1 by decide)] <;> exact h_main_v0
  have k_main_v3 : (op7 (F := F)).result W6 (Proc.devRef (τ := τ) .tc main_v3) = val_main_v3 (F := F) (V (Proc.devRef (τ := τ) .tc main_arg0)) := by
    rw [unary_result_ne (h := show main_v3 ≠ main_call0_v1 by decide)] <;> exact h_main_v3
  generalize (op7 (F := F)).result W6 = W7 at n_main_call0_v1 k_main_arg0 k_main_arg1 k_main_v0 k_main_v3 ⊢
  clear h_main_arg0 h_main_arg1 h_main_v0 h_main_v3 h_main_call0_v0
  have h_main_call0_v1 := n_main_call0_v1; clear n_main_call0_v1
  have h_main_arg0 := k_main_arg0; clear k_main_arg0
  have h_main_arg1 := k_main_arg1; clear k_main_arg1
  have h_main_v0 := k_main_v0; clear k_main_v0
  have h_main_v3 := k_main_v3; clear k_main_v3
  -- operation 8 writes main_v4
  rw [after_cons]
  have n_main_v4 : (op8 (F := F)).result W7 (Proc.devRef (τ := τ) .tc main_v4) = val_main_v4 (F := F) (V (Proc.devRef (τ := τ) .tc main_arg0)) := by
    rw [binary_result]
    beta_reduce
    rw [toBuf_main_v4, ofBuf_main_call0_v1, ofBuf_main_v3, h_main_call0_v1, h_main_v3] <;> rfl
  have k_main_arg0 : (op8 (F := F)).result W7 (Proc.devRef (τ := τ) .tc main_arg0) = (V (Proc.devRef (τ := τ) .tc main_arg0)) := by
    rw [binary_result_ne (h := show main_arg0 ≠ main_v4 by decide)] <;> exact h_main_arg0
  have k_main_arg1 : (op8 (F := F)).result W7 (Proc.devRef (τ := τ) .tc main_arg1) = (V (Proc.devRef (τ := τ) .tc main_arg1)) := by
    rw [binary_result_ne (h := show main_arg1 ≠ main_v4 by decide)] <;> exact h_main_arg1
  have k_main_v0 : (op8 (F := F)).result W7 (Proc.devRef (τ := τ) .tc main_v0) = val_main_v0 (F := F) (V (Proc.devRef (τ := τ) .tc main_arg0)) := by
    rw [binary_result_ne (h := show main_v0 ≠ main_v4 by decide)] <;> exact h_main_v0
  generalize (op8 (F := F)).result W7 = W8 at n_main_v4 k_main_arg0 k_main_arg1 k_main_v0 ⊢
  clear h_main_arg0 h_main_arg1 h_main_v0 h_main_v3 h_main_call0_v1
  have h_main_v4 := n_main_v4; clear n_main_v4
  have h_main_arg0 := k_main_arg0; clear k_main_arg0
  have h_main_arg1 := k_main_arg1; clear k_main_arg1
  have h_main_v0 := k_main_v0; clear k_main_v0
  -- operation 9 writes main_cst_1
  rw [after_cons]
  have n_main_cst_1 : (op9 (F := F)).result W8 (Proc.devRef (τ := τ) .tc main_cst_1) = val_main_cst_1 (F := F) := by
    rw [nullary_result] <;> rfl
  have k_main_arg0 : (op9 (F := F)).result W8 (Proc.devRef (τ := τ) .tc main_arg0) = (V (Proc.devRef (τ := τ) .tc main_arg0)) := by
    rw [nullary_result_ne (h := show main_arg0 ≠ main_cst_1 by decide)] <;> exact h_main_arg0
  have k_main_arg1 : (op9 (F := F)).result W8 (Proc.devRef (τ := τ) .tc main_arg1) = (V (Proc.devRef (τ := τ) .tc main_arg1)) := by
    rw [nullary_result_ne (h := show main_arg1 ≠ main_cst_1 by decide)] <;> exact h_main_arg1
  have k_main_v0 : (op9 (F := F)).result W8 (Proc.devRef (τ := τ) .tc main_v0) = val_main_v0 (F := F) (V (Proc.devRef (τ := τ) .tc main_arg0)) := by
    rw [nullary_result_ne (h := show main_v0 ≠ main_cst_1 by decide)] <;> exact h_main_v0
  have k_main_v4 : (op9 (F := F)).result W8 (Proc.devRef (τ := τ) .tc main_v4) = val_main_v4 (F := F) (V (Proc.devRef (τ := τ) .tc main_arg0)) := by
    rw [nullary_result_ne (h := show main_v4 ≠ main_cst_1 by decide)] <;> exact h_main_v4
  generalize (op9 (F := F)).result W8 = W9 at n_main_cst_1 k_main_arg0 k_main_arg1 k_main_v0 k_main_v4 ⊢
  clear h_main_arg0 h_main_arg1 h_main_v0 h_main_v4
  have h_main_cst_1 := n_main_cst_1; clear n_main_cst_1
  have h_main_arg0 := k_main_arg0; clear k_main_arg0
  have h_main_arg1 := k_main_arg1; clear k_main_arg1
  have h_main_v0 := k_main_v0; clear k_main_v0
  have h_main_v4 := k_main_v4; clear k_main_v4
  -- operation 10 writes main_v5
  rw [after_cons]
  have n_main_v5 : (op10 (F := F)).result W9 (Proc.devRef (τ := τ) .tc main_v5) = val_main_v5 (F := F) := by
    rw [unary_result, h_main_cst_1] <;> rfl
  have k_main_arg0 : (op10 (F := F)).result W9 (Proc.devRef (τ := τ) .tc main_arg0) = (V (Proc.devRef (τ := τ) .tc main_arg0)) := by
    rw [unary_result_ne (h := show main_arg0 ≠ main_v5 by decide)] <;> exact h_main_arg0
  have k_main_arg1 : (op10 (F := F)).result W9 (Proc.devRef (τ := τ) .tc main_arg1) = (V (Proc.devRef (τ := τ) .tc main_arg1)) := by
    rw [unary_result_ne (h := show main_arg1 ≠ main_v5 by decide)] <;> exact h_main_arg1
  have k_main_v0 : (op10 (F := F)).result W9 (Proc.devRef (τ := τ) .tc main_v0) = val_main_v0 (F := F) (V (Proc.devRef (τ := τ) .tc main_arg0)) := by
    rw [unary_result_ne (h := show main_v0 ≠ main_v5 by decide)] <;> exact h_main_v0
  have k_main_v4 : (op10 (F := F)).result W9 (Proc.devRef (τ := τ) .tc main_v4) = val_main_v4 (F := F) (V (Proc.devRef (τ := τ) .tc main_arg0)) := by
    rw [unary_result_ne (h := show main_v4 ≠ main_v5 by decide)] <;> exact h_main_v4
  generalize (op10 (F := F)).result W9 = W10 at n_main_v5 k_main_arg0 k_main_arg1 k_main_v0 k_main_v4 ⊢
  clear h_main_arg0 h_main_arg1 h_main_v0 h_main_v4 h_main_cst_1
  have h_main_v5 := n_main_v5; clear n_main_v5
  have h_main_arg0 := k_main_arg0; clear k_main_arg0
  have h_main_arg1 := k_main_arg1; clear k_main_arg1
  have h_main_v0 := k_main_v0; clear k_main_v0
  have h_main_v4 := k_main_v4; clear k_main_v4
  -- operation 11 writes main_v6
  rw [after_cons]
  have n_main_v6 : (op11 (F := F)).result W10 (Proc.devRef (τ := τ) .tc main_v6) = val_main_v6 (F := F) (V (Proc.devRef (τ := τ) .tc main_arg0)) := by
    rw [binary_result, h_main_v5, h_main_v4] <;> rfl
  have k_main_arg0 : (op11 (F := F)).result W10 (Proc.devRef (τ := τ) .tc main_arg0) = (V (Proc.devRef (τ := τ) .tc main_arg0)) := by
    rw [binary_result_ne (h := show main_arg0 ≠ main_v6 by decide)] <;> exact h_main_arg0
  have k_main_arg1 : (op11 (F := F)).result W10 (Proc.devRef (τ := τ) .tc main_arg1) = (V (Proc.devRef (τ := τ) .tc main_arg1)) := by
    rw [binary_result_ne (h := show main_arg1 ≠ main_v6 by decide)] <;> exact h_main_arg1
  have k_main_v0 : (op11 (F := F)).result W10 (Proc.devRef (τ := τ) .tc main_v0) = val_main_v0 (F := F) (V (Proc.devRef (τ := τ) .tc main_arg0)) := by
    rw [binary_result_ne (h := show main_v0 ≠ main_v6 by decide)] <;> exact h_main_v0
  generalize (op11 (F := F)).result W10 = W11 at n_main_v6 k_main_arg0 k_main_arg1 k_main_v0 ⊢
  clear h_main_arg0 h_main_arg1 h_main_v0 h_main_v4 h_main_v5
  have h_main_v6 := n_main_v6; clear n_main_v6
  have h_main_arg0 := k_main_arg0; clear k_main_arg0
  have h_main_arg1 := k_main_arg1; clear k_main_arg1
  have h_main_v0 := k_main_v0; clear k_main_v0
  -- operation 12 writes main_v7
  rw [after_cons]
  have n_main_v7 : (op12 (F := F)).result W11 (Proc.devRef (τ := τ) .tc main_v7) = val_main_v7 (F := F) (V (Proc.devRef (τ := τ) .tc main_arg0)) := by
    rw [unary_result, h_main_v6] <;> rfl
  have k_main_arg0 : (op12 (F := F)).result W11 (Proc.devRef (τ := τ) .tc main_arg0) = (V (Proc.devRef (τ := τ) .tc main_arg0)) := by
    rw [unary_result_ne (h := show main_arg0 ≠ main_v7 by decide)] <;> exact h_main_arg0
  have k_main_arg1 : (op12 (F := F)).result W11 (Proc.devRef (τ := τ) .tc main_arg1) = (V (Proc.devRef (τ := τ) .tc main_arg1)) := by
    rw [unary_result_ne (h := show main_arg1 ≠ main_v7 by decide)] <;> exact h_main_arg1
  have k_main_v0 : (op12 (F := F)).result W11 (Proc.devRef (τ := τ) .tc main_v0) = val_main_v0 (F := F) (V (Proc.devRef (τ := τ) .tc main_arg0)) := by
    rw [unary_result_ne (h := show main_v0 ≠ main_v7 by decide)] <;> exact h_main_v0
  have k_main_v6 : (op12 (F := F)).result W11 (Proc.devRef (τ := τ) .tc main_v6) = val_main_v6 (F := F) (V (Proc.devRef (τ := τ) .tc main_arg0)) := by
    rw [unary_result_ne (h := show main_v6 ≠ main_v7 by decide)] <;> exact h_main_v6
  generalize (op12 (F := F)).result W11 = W12 at n_main_v7 k_main_arg0 k_main_arg1 k_main_v0 k_main_v6 ⊢
  clear h_main_arg0 h_main_arg1 h_main_v0 h_main_v6
  have h_main_v7 := n_main_v7; clear n_main_v7
  have h_main_arg0 := k_main_arg0; clear k_main_arg0
  have h_main_arg1 := k_main_arg1; clear k_main_arg1
  have h_main_v0 := k_main_v0; clear k_main_v0
  have h_main_v6 := k_main_v6; clear k_main_v6
  -- operation 13 writes main_v8
  rw [after_cons]
  have n_main_v8 : (op13 (F := F)).result W12 (Proc.devRef (τ := τ) .tc main_v8) = val_main_v8 (F := F) (V (Proc.devRef (τ := τ) .tc main_arg0)) := by
    rw [binary_result, h_main_v0, h_main_v7] <;> rfl
  have k_main_arg0 : (op13 (F := F)).result W12 (Proc.devRef (τ := τ) .tc main_arg0) = (V (Proc.devRef (τ := τ) .tc main_arg0)) := by
    rw [binary_result_ne (h := show main_arg0 ≠ main_v8 by decide)] <;> exact h_main_arg0
  have k_main_arg1 : (op13 (F := F)).result W12 (Proc.devRef (τ := τ) .tc main_arg1) = (V (Proc.devRef (τ := τ) .tc main_arg1)) := by
    rw [binary_result_ne (h := show main_arg1 ≠ main_v8 by decide)] <;> exact h_main_arg1
  have k_main_v6 : (op13 (F := F)).result W12 (Proc.devRef (τ := τ) .tc main_v6) = val_main_v6 (F := F) (V (Proc.devRef (τ := τ) .tc main_arg0)) := by
    rw [binary_result_ne (h := show main_v6 ≠ main_v8 by decide)] <;> exact h_main_v6
  generalize (op13 (F := F)).result W12 = W13 at n_main_v8 k_main_arg0 k_main_arg1 k_main_v6 ⊢
  clear h_main_arg0 h_main_arg1 h_main_v0 h_main_v6 h_main_v7
  have h_main_v8 := n_main_v8; clear n_main_v8
  have h_main_arg0 := k_main_arg0; clear k_main_arg0
  have h_main_arg1 := k_main_arg1; clear k_main_arg1
  have h_main_v6 := k_main_v6; clear k_main_v6
  -- operation 14 writes main_v9
  rw [after_cons]
  have n_main_v9 : (op14 (F := F)).result W13 (Proc.devRef (τ := τ) .tc main_v9) = val_main_v9 (F := F) (V (Proc.devRef (τ := τ) .tc main_arg0)) := by
    rw [unary_result]
    beta_reduce
    rw [toBuf_main_v9, ofBuf_main_v8, h_main_v8] <;> rfl
  have k_main_arg0 : (op14 (F := F)).result W13 (Proc.devRef (τ := τ) .tc main_arg0) = (V (Proc.devRef (τ := τ) .tc main_arg0)) := by
    rw [unary_result_ne (h := show main_arg0 ≠ main_v9 by decide)] <;> exact h_main_arg0
  have k_main_arg1 : (op14 (F := F)).result W13 (Proc.devRef (τ := τ) .tc main_arg1) = (V (Proc.devRef (τ := τ) .tc main_arg1)) := by
    rw [unary_result_ne (h := show main_arg1 ≠ main_v9 by decide)] <;> exact h_main_arg1
  have k_main_v6 : (op14 (F := F)).result W13 (Proc.devRef (τ := τ) .tc main_v6) = val_main_v6 (F := F) (V (Proc.devRef (τ := τ) .tc main_arg0)) := by
    rw [unary_result_ne (h := show main_v6 ≠ main_v9 by decide)] <;> exact h_main_v6
  generalize (op14 (F := F)).result W13 = W14 at n_main_v9 k_main_arg0 k_main_arg1 k_main_v6 ⊢
  clear h_main_arg0 h_main_arg1 h_main_v6 h_main_v8
  have h_main_v9 := n_main_v9; clear n_main_v9
  have h_main_arg0 := k_main_arg0; clear k_main_arg0
  have h_main_arg1 := k_main_arg1; clear k_main_arg1
  have h_main_v6 := k_main_v6; clear k_main_v6
  -- operation 15 writes main_cst_2
  rw [after_cons]
  have n_main_cst_2 : (op15 (F := F)).result W14 (Proc.devRef (τ := τ) .tc main_cst_2) = val_main_cst_2 (F := F) := by
    rw [nullary_result] <;> rfl
  have k_main_arg0 : (op15 (F := F)).result W14 (Proc.devRef (τ := τ) .tc main_arg0) = (V (Proc.devRef (τ := τ) .tc main_arg0)) := by
    rw [nullary_result_ne (h := show main_arg0 ≠ main_cst_2 by decide)] <;> exact h_main_arg0
  have k_main_arg1 : (op15 (F := F)).result W14 (Proc.devRef (τ := τ) .tc main_arg1) = (V (Proc.devRef (τ := τ) .tc main_arg1)) := by
    rw [nullary_result_ne (h := show main_arg1 ≠ main_cst_2 by decide)] <;> exact h_main_arg1
  have k_main_v6 : (op15 (F := F)).result W14 (Proc.devRef (τ := τ) .tc main_v6) = val_main_v6 (F := F) (V (Proc.devRef (τ := τ) .tc main_arg0)) := by
    rw [nullary_result_ne (h := show main_v6 ≠ main_cst_2 by decide)] <;> exact h_main_v6
  have k_main_v9 : (op15 (F := F)).result W14 (Proc.devRef (τ := τ) .tc main_v9) = val_main_v9 (F := F) (V (Proc.devRef (τ := τ) .tc main_arg0)) := by
    rw [nullary_result_ne (h := show main_v9 ≠ main_cst_2 by decide)] <;> exact h_main_v9
  generalize (op15 (F := F)).result W14 = W15 at n_main_cst_2 k_main_arg0 k_main_arg1 k_main_v6 k_main_v9 ⊢
  clear h_main_arg0 h_main_arg1 h_main_v6 h_main_v9
  have h_main_cst_2 := n_main_cst_2; clear n_main_cst_2
  have h_main_arg0 := k_main_arg0; clear k_main_arg0
  have h_main_arg1 := k_main_arg1; clear k_main_arg1
  have h_main_v6 := k_main_v6; clear k_main_v6
  have h_main_v9 := k_main_v9; clear k_main_v9
  -- operation 16 writes main_cst_3
  rw [after_cons]
  have n_main_cst_3 : (op16 (F := F)).result W15 (Proc.devRef (τ := τ) .tc main_cst_3) = val_main_cst_3 (F := F) := by
    rw [nullary_result] <;> rfl
  have k_main_arg0 : (op16 (F := F)).result W15 (Proc.devRef (τ := τ) .tc main_arg0) = (V (Proc.devRef (τ := τ) .tc main_arg0)) := by
    rw [nullary_result_ne (h := show main_arg0 ≠ main_cst_3 by decide)] <;> exact h_main_arg0
  have k_main_arg1 : (op16 (F := F)).result W15 (Proc.devRef (τ := τ) .tc main_arg1) = (V (Proc.devRef (τ := τ) .tc main_arg1)) := by
    rw [nullary_result_ne (h := show main_arg1 ≠ main_cst_3 by decide)] <;> exact h_main_arg1
  have k_main_v6 : (op16 (F := F)).result W15 (Proc.devRef (τ := τ) .tc main_v6) = val_main_v6 (F := F) (V (Proc.devRef (τ := τ) .tc main_arg0)) := by
    rw [nullary_result_ne (h := show main_v6 ≠ main_cst_3 by decide)] <;> exact h_main_v6
  have k_main_v9 : (op16 (F := F)).result W15 (Proc.devRef (τ := τ) .tc main_v9) = val_main_v9 (F := F) (V (Proc.devRef (τ := τ) .tc main_arg0)) := by
    rw [nullary_result_ne (h := show main_v9 ≠ main_cst_3 by decide)] <;> exact h_main_v9
  have k_main_cst_2 : (op16 (F := F)).result W15 (Proc.devRef (τ := τ) .tc main_cst_2) = val_main_cst_2 (F := F) := by
    rw [nullary_result_ne (h := show main_cst_2 ≠ main_cst_3 by decide)] <;> exact h_main_cst_2
  generalize (op16 (F := F)).result W15 = W16 at n_main_cst_3 k_main_arg0 k_main_arg1 k_main_v6 k_main_v9 k_main_cst_2 ⊢
  clear h_main_arg0 h_main_arg1 h_main_v6 h_main_v9 h_main_cst_2
  have h_main_cst_3 := n_main_cst_3; clear n_main_cst_3
  have h_main_arg0 := k_main_arg0; clear k_main_arg0
  have h_main_arg1 := k_main_arg1; clear k_main_arg1
  have h_main_v6 := k_main_v6; clear k_main_v6
  have h_main_v9 := k_main_v9; clear k_main_v9
  have h_main_cst_2 := k_main_cst_2; clear k_main_cst_2
  -- operation 17 writes main_call2_v0
  rw [after_cons]
  have n_main_call2_v0 : (op17 (F := F)).result W16 (Proc.devRef (τ := τ) .tc main_call2_v0) = val_main_call2_v0 (F := F) := by
    rw [unary_result]
    beta_reduce
    rw [toBuf_main_call2_v0, ofBuf_main_cst_2, h_main_cst_2] <;> rfl
  have k_main_arg0 : (op17 (F := F)).result W16 (Proc.devRef (τ := τ) .tc main_arg0) = (V (Proc.devRef (τ := τ) .tc main_arg0)) := by
    rw [unary_result_ne (h := show main_arg0 ≠ main_call2_v0 by decide)] <;> exact h_main_arg0
  have k_main_arg1 : (op17 (F := F)).result W16 (Proc.devRef (τ := τ) .tc main_arg1) = (V (Proc.devRef (τ := τ) .tc main_arg1)) := by
    rw [unary_result_ne (h := show main_arg1 ≠ main_call2_v0 by decide)] <;> exact h_main_arg1
  have k_main_v6 : (op17 (F := F)).result W16 (Proc.devRef (τ := τ) .tc main_v6) = val_main_v6 (F := F) (V (Proc.devRef (τ := τ) .tc main_arg0)) := by
    rw [unary_result_ne (h := show main_v6 ≠ main_call2_v0 by decide)] <;> exact h_main_v6
  have k_main_v9 : (op17 (F := F)).result W16 (Proc.devRef (τ := τ) .tc main_v9) = val_main_v9 (F := F) (V (Proc.devRef (τ := τ) .tc main_arg0)) := by
    rw [unary_result_ne (h := show main_v9 ≠ main_call2_v0 by decide)] <;> exact h_main_v9
  have k_main_cst_3 : (op17 (F := F)).result W16 (Proc.devRef (τ := τ) .tc main_cst_3) = val_main_cst_3 (F := F) := by
    rw [unary_result_ne (h := show main_cst_3 ≠ main_call2_v0 by decide)] <;> exact h_main_cst_3
  generalize (op17 (F := F)).result W16 = W17 at n_main_call2_v0 k_main_arg0 k_main_arg1 k_main_v6 k_main_v9 k_main_cst_3 ⊢
  clear h_main_arg0 h_main_arg1 h_main_v6 h_main_v9 h_main_cst_2 h_main_cst_3
  have h_main_call2_v0 := n_main_call2_v0; clear n_main_call2_v0
  have h_main_arg0 := k_main_arg0; clear k_main_arg0
  have h_main_arg1 := k_main_arg1; clear k_main_arg1
  have h_main_v6 := k_main_v6; clear k_main_v6
  have h_main_v9 := k_main_v9; clear k_main_v9
  have h_main_cst_3 := k_main_cst_3; clear k_main_cst_3
  -- operation 18 writes main_call2_v1
  rw [after_cons]
  have n_main_call2_v1 : (op18 (F := F)).result W17 (Proc.devRef (τ := τ) .tc main_call2_v1) = val_main_call2_v1 (F := F) := by
    rw [unary_result]
    beta_reduce
    rw [toBuf_main_call2_v1, ofBuf_main_call2_v0, h_main_call2_v0] <;> rfl
  have k_main_arg0 : (op18 (F := F)).result W17 (Proc.devRef (τ := τ) .tc main_arg0) = (V (Proc.devRef (τ := τ) .tc main_arg0)) := by
    rw [unary_result_ne (h := show main_arg0 ≠ main_call2_v1 by decide)] <;> exact h_main_arg0
  have k_main_arg1 : (op18 (F := F)).result W17 (Proc.devRef (τ := τ) .tc main_arg1) = (V (Proc.devRef (τ := τ) .tc main_arg1)) := by
    rw [unary_result_ne (h := show main_arg1 ≠ main_call2_v1 by decide)] <;> exact h_main_arg1
  have k_main_v6 : (op18 (F := F)).result W17 (Proc.devRef (τ := τ) .tc main_v6) = val_main_v6 (F := F) (V (Proc.devRef (τ := τ) .tc main_arg0)) := by
    rw [unary_result_ne (h := show main_v6 ≠ main_call2_v1 by decide)] <;> exact h_main_v6
  have k_main_v9 : (op18 (F := F)).result W17 (Proc.devRef (τ := τ) .tc main_v9) = val_main_v9 (F := F) (V (Proc.devRef (τ := τ) .tc main_arg0)) := by
    rw [unary_result_ne (h := show main_v9 ≠ main_call2_v1 by decide)] <;> exact h_main_v9
  have k_main_cst_3 : (op18 (F := F)).result W17 (Proc.devRef (τ := τ) .tc main_cst_3) = val_main_cst_3 (F := F) := by
    rw [unary_result_ne (h := show main_cst_3 ≠ main_call2_v1 by decide)] <;> exact h_main_cst_3
  generalize (op18 (F := F)).result W17 = W18 at n_main_call2_v1 k_main_arg0 k_main_arg1 k_main_v6 k_main_v9 k_main_cst_3 ⊢
  clear h_main_arg0 h_main_arg1 h_main_v6 h_main_v9 h_main_cst_3 h_main_call2_v0
  have h_main_call2_v1 := n_main_call2_v1; clear n_main_call2_v1
  have h_main_arg0 := k_main_arg0; clear k_main_arg0
  have h_main_arg1 := k_main_arg1; clear k_main_arg1
  have h_main_v6 := k_main_v6; clear k_main_v6
  have h_main_v9 := k_main_v9; clear k_main_v9
  have h_main_cst_3 := k_main_cst_3; clear k_main_cst_3
  -- operation 19 writes main_call2_v2
  rw [after_cons]
  have n_main_call2_v2 : (op19 (F := F)).result W18 (Proc.devRef (τ := τ) .tc main_call2_v2) = val_main_call2_v2 (F := F) (V (Proc.devRef (τ := τ) .tc main_arg0)) := by
    rw [binary_result]
    beta_reduce
    rw [toBuf_main_call2_v2, ofBuf_main_call2_v1, ofBuf_main_v9, h_main_call2_v1, h_main_v9] <;> rfl
  have k_main_arg0 : (op19 (F := F)).result W18 (Proc.devRef (τ := τ) .tc main_arg0) = (V (Proc.devRef (τ := τ) .tc main_arg0)) := by
    rw [binary_result_ne (h := show main_arg0 ≠ main_call2_v2 by decide)] <;> exact h_main_arg0
  have k_main_arg1 : (op19 (F := F)).result W18 (Proc.devRef (τ := τ) .tc main_arg1) = (V (Proc.devRef (τ := τ) .tc main_arg1)) := by
    rw [binary_result_ne (h := show main_arg1 ≠ main_call2_v2 by decide)] <;> exact h_main_arg1
  have k_main_v6 : (op19 (F := F)).result W18 (Proc.devRef (τ := τ) .tc main_v6) = val_main_v6 (F := F) (V (Proc.devRef (τ := τ) .tc main_arg0)) := by
    rw [binary_result_ne (h := show main_v6 ≠ main_call2_v2 by decide)] <;> exact h_main_v6
  have k_main_cst_3 : (op19 (F := F)).result W18 (Proc.devRef (τ := τ) .tc main_cst_3) = val_main_cst_3 (F := F) := by
    rw [binary_result_ne (h := show main_cst_3 ≠ main_call2_v2 by decide)] <;> exact h_main_cst_3
  generalize (op19 (F := F)).result W18 = W19 at n_main_call2_v2 k_main_arg0 k_main_arg1 k_main_v6 k_main_cst_3 ⊢
  clear h_main_arg0 h_main_arg1 h_main_v6 h_main_v9 h_main_cst_3 h_main_call2_v1
  have h_main_call2_v2 := n_main_call2_v2; clear n_main_call2_v2
  have h_main_arg0 := k_main_arg0; clear k_main_arg0
  have h_main_arg1 := k_main_arg1; clear k_main_arg1
  have h_main_v6 := k_main_v6; clear k_main_v6
  have h_main_cst_3 := k_main_cst_3; clear k_main_cst_3
  -- operation 20 writes main_call2_v3
  rw [after_cons]
  have n_main_call2_v3 : (op20 (F := F)).result W19 (Proc.devRef (τ := τ) .tc main_call2_v3) = val_main_call2_v3 (F := F) := by
    rw [unary_result]
    beta_reduce
    rw [toBuf_main_call2_v3, ofBuf_main_cst_3, h_main_cst_3] <;> rfl
  have k_main_arg0 : (op20 (F := F)).result W19 (Proc.devRef (τ := τ) .tc main_arg0) = (V (Proc.devRef (τ := τ) .tc main_arg0)) := by
    rw [unary_result_ne (h := show main_arg0 ≠ main_call2_v3 by decide)] <;> exact h_main_arg0
  have k_main_arg1 : (op20 (F := F)).result W19 (Proc.devRef (τ := τ) .tc main_arg1) = (V (Proc.devRef (τ := τ) .tc main_arg1)) := by
    rw [unary_result_ne (h := show main_arg1 ≠ main_call2_v3 by decide)] <;> exact h_main_arg1
  have k_main_v6 : (op20 (F := F)).result W19 (Proc.devRef (τ := τ) .tc main_v6) = val_main_v6 (F := F) (V (Proc.devRef (τ := τ) .tc main_arg0)) := by
    rw [unary_result_ne (h := show main_v6 ≠ main_call2_v3 by decide)] <;> exact h_main_v6
  have k_main_call2_v2 : (op20 (F := F)).result W19 (Proc.devRef (τ := τ) .tc main_call2_v2) = val_main_call2_v2 (F := F) (V (Proc.devRef (τ := τ) .tc main_arg0)) := by
    rw [unary_result_ne (h := show main_call2_v2 ≠ main_call2_v3 by decide)] <;> exact h_main_call2_v2
  generalize (op20 (F := F)).result W19 = W20 at n_main_call2_v3 k_main_arg0 k_main_arg1 k_main_v6 k_main_call2_v2 ⊢
  clear h_main_arg0 h_main_arg1 h_main_v6 h_main_cst_3 h_main_call2_v2
  have h_main_call2_v3 := n_main_call2_v3; clear n_main_call2_v3
  have h_main_arg0 := k_main_arg0; clear k_main_arg0
  have h_main_arg1 := k_main_arg1; clear k_main_arg1
  have h_main_v6 := k_main_v6; clear k_main_v6
  have h_main_call2_v2 := k_main_call2_v2; clear k_main_call2_v2
  -- operation 21 writes main_call2_v4
  rw [after_cons]
  have n_main_call2_v4 : (op21 (F := F)).result W20 (Proc.devRef (τ := τ) .tc main_call2_v4) = val_main_call2_v4 (F := F) := by
    rw [unary_result]
    beta_reduce
    rw [toBuf_main_call2_v4, ofBuf_main_call2_v3, h_main_call2_v3] <;> rfl
  have k_main_arg0 : (op21 (F := F)).result W20 (Proc.devRef (τ := τ) .tc main_arg0) = (V (Proc.devRef (τ := τ) .tc main_arg0)) := by
    rw [unary_result_ne (h := show main_arg0 ≠ main_call2_v4 by decide)] <;> exact h_main_arg0
  have k_main_arg1 : (op21 (F := F)).result W20 (Proc.devRef (τ := τ) .tc main_arg1) = (V (Proc.devRef (τ := τ) .tc main_arg1)) := by
    rw [unary_result_ne (h := show main_arg1 ≠ main_call2_v4 by decide)] <;> exact h_main_arg1
  have k_main_v6 : (op21 (F := F)).result W20 (Proc.devRef (τ := τ) .tc main_v6) = val_main_v6 (F := F) (V (Proc.devRef (τ := τ) .tc main_arg0)) := by
    rw [unary_result_ne (h := show main_v6 ≠ main_call2_v4 by decide)] <;> exact h_main_v6
  have k_main_call2_v2 : (op21 (F := F)).result W20 (Proc.devRef (τ := τ) .tc main_call2_v2) = val_main_call2_v2 (F := F) (V (Proc.devRef (τ := τ) .tc main_arg0)) := by
    rw [unary_result_ne (h := show main_call2_v2 ≠ main_call2_v4 by decide)] <;> exact h_main_call2_v2
  generalize (op21 (F := F)).result W20 = W21 at n_main_call2_v4 k_main_arg0 k_main_arg1 k_main_v6 k_main_call2_v2 ⊢
  clear h_main_arg0 h_main_arg1 h_main_v6 h_main_call2_v2 h_main_call2_v3
  have h_main_call2_v4 := n_main_call2_v4; clear n_main_call2_v4
  have h_main_arg0 := k_main_arg0; clear k_main_arg0
  have h_main_arg1 := k_main_arg1; clear k_main_arg1
  have h_main_v6 := k_main_v6; clear k_main_v6
  have h_main_call2_v2 := k_main_call2_v2; clear k_main_call2_v2
  -- operation 22 writes main_v10
  rw [after_cons]
  have n_main_v10 : (op22 (F := F)).result W21 (Proc.devRef (τ := τ) .tc main_v10) = val_main_v10 (F := F) (V (Proc.devRef (τ := τ) .tc main_arg0)) := by
    rw [binary_result]
    beta_reduce
    rw [toBuf_main_v10, ofBuf_main_call2_v4, ofBuf_main_call2_v2, h_main_call2_v4, h_main_call2_v2] <;> rfl
  have k_main_arg0 : (op22 (F := F)).result W21 (Proc.devRef (τ := τ) .tc main_arg0) = (V (Proc.devRef (τ := τ) .tc main_arg0)) := by
    rw [binary_result_ne (h := show main_arg0 ≠ main_v10 by decide)] <;> exact h_main_arg0
  have k_main_arg1 : (op22 (F := F)).result W21 (Proc.devRef (τ := τ) .tc main_arg1) = (V (Proc.devRef (τ := τ) .tc main_arg1)) := by
    rw [binary_result_ne (h := show main_arg1 ≠ main_v10 by decide)] <;> exact h_main_arg1
  have k_main_v6 : (op22 (F := F)).result W21 (Proc.devRef (τ := τ) .tc main_v6) = val_main_v6 (F := F) (V (Proc.devRef (τ := τ) .tc main_arg0)) := by
    rw [binary_result_ne (h := show main_v6 ≠ main_v10 by decide)] <;> exact h_main_v6
  generalize (op22 (F := F)).result W21 = W22 at n_main_v10 k_main_arg0 k_main_arg1 k_main_v6 ⊢
  clear h_main_arg0 h_main_arg1 h_main_v6 h_main_call2_v2 h_main_call2_v4
  have h_main_v10 := n_main_v10; clear n_main_v10
  have h_main_arg0 := k_main_arg0; clear k_main_arg0
  have h_main_arg1 := k_main_arg1; clear k_main_arg1
  have h_main_v6 := k_main_v6; clear k_main_v6
  -- operation 23 writes main_v11
  rw [after_cons]
  have n_main_v11 : (op23 (F := F)).result W22 (Proc.devRef (τ := τ) .tc main_v11) = val_main_v11 (F := F) (V (Proc.devRef (τ := τ) .tc main_arg0)) := by
    rw [unary_result, h_main_v6] <;> rfl
  have k_main_arg0 : (op23 (F := F)).result W22 (Proc.devRef (τ := τ) .tc main_arg0) = (V (Proc.devRef (τ := τ) .tc main_arg0)) := by
    rw [unary_result_ne (h := show main_arg0 ≠ main_v11 by decide)] <;> exact h_main_arg0
  have k_main_arg1 : (op23 (F := F)).result W22 (Proc.devRef (τ := τ) .tc main_arg1) = (V (Proc.devRef (τ := τ) .tc main_arg1)) := by
    rw [unary_result_ne (h := show main_arg1 ≠ main_v11 by decide)] <;> exact h_main_arg1
  have k_main_v10 : (op23 (F := F)).result W22 (Proc.devRef (τ := τ) .tc main_v10) = val_main_v10 (F := F) (V (Proc.devRef (τ := τ) .tc main_arg0)) := by
    rw [unary_result_ne (h := show main_v10 ≠ main_v11 by decide)] <;> exact h_main_v10
  generalize (op23 (F := F)).result W22 = W23 at n_main_v11 k_main_arg0 k_main_arg1 k_main_v10 ⊢
  clear h_main_arg0 h_main_arg1 h_main_v6 h_main_v10
  have h_main_v11 := n_main_v11; clear n_main_v11
  have h_main_arg0 := k_main_arg0; clear k_main_arg0
  have h_main_arg1 := k_main_arg1; clear k_main_arg1
  have h_main_v10 := k_main_v10; clear k_main_v10
  -- operation 24 writes main_v12
  rw [after_cons]
  have n_main_v12 : (op24 (F := F)).result W23 (Proc.devRef (τ := τ) .tc main_v12) = val_main_v12 (F := F) (V (Proc.devRef (τ := τ) .tc main_arg0)) := by
    rw [binary_result, h_main_v10, h_main_v11] <;> rfl
  have k_main_arg0 : (op24 (F := F)).result W23 (Proc.devRef (τ := τ) .tc main_arg0) = (V (Proc.devRef (τ := τ) .tc main_arg0)) := by
    rw [binary_result_ne (h := show main_arg0 ≠ main_v12 by decide)] <;> exact h_main_arg0
  have k_main_arg1 : (op24 (F := F)).result W23 (Proc.devRef (τ := τ) .tc main_arg1) = (V (Proc.devRef (τ := τ) .tc main_arg1)) := by
    rw [binary_result_ne (h := show main_arg1 ≠ main_v12 by decide)] <;> exact h_main_arg1
  generalize (op24 (F := F)).result W23 = W24 at n_main_v12 k_main_arg0 k_main_arg1 ⊢
  clear h_main_arg0 h_main_arg1 h_main_v10 h_main_v11
  have h_main_v12 := n_main_v12; clear n_main_v12
  have h_main_arg0 := k_main_arg0; clear k_main_arg0
  have h_main_arg1 := k_main_arg1; clear k_main_arg1
  -- operation 25 writes main_v13
  rw [after_cons]
  have n_main_v13 : (op25 (F := F)).result W24 (Proc.devRef (τ := τ) .tc main_v13) = val_main_v13 (F := F) (V (Proc.devRef (τ := τ) .tc main_arg0)) := by
    rw [reshape_result, h_main_v12] <;> rfl
  have k_main_arg0 : (op25 (F := F)).result W24 (Proc.devRef (τ := τ) .tc main_arg0) = (V (Proc.devRef (τ := τ) .tc main_arg0)) := by
    rw [reshape_result_ne (h := show main_arg0 ≠ main_v13 by decide)] <;> exact h_main_arg0
  have k_main_arg1 : (op25 (F := F)).result W24 (Proc.devRef (τ := τ) .tc main_arg1) = (V (Proc.devRef (τ := τ) .tc main_arg1)) := by
    rw [reshape_result_ne (h := show main_arg1 ≠ main_v13 by decide)] <;> exact h_main_arg1
  generalize (op25 (F := F)).result W24 = W25 at n_main_v13 k_main_arg0 k_main_arg1 ⊢
  clear h_main_arg0 h_main_arg1 h_main_v12
  have h_main_v13 := n_main_v13; clear n_main_v13
  have h_main_arg0 := k_main_arg0; clear k_main_arg0
  have h_main_arg1 := k_main_arg1; clear k_main_arg1
  -- operation 26 writes main_v14
  rw [after_cons]
  have n_main_v14 : (op26 (F := F)).result W25 (Proc.devRef (τ := τ) .tc main_v14) = val_main_v14 (F := F) (V (Proc.devRef (τ := τ) .tc main_arg0)) := by
    rw [binary_result, h_main_v13, h_main_arg0] <;> rfl
  have k_main_arg0 : (op26 (F := F)).result W25 (Proc.devRef (τ := τ) .tc main_arg0) = (V (Proc.devRef (τ := τ) .tc main_arg0)) := by
    rw [binary_result_ne (h := show main_arg0 ≠ main_v14 by decide)] <;> exact h_main_arg0
  have k_main_arg1 : (op26 (F := F)).result W25 (Proc.devRef (τ := τ) .tc main_arg1) = (V (Proc.devRef (τ := τ) .tc main_arg1)) := by
    rw [binary_result_ne (h := show main_arg1 ≠ main_v14 by decide)] <;> exact h_main_arg1
  generalize (op26 (F := F)).result W25 = W26 at n_main_v14 k_main_arg0 k_main_arg1 ⊢
  clear h_main_arg0 h_main_arg1 h_main_v13
  have h_main_v14 := n_main_v14; clear n_main_v14
  have h_main_arg0 := k_main_arg0; clear k_main_arg0
  have h_main_arg1 := k_main_arg1; clear k_main_arg1
  -- operation 27 writes main_v15
  rw [after_cons]
  have n_main_v15 : (op27 (F := F)).result W26 (Proc.devRef (τ := τ) .tc main_v15) = val_main_v15 (F := F) (V (Proc.devRef (τ := τ) .tc main_arg0)) := by
    rw [binary_result, h_main_arg0, h_main_v14] <;> rfl
  have k_main_arg0 : (op27 (F := F)).result W26 (Proc.devRef (τ := τ) .tc main_arg0) = (V (Proc.devRef (τ := τ) .tc main_arg0)) := by
    rw [binary_result_ne (h := show main_arg0 ≠ main_v15 by decide)] <;> exact h_main_arg0
  have k_main_arg1 : (op27 (F := F)).result W26 (Proc.devRef (τ := τ) .tc main_arg1) = (V (Proc.devRef (τ := τ) .tc main_arg1)) := by
    rw [binary_result_ne (h := show main_arg1 ≠ main_v15 by decide)] <;> exact h_main_arg1
  generalize (op27 (F := F)).result W26 = W27 at n_main_v15 k_main_arg0 k_main_arg1 ⊢
  clear h_main_arg0 h_main_arg1 h_main_v14
  have h_main_v15 := n_main_v15; clear n_main_v15
  have h_main_arg0 := k_main_arg0; clear k_main_arg0
  have h_main_arg1 := k_main_arg1; clear k_main_arg1
  -- operation 28 writes main_v16
  rw [after_cons]
  have n_main_v16 : (op28 (F := F)).result W27 (Proc.devRef (τ := τ) .tc main_v16) = val_main_v16 (F := F) (V (Proc.devRef (τ := τ) .tc main_arg1)) := by
    rw [unary_result, h_main_arg1] <;> rfl
  have k_main_arg0 : (op28 (F := F)).result W27 (Proc.devRef (τ := τ) .tc main_arg0) = (V (Proc.devRef (τ := τ) .tc main_arg0)) := by
    rw [unary_result_ne (h := show main_arg0 ≠ main_v16 by decide)] <;> exact h_main_arg0
  have k_main_arg1 : (op28 (F := F)).result W27 (Proc.devRef (τ := τ) .tc main_arg1) = (V (Proc.devRef (τ := τ) .tc main_arg1)) := by
    rw [unary_result_ne (h := show main_arg1 ≠ main_v16 by decide)] <;> exact h_main_arg1
  have k_main_v15 : (op28 (F := F)).result W27 (Proc.devRef (τ := τ) .tc main_v15) = val_main_v15 (F := F) (V (Proc.devRef (τ := τ) .tc main_arg0)) := by
    rw [unary_result_ne (h := show main_v15 ≠ main_v16 by decide)] <;> exact h_main_v15
  generalize (op28 (F := F)).result W27 = W28 at n_main_v16 k_main_arg0 k_main_arg1 k_main_v15 ⊢
  clear h_main_arg0 h_main_arg1 h_main_v15
  have h_main_v16 := n_main_v16; clear n_main_v16
  have h_main_arg0 := k_main_arg0; clear k_main_arg0
  have h_main_arg1 := k_main_arg1; clear k_main_arg1
  have h_main_v15 := k_main_v15; clear k_main_v15
  -- operation 29 writes main_cst_4
  rw [after_cons]
  have n_main_cst_4 : (op29 (F := F)).result W28 (Proc.devRef (τ := τ) .tc main_cst_4) = val_main_cst_4 (F := F) := by
    rw [nullary_result] <;> rfl
  have k_main_arg0 : (op29 (F := F)).result W28 (Proc.devRef (τ := τ) .tc main_arg0) = (V (Proc.devRef (τ := τ) .tc main_arg0)) := by
    rw [nullary_result_ne (h := show main_arg0 ≠ main_cst_4 by decide)] <;> exact h_main_arg0
  have k_main_arg1 : (op29 (F := F)).result W28 (Proc.devRef (τ := τ) .tc main_arg1) = (V (Proc.devRef (τ := τ) .tc main_arg1)) := by
    rw [nullary_result_ne (h := show main_arg1 ≠ main_cst_4 by decide)] <;> exact h_main_arg1
  have k_main_v15 : (op29 (F := F)).result W28 (Proc.devRef (τ := τ) .tc main_v15) = val_main_v15 (F := F) (V (Proc.devRef (τ := τ) .tc main_arg0)) := by
    rw [nullary_result_ne (h := show main_v15 ≠ main_cst_4 by decide)] <;> exact h_main_v15
  have k_main_v16 : (op29 (F := F)).result W28 (Proc.devRef (τ := τ) .tc main_v16) = val_main_v16 (F := F) (V (Proc.devRef (τ := τ) .tc main_arg1)) := by
    rw [nullary_result_ne (h := show main_v16 ≠ main_cst_4 by decide)] <;> exact h_main_v16
  generalize (op29 (F := F)).result W28 = W29 at n_main_cst_4 k_main_arg0 k_main_arg1 k_main_v15 k_main_v16 ⊢
  clear h_main_arg0 h_main_arg1 h_main_v15 h_main_v16
  have h_main_cst_4 := n_main_cst_4; clear n_main_cst_4
  have h_main_arg0 := k_main_arg0; clear k_main_arg0
  have h_main_arg1 := k_main_arg1; clear k_main_arg1
  have h_main_v15 := k_main_v15; clear k_main_v15
  have h_main_v16 := k_main_v16; clear k_main_v16
  -- operation 30 writes main_v17
  rw [after_cons]
  have n_main_v17 : (op30 (F := F)).result W29 (Proc.devRef (τ := τ) .tc main_v17) = val_main_v17 (F := F) (V (Proc.devRef (τ := τ) .tc main_arg1)) := by
    rw [binary_result, h_main_v16, h_main_cst_4] <;> rfl
  have k_main_arg0 : (op30 (F := F)).result W29 (Proc.devRef (τ := τ) .tc main_arg0) = (V (Proc.devRef (τ := τ) .tc main_arg0)) := by
    rw [binary_result_ne (h := show main_arg0 ≠ main_v17 by decide)] <;> exact h_main_arg0
  have k_main_arg1 : (op30 (F := F)).result W29 (Proc.devRef (τ := τ) .tc main_arg1) = (V (Proc.devRef (τ := τ) .tc main_arg1)) := by
    rw [binary_result_ne (h := show main_arg1 ≠ main_v17 by decide)] <;> exact h_main_arg1
  have k_main_v15 : (op30 (F := F)).result W29 (Proc.devRef (τ := τ) .tc main_v15) = val_main_v15 (F := F) (V (Proc.devRef (τ := τ) .tc main_arg0)) := by
    rw [binary_result_ne (h := show main_v15 ≠ main_v17 by decide)] <;> exact h_main_v15
  generalize (op30 (F := F)).result W29 = W30 at n_main_v17 k_main_arg0 k_main_arg1 k_main_v15 ⊢
  clear h_main_arg0 h_main_arg1 h_main_v15 h_main_v16 h_main_cst_4
  have h_main_v17 := n_main_v17; clear n_main_v17
  have h_main_arg0 := k_main_arg0; clear k_main_arg0
  have h_main_arg1 := k_main_arg1; clear k_main_arg1
  have h_main_v15 := k_main_v15; clear k_main_v15
  -- operation 31 writes main_v18
  rw [after_cons]
  have n_main_v18 : (op31 (F := F)).result W30 (Proc.devRef (τ := τ) .tc main_v18) = val_main_v18 (F := F) (V (Proc.devRef (τ := τ) .tc main_arg1)) := by
    rw [unary_result, h_main_v17] <;> rfl
  have k_main_arg0 : (op31 (F := F)).result W30 (Proc.devRef (τ := τ) .tc main_arg0) = (V (Proc.devRef (τ := τ) .tc main_arg0)) := by
    rw [unary_result_ne (h := show main_arg0 ≠ main_v18 by decide)] <;> exact h_main_arg0
  have k_main_arg1 : (op31 (F := F)).result W30 (Proc.devRef (τ := τ) .tc main_arg1) = (V (Proc.devRef (τ := τ) .tc main_arg1)) := by
    rw [unary_result_ne (h := show main_arg1 ≠ main_v18 by decide)] <;> exact h_main_arg1
  have k_main_v15 : (op31 (F := F)).result W30 (Proc.devRef (τ := τ) .tc main_v15) = val_main_v15 (F := F) (V (Proc.devRef (τ := τ) .tc main_arg0)) := by
    rw [unary_result_ne (h := show main_v15 ≠ main_v18 by decide)] <;> exact h_main_v15
  generalize (op31 (F := F)).result W30 = W31 at n_main_v18 k_main_arg0 k_main_arg1 k_main_v15 ⊢
  clear h_main_arg0 h_main_arg1 h_main_v15 h_main_v17
  have h_main_v18 := n_main_v18; clear n_main_v18
  have h_main_arg0 := k_main_arg0; clear k_main_arg0
  have h_main_arg1 := k_main_arg1; clear k_main_arg1
  have h_main_v15 := k_main_v15; clear k_main_v15
  -- operation 32 writes main_cst_5
  rw [after_cons]
  have n_main_cst_5 : (op32 (F := F)).result W31 (Proc.devRef (τ := τ) .tc main_cst_5) = val_main_cst_5 (F := F) := by
    rw [nullary_result] <;> rfl
  have k_main_arg0 : (op32 (F := F)).result W31 (Proc.devRef (τ := τ) .tc main_arg0) = (V (Proc.devRef (τ := τ) .tc main_arg0)) := by
    rw [nullary_result_ne (h := show main_arg0 ≠ main_cst_5 by decide)] <;> exact h_main_arg0
  have k_main_arg1 : (op32 (F := F)).result W31 (Proc.devRef (τ := τ) .tc main_arg1) = (V (Proc.devRef (τ := τ) .tc main_arg1)) := by
    rw [nullary_result_ne (h := show main_arg1 ≠ main_cst_5 by decide)] <;> exact h_main_arg1
  have k_main_v15 : (op32 (F := F)).result W31 (Proc.devRef (τ := τ) .tc main_v15) = val_main_v15 (F := F) (V (Proc.devRef (τ := τ) .tc main_arg0)) := by
    rw [nullary_result_ne (h := show main_v15 ≠ main_cst_5 by decide)] <;> exact h_main_v15
  have k_main_v18 : (op32 (F := F)).result W31 (Proc.devRef (τ := τ) .tc main_v18) = val_main_v18 (F := F) (V (Proc.devRef (τ := τ) .tc main_arg1)) := by
    rw [nullary_result_ne (h := show main_v18 ≠ main_cst_5 by decide)] <;> exact h_main_v18
  generalize (op32 (F := F)).result W31 = W32 at n_main_cst_5 k_main_arg0 k_main_arg1 k_main_v15 k_main_v18 ⊢
  clear h_main_arg0 h_main_arg1 h_main_v15 h_main_v18
  have h_main_cst_5 := n_main_cst_5; clear n_main_cst_5
  have h_main_arg0 := k_main_arg0; clear k_main_arg0
  have h_main_arg1 := k_main_arg1; clear k_main_arg1
  have h_main_v15 := k_main_v15; clear k_main_v15
  have h_main_v18 := k_main_v18; clear k_main_v18
  -- operation 33 writes main_v19
  rw [after_cons]
  have n_main_v19 : (op33 (F := F)).result W32 (Proc.devRef (τ := τ) .tc main_v19) = val_main_v19 (F := F) := by
    rw [unary_result, h_main_cst_5] <;> rfl
  have k_main_arg0 : (op33 (F := F)).result W32 (Proc.devRef (τ := τ) .tc main_arg0) = (V (Proc.devRef (τ := τ) .tc main_arg0)) := by
    rw [unary_result_ne (h := show main_arg0 ≠ main_v19 by decide)] <;> exact h_main_arg0
  have k_main_arg1 : (op33 (F := F)).result W32 (Proc.devRef (τ := τ) .tc main_arg1) = (V (Proc.devRef (τ := τ) .tc main_arg1)) := by
    rw [unary_result_ne (h := show main_arg1 ≠ main_v19 by decide)] <;> exact h_main_arg1
  have k_main_v15 : (op33 (F := F)).result W32 (Proc.devRef (τ := τ) .tc main_v15) = val_main_v15 (F := F) (V (Proc.devRef (τ := τ) .tc main_arg0)) := by
    rw [unary_result_ne (h := show main_v15 ≠ main_v19 by decide)] <;> exact h_main_v15
  have k_main_v18 : (op33 (F := F)).result W32 (Proc.devRef (τ := τ) .tc main_v18) = val_main_v18 (F := F) (V (Proc.devRef (τ := τ) .tc main_arg1)) := by
    rw [unary_result_ne (h := show main_v18 ≠ main_v19 by decide)] <;> exact h_main_v18
  generalize (op33 (F := F)).result W32 = W33 at n_main_v19 k_main_arg0 k_main_arg1 k_main_v15 k_main_v18 ⊢
  clear h_main_arg0 h_main_arg1 h_main_v15 h_main_v18 h_main_cst_5
  have h_main_v19 := n_main_v19; clear n_main_v19
  have h_main_arg0 := k_main_arg0; clear k_main_arg0
  have h_main_arg1 := k_main_arg1; clear k_main_arg1
  have h_main_v15 := k_main_v15; clear k_main_v15
  have h_main_v18 := k_main_v18; clear k_main_v18
  -- operation 34 writes main_v20
  rw [after_cons]
  have n_main_v20 : (op34 (F := F)).result W33 (Proc.devRef (τ := τ) .tc main_v20) = val_main_v20 (F := F) (V (Proc.devRef (τ := τ) .tc main_arg1)) := by
    rw [binary_result, h_main_v18, h_main_v19] <;> rfl
  have k_main_arg0 : (op34 (F := F)).result W33 (Proc.devRef (τ := τ) .tc main_arg0) = (V (Proc.devRef (τ := τ) .tc main_arg0)) := by
    rw [binary_result_ne (h := show main_arg0 ≠ main_v20 by decide)] <;> exact h_main_arg0
  have k_main_arg1 : (op34 (F := F)).result W33 (Proc.devRef (τ := τ) .tc main_arg1) = (V (Proc.devRef (τ := τ) .tc main_arg1)) := by
    rw [binary_result_ne (h := show main_arg1 ≠ main_v20 by decide)] <;> exact h_main_arg1
  have k_main_v15 : (op34 (F := F)).result W33 (Proc.devRef (τ := τ) .tc main_v15) = val_main_v15 (F := F) (V (Proc.devRef (τ := τ) .tc main_arg0)) := by
    rw [binary_result_ne (h := show main_v15 ≠ main_v20 by decide)] <;> exact h_main_v15
  generalize (op34 (F := F)).result W33 = W34 at n_main_v20 k_main_arg0 k_main_arg1 k_main_v15 ⊢
  clear h_main_arg0 h_main_arg1 h_main_v15 h_main_v18 h_main_v19
  have h_main_v20 := n_main_v20; clear n_main_v20
  have h_main_arg0 := k_main_arg0; clear k_main_arg0
  have h_main_arg1 := k_main_arg1; clear k_main_arg1
  have h_main_v15 := k_main_v15; clear k_main_v15
  -- operation 35 writes main_cst_6
  rw [after_cons]
  have n_main_cst_6 : (op35 (F := F)).result W34 (Proc.devRef (τ := τ) .tc main_cst_6) = val_main_cst_6 (F := F) := by
    rw [nullary_result] <;> rfl
  have k_main_arg0 : (op35 (F := F)).result W34 (Proc.devRef (τ := τ) .tc main_arg0) = (V (Proc.devRef (τ := τ) .tc main_arg0)) := by
    rw [nullary_result_ne (h := show main_arg0 ≠ main_cst_6 by decide)] <;> exact h_main_arg0
  have k_main_arg1 : (op35 (F := F)).result W34 (Proc.devRef (τ := τ) .tc main_arg1) = (V (Proc.devRef (τ := τ) .tc main_arg1)) := by
    rw [nullary_result_ne (h := show main_arg1 ≠ main_cst_6 by decide)] <;> exact h_main_arg1
  have k_main_v15 : (op35 (F := F)).result W34 (Proc.devRef (τ := τ) .tc main_v15) = val_main_v15 (F := F) (V (Proc.devRef (τ := τ) .tc main_arg0)) := by
    rw [nullary_result_ne (h := show main_v15 ≠ main_cst_6 by decide)] <;> exact h_main_v15
  have k_main_v20 : (op35 (F := F)).result W34 (Proc.devRef (τ := τ) .tc main_v20) = val_main_v20 (F := F) (V (Proc.devRef (τ := τ) .tc main_arg1)) := by
    rw [nullary_result_ne (h := show main_v20 ≠ main_cst_6 by decide)] <;> exact h_main_v20
  generalize (op35 (F := F)).result W34 = W35 at n_main_cst_6 k_main_arg0 k_main_arg1 k_main_v15 k_main_v20 ⊢
  clear h_main_arg0 h_main_arg1 h_main_v15 h_main_v20
  have h_main_cst_6 := n_main_cst_6; clear n_main_cst_6
  have h_main_arg0 := k_main_arg0; clear k_main_arg0
  have h_main_arg1 := k_main_arg1; clear k_main_arg1
  have h_main_v15 := k_main_v15; clear k_main_v15
  have h_main_v20 := k_main_v20; clear k_main_v20
  -- operation 36 writes main_call3_v0
  rw [after_cons]
  have n_main_call3_v0 : (op36 (F := F)).result W35 (Proc.devRef (τ := τ) .tc main_call3_v0) = val_main_call3_v0 (F := F) := by
    rw [unary_result]
    beta_reduce
    rw [toBuf_main_call3_v0, ofBuf_main_cst_6, h_main_cst_6] <;> rfl
  have k_main_arg0 : (op36 (F := F)).result W35 (Proc.devRef (τ := τ) .tc main_arg0) = (V (Proc.devRef (τ := τ) .tc main_arg0)) := by
    rw [unary_result_ne (h := show main_arg0 ≠ main_call3_v0 by decide)] <;> exact h_main_arg0
  have k_main_arg1 : (op36 (F := F)).result W35 (Proc.devRef (τ := τ) .tc main_arg1) = (V (Proc.devRef (τ := τ) .tc main_arg1)) := by
    rw [unary_result_ne (h := show main_arg1 ≠ main_call3_v0 by decide)] <;> exact h_main_arg1
  have k_main_v15 : (op36 (F := F)).result W35 (Proc.devRef (τ := τ) .tc main_v15) = val_main_v15 (F := F) (V (Proc.devRef (τ := τ) .tc main_arg0)) := by
    rw [unary_result_ne (h := show main_v15 ≠ main_call3_v0 by decide)] <;> exact h_main_v15
  have k_main_v20 : (op36 (F := F)).result W35 (Proc.devRef (τ := τ) .tc main_v20) = val_main_v20 (F := F) (V (Proc.devRef (τ := τ) .tc main_arg1)) := by
    rw [unary_result_ne (h := show main_v20 ≠ main_call3_v0 by decide)] <;> exact h_main_v20
  generalize (op36 (F := F)).result W35 = W36 at n_main_call3_v0 k_main_arg0 k_main_arg1 k_main_v15 k_main_v20 ⊢
  clear h_main_arg0 h_main_arg1 h_main_v15 h_main_v20 h_main_cst_6
  have h_main_call3_v0 := n_main_call3_v0; clear n_main_call3_v0
  have h_main_arg0 := k_main_arg0; clear k_main_arg0
  have h_main_arg1 := k_main_arg1; clear k_main_arg1
  have h_main_v15 := k_main_v15; clear k_main_v15
  have h_main_v20 := k_main_v20; clear k_main_v20
  -- operation 37 writes main_call3_v1
  rw [after_cons]
  have n_main_call3_v1 : (op37 (F := F)).result W36 (Proc.devRef (τ := τ) .tc main_call3_v1) = val_main_call3_v1 (F := F) := by
    rw [unary_result]
    beta_reduce
    rw [toBuf_main_call3_v1, ofBuf_main_call3_v0, h_main_call3_v0] <;> rfl
  have k_main_arg0 : (op37 (F := F)).result W36 (Proc.devRef (τ := τ) .tc main_arg0) = (V (Proc.devRef (τ := τ) .tc main_arg0)) := by
    rw [unary_result_ne (h := show main_arg0 ≠ main_call3_v1 by decide)] <;> exact h_main_arg0
  have k_main_arg1 : (op37 (F := F)).result W36 (Proc.devRef (τ := τ) .tc main_arg1) = (V (Proc.devRef (τ := τ) .tc main_arg1)) := by
    rw [unary_result_ne (h := show main_arg1 ≠ main_call3_v1 by decide)] <;> exact h_main_arg1
  have k_main_v15 : (op37 (F := F)).result W36 (Proc.devRef (τ := τ) .tc main_v15) = val_main_v15 (F := F) (V (Proc.devRef (τ := τ) .tc main_arg0)) := by
    rw [unary_result_ne (h := show main_v15 ≠ main_call3_v1 by decide)] <;> exact h_main_v15
  have k_main_v20 : (op37 (F := F)).result W36 (Proc.devRef (τ := τ) .tc main_v20) = val_main_v20 (F := F) (V (Proc.devRef (τ := τ) .tc main_arg1)) := by
    rw [unary_result_ne (h := show main_v20 ≠ main_call3_v1 by decide)] <;> exact h_main_v20
  generalize (op37 (F := F)).result W36 = W37 at n_main_call3_v1 k_main_arg0 k_main_arg1 k_main_v15 k_main_v20 ⊢
  clear h_main_arg0 h_main_arg1 h_main_v15 h_main_v20 h_main_call3_v0
  have h_main_call3_v1 := n_main_call3_v1; clear n_main_call3_v1
  have h_main_arg0 := k_main_arg0; clear k_main_arg0
  have h_main_arg1 := k_main_arg1; clear k_main_arg1
  have h_main_v15 := k_main_v15; clear k_main_v15
  have h_main_v20 := k_main_v20; clear k_main_v20
  -- operation 38 writes main_v21
  rw [after_cons]
  have n_main_v21 : (op38 (F := F)).result W37 (Proc.devRef (τ := τ) .tc main_v21) = val_main_v21 (F := F) (V (Proc.devRef (τ := τ) .tc main_arg1)) := by
    rw [binary_result]
    beta_reduce
    rw [toBuf_main_v21, ofBuf_main_call3_v1, ofBuf_main_v20, h_main_call3_v1, h_main_v20] <;> rfl
  have k_main_arg0 : (op38 (F := F)).result W37 (Proc.devRef (τ := τ) .tc main_arg0) = (V (Proc.devRef (τ := τ) .tc main_arg0)) := by
    rw [binary_result_ne (h := show main_arg0 ≠ main_v21 by decide)] <;> exact h_main_arg0
  have k_main_arg1 : (op38 (F := F)).result W37 (Proc.devRef (τ := τ) .tc main_arg1) = (V (Proc.devRef (τ := τ) .tc main_arg1)) := by
    rw [binary_result_ne (h := show main_arg1 ≠ main_v21 by decide)] <;> exact h_main_arg1
  have k_main_v15 : (op38 (F := F)).result W37 (Proc.devRef (τ := τ) .tc main_v15) = val_main_v15 (F := F) (V (Proc.devRef (τ := τ) .tc main_arg0)) := by
    rw [binary_result_ne (h := show main_v15 ≠ main_v21 by decide)] <;> exact h_main_v15
  generalize (op38 (F := F)).result W37 = W38 at n_main_v21 k_main_arg0 k_main_arg1 k_main_v15 ⊢
  clear h_main_arg0 h_main_arg1 h_main_v15 h_main_v20 h_main_call3_v1
  have h_main_v21 := n_main_v21; clear n_main_v21
  have h_main_arg0 := k_main_arg0; clear k_main_arg0
  have h_main_arg1 := k_main_arg1; clear k_main_arg1
  have h_main_v15 := k_main_v15; clear k_main_v15
  -- operation 39 writes main_v22
  rw [after_cons]
  have n_main_v22 : (op39 (F := F)).result W38 (Proc.devRef (τ := τ) .tc main_v22) = val_main_v22 (F := F) (V (Proc.devRef (τ := τ) .tc main_arg1)) := by
    rw [unary_result, h_main_v21] <;> rfl
  have k_main_arg0 : (op39 (F := F)).result W38 (Proc.devRef (τ := τ) .tc main_arg0) = (V (Proc.devRef (τ := τ) .tc main_arg0)) := by
    rw [unary_result_ne (h := show main_arg0 ≠ main_v22 by decide)] <;> exact h_main_arg0
  have k_main_arg1 : (op39 (F := F)).result W38 (Proc.devRef (τ := τ) .tc main_arg1) = (V (Proc.devRef (τ := τ) .tc main_arg1)) := by
    rw [unary_result_ne (h := show main_arg1 ≠ main_v22 by decide)] <;> exact h_main_arg1
  have k_main_v15 : (op39 (F := F)).result W38 (Proc.devRef (τ := τ) .tc main_v15) = val_main_v15 (F := F) (V (Proc.devRef (τ := τ) .tc main_arg0)) := by
    rw [unary_result_ne (h := show main_v15 ≠ main_v22 by decide)] <;> exact h_main_v15
  have k_main_v21 : (op39 (F := F)).result W38 (Proc.devRef (τ := τ) .tc main_v21) = val_main_v21 (F := F) (V (Proc.devRef (τ := τ) .tc main_arg1)) := by
    rw [unary_result_ne (h := show main_v21 ≠ main_v22 by decide)] <;> exact h_main_v21
  generalize (op39 (F := F)).result W38 = W39 at n_main_v22 k_main_arg0 k_main_arg1 k_main_v15 k_main_v21 ⊢
  clear h_main_arg0 h_main_arg1 h_main_v15 h_main_v21
  have h_main_v22 := n_main_v22; clear n_main_v22
  have h_main_arg0 := k_main_arg0; clear k_main_arg0
  have h_main_arg1 := k_main_arg1; clear k_main_arg1
  have h_main_v15 := k_main_v15; clear k_main_v15
  have h_main_v21 := k_main_v21; clear k_main_v21
  -- operation 40 writes main_v23
  rw [after_cons]
  have n_main_v23 : (op40 (F := F)).result W39 (Proc.devRef (τ := τ) .tc main_v23) = val_main_v23 (F := F) (V (Proc.devRef (τ := τ) .tc main_arg1)) := by
    rw [binary_result, h_main_arg1, h_main_v22] <;> rfl
  have k_main_arg0 : (op40 (F := F)).result W39 (Proc.devRef (τ := τ) .tc main_arg0) = (V (Proc.devRef (τ := τ) .tc main_arg0)) := by
    rw [binary_result_ne (h := show main_arg0 ≠ main_v23 by decide)] <;> exact h_main_arg0
  have k_main_arg1 : (op40 (F := F)).result W39 (Proc.devRef (τ := τ) .tc main_arg1) = (V (Proc.devRef (τ := τ) .tc main_arg1)) := by
    rw [binary_result_ne (h := show main_arg1 ≠ main_v23 by decide)] <;> exact h_main_arg1
  have k_main_v15 : (op40 (F := F)).result W39 (Proc.devRef (τ := τ) .tc main_v15) = val_main_v15 (F := F) (V (Proc.devRef (τ := τ) .tc main_arg0)) := by
    rw [binary_result_ne (h := show main_v15 ≠ main_v23 by decide)] <;> exact h_main_v15
  have k_main_v21 : (op40 (F := F)).result W39 (Proc.devRef (τ := τ) .tc main_v21) = val_main_v21 (F := F) (V (Proc.devRef (τ := τ) .tc main_arg1)) := by
    rw [binary_result_ne (h := show main_v21 ≠ main_v23 by decide)] <;> exact h_main_v21
  generalize (op40 (F := F)).result W39 = W40 at n_main_v23 k_main_arg0 k_main_arg1 k_main_v15 k_main_v21 ⊢
  clear h_main_arg0 h_main_arg1 h_main_v15 h_main_v21 h_main_v22
  have h_main_v23 := n_main_v23; clear n_main_v23
  have h_main_arg0 := k_main_arg0; clear k_main_arg0
  have h_main_arg1 := k_main_arg1; clear k_main_arg1
  have h_main_v15 := k_main_v15; clear k_main_v15
  have h_main_v21 := k_main_v21; clear k_main_v21
  -- operation 41 writes main_v24
  rw [after_cons]
  have n_main_v24 : (op41 (F := F)).result W40 (Proc.devRef (τ := τ) .tc main_v24) = val_main_v24 (F := F) (V (Proc.devRef (τ := τ) .tc main_arg1)) := by
    rw [unary_result]
    beta_reduce
    rw [toBuf_main_v24, ofBuf_main_v23, h_main_v23] <;> rfl
  have k_main_arg0 : (op41 (F := F)).result W40 (Proc.devRef (τ := τ) .tc main_arg0) = (V (Proc.devRef (τ := τ) .tc main_arg0)) := by
    rw [unary_result_ne (h := show main_arg0 ≠ main_v24 by decide)] <;> exact h_main_arg0
  have k_main_arg1 : (op41 (F := F)).result W40 (Proc.devRef (τ := τ) .tc main_arg1) = (V (Proc.devRef (τ := τ) .tc main_arg1)) := by
    rw [unary_result_ne (h := show main_arg1 ≠ main_v24 by decide)] <;> exact h_main_arg1
  have k_main_v15 : (op41 (F := F)).result W40 (Proc.devRef (τ := τ) .tc main_v15) = val_main_v15 (F := F) (V (Proc.devRef (τ := τ) .tc main_arg0)) := by
    rw [unary_result_ne (h := show main_v15 ≠ main_v24 by decide)] <;> exact h_main_v15
  have k_main_v21 : (op41 (F := F)).result W40 (Proc.devRef (τ := τ) .tc main_v21) = val_main_v21 (F := F) (V (Proc.devRef (τ := τ) .tc main_arg1)) := by
    rw [unary_result_ne (h := show main_v21 ≠ main_v24 by decide)] <;> exact h_main_v21
  generalize (op41 (F := F)).result W40 = W41 at n_main_v24 k_main_arg0 k_main_arg1 k_main_v15 k_main_v21 ⊢
  clear h_main_arg0 h_main_arg1 h_main_v15 h_main_v21 h_main_v23
  have h_main_v24 := n_main_v24; clear n_main_v24
  have h_main_arg0 := k_main_arg0; clear k_main_arg0
  have h_main_arg1 := k_main_arg1; clear k_main_arg1
  have h_main_v15 := k_main_v15; clear k_main_v15
  have h_main_v21 := k_main_v21; clear k_main_v21
  -- operation 42 writes main_cst_7
  rw [after_cons]
  have n_main_cst_7 : (op42 (F := F)).result W41 (Proc.devRef (τ := τ) .tc main_cst_7) = val_main_cst_7 (F := F) := by
    rw [nullary_result] <;> rfl
  have k_main_arg0 : (op42 (F := F)).result W41 (Proc.devRef (τ := τ) .tc main_arg0) = (V (Proc.devRef (τ := τ) .tc main_arg0)) := by
    rw [nullary_result_ne (h := show main_arg0 ≠ main_cst_7 by decide)] <;> exact h_main_arg0
  have k_main_arg1 : (op42 (F := F)).result W41 (Proc.devRef (τ := τ) .tc main_arg1) = (V (Proc.devRef (τ := τ) .tc main_arg1)) := by
    rw [nullary_result_ne (h := show main_arg1 ≠ main_cst_7 by decide)] <;> exact h_main_arg1
  have k_main_v15 : (op42 (F := F)).result W41 (Proc.devRef (τ := τ) .tc main_v15) = val_main_v15 (F := F) (V (Proc.devRef (τ := τ) .tc main_arg0)) := by
    rw [nullary_result_ne (h := show main_v15 ≠ main_cst_7 by decide)] <;> exact h_main_v15
  have k_main_v21 : (op42 (F := F)).result W41 (Proc.devRef (τ := τ) .tc main_v21) = val_main_v21 (F := F) (V (Proc.devRef (τ := τ) .tc main_arg1)) := by
    rw [nullary_result_ne (h := show main_v21 ≠ main_cst_7 by decide)] <;> exact h_main_v21
  have k_main_v24 : (op42 (F := F)).result W41 (Proc.devRef (τ := τ) .tc main_v24) = val_main_v24 (F := F) (V (Proc.devRef (τ := τ) .tc main_arg1)) := by
    rw [nullary_result_ne (h := show main_v24 ≠ main_cst_7 by decide)] <;> exact h_main_v24
  generalize (op42 (F := F)).result W41 = W42 at n_main_cst_7 k_main_arg0 k_main_arg1 k_main_v15 k_main_v21 k_main_v24 ⊢
  clear h_main_arg0 h_main_arg1 h_main_v15 h_main_v21 h_main_v24
  have h_main_cst_7 := n_main_cst_7; clear n_main_cst_7
  have h_main_arg0 := k_main_arg0; clear k_main_arg0
  have h_main_arg1 := k_main_arg1; clear k_main_arg1
  have h_main_v15 := k_main_v15; clear k_main_v15
  have h_main_v21 := k_main_v21; clear k_main_v21
  have h_main_v24 := k_main_v24; clear k_main_v24
  -- operation 43 writes main_cst_8
  rw [after_cons]
  have n_main_cst_8 : (op43 (F := F)).result W42 (Proc.devRef (τ := τ) .tc main_cst_8) = val_main_cst_8 (F := F) := by
    rw [nullary_result] <;> rfl
  have k_main_arg0 : (op43 (F := F)).result W42 (Proc.devRef (τ := τ) .tc main_arg0) = (V (Proc.devRef (τ := τ) .tc main_arg0)) := by
    rw [nullary_result_ne (h := show main_arg0 ≠ main_cst_8 by decide)] <;> exact h_main_arg0
  have k_main_arg1 : (op43 (F := F)).result W42 (Proc.devRef (τ := τ) .tc main_arg1) = (V (Proc.devRef (τ := τ) .tc main_arg1)) := by
    rw [nullary_result_ne (h := show main_arg1 ≠ main_cst_8 by decide)] <;> exact h_main_arg1
  have k_main_v15 : (op43 (F := F)).result W42 (Proc.devRef (τ := τ) .tc main_v15) = val_main_v15 (F := F) (V (Proc.devRef (τ := τ) .tc main_arg0)) := by
    rw [nullary_result_ne (h := show main_v15 ≠ main_cst_8 by decide)] <;> exact h_main_v15
  have k_main_v21 : (op43 (F := F)).result W42 (Proc.devRef (τ := τ) .tc main_v21) = val_main_v21 (F := F) (V (Proc.devRef (τ := τ) .tc main_arg1)) := by
    rw [nullary_result_ne (h := show main_v21 ≠ main_cst_8 by decide)] <;> exact h_main_v21
  have k_main_v24 : (op43 (F := F)).result W42 (Proc.devRef (τ := τ) .tc main_v24) = val_main_v24 (F := F) (V (Proc.devRef (τ := τ) .tc main_arg1)) := by
    rw [nullary_result_ne (h := show main_v24 ≠ main_cst_8 by decide)] <;> exact h_main_v24
  have k_main_cst_7 : (op43 (F := F)).result W42 (Proc.devRef (τ := τ) .tc main_cst_7) = val_main_cst_7 (F := F) := by
    rw [nullary_result_ne (h := show main_cst_7 ≠ main_cst_8 by decide)] <;> exact h_main_cst_7
  generalize (op43 (F := F)).result W42 = W43 at n_main_cst_8 k_main_arg0 k_main_arg1 k_main_v15 k_main_v21 k_main_v24 k_main_cst_7 ⊢
  clear h_main_arg0 h_main_arg1 h_main_v15 h_main_v21 h_main_v24 h_main_cst_7
  have h_main_cst_8 := n_main_cst_8; clear n_main_cst_8
  have h_main_arg0 := k_main_arg0; clear k_main_arg0
  have h_main_arg1 := k_main_arg1; clear k_main_arg1
  have h_main_v15 := k_main_v15; clear k_main_v15
  have h_main_v21 := k_main_v21; clear k_main_v21
  have h_main_v24 := k_main_v24; clear k_main_v24
  have h_main_cst_7 := k_main_cst_7; clear k_main_cst_7
  -- operation 44 writes main_call5_v0
  rw [after_cons]
  have n_main_call5_v0 : (op44 (F := F)).result W43 (Proc.devRef (τ := τ) .tc main_call5_v0) = val_main_call5_v0 (F := F) := by
    rw [unary_result]
    beta_reduce
    rw [toBuf_main_call5_v0, ofBuf_main_cst_7, h_main_cst_7] <;> rfl
  have k_main_arg0 : (op44 (F := F)).result W43 (Proc.devRef (τ := τ) .tc main_arg0) = (V (Proc.devRef (τ := τ) .tc main_arg0)) := by
    rw [unary_result_ne (h := show main_arg0 ≠ main_call5_v0 by decide)] <;> exact h_main_arg0
  have k_main_arg1 : (op44 (F := F)).result W43 (Proc.devRef (τ := τ) .tc main_arg1) = (V (Proc.devRef (τ := τ) .tc main_arg1)) := by
    rw [unary_result_ne (h := show main_arg1 ≠ main_call5_v0 by decide)] <;> exact h_main_arg1
  have k_main_v15 : (op44 (F := F)).result W43 (Proc.devRef (τ := τ) .tc main_v15) = val_main_v15 (F := F) (V (Proc.devRef (τ := τ) .tc main_arg0)) := by
    rw [unary_result_ne (h := show main_v15 ≠ main_call5_v0 by decide)] <;> exact h_main_v15
  have k_main_v21 : (op44 (F := F)).result W43 (Proc.devRef (τ := τ) .tc main_v21) = val_main_v21 (F := F) (V (Proc.devRef (τ := τ) .tc main_arg1)) := by
    rw [unary_result_ne (h := show main_v21 ≠ main_call5_v0 by decide)] <;> exact h_main_v21
  have k_main_v24 : (op44 (F := F)).result W43 (Proc.devRef (τ := τ) .tc main_v24) = val_main_v24 (F := F) (V (Proc.devRef (τ := τ) .tc main_arg1)) := by
    rw [unary_result_ne (h := show main_v24 ≠ main_call5_v0 by decide)] <;> exact h_main_v24
  have k_main_cst_8 : (op44 (F := F)).result W43 (Proc.devRef (τ := τ) .tc main_cst_8) = val_main_cst_8 (F := F) := by
    rw [unary_result_ne (h := show main_cst_8 ≠ main_call5_v0 by decide)] <;> exact h_main_cst_8
  generalize (op44 (F := F)).result W43 = W44 at n_main_call5_v0 k_main_arg0 k_main_arg1 k_main_v15 k_main_v21 k_main_v24 k_main_cst_8 ⊢
  clear h_main_arg0 h_main_arg1 h_main_v15 h_main_v21 h_main_v24 h_main_cst_7 h_main_cst_8
  have h_main_call5_v0 := n_main_call5_v0; clear n_main_call5_v0
  have h_main_arg0 := k_main_arg0; clear k_main_arg0
  have h_main_arg1 := k_main_arg1; clear k_main_arg1
  have h_main_v15 := k_main_v15; clear k_main_v15
  have h_main_v21 := k_main_v21; clear k_main_v21
  have h_main_v24 := k_main_v24; clear k_main_v24
  have h_main_cst_8 := k_main_cst_8; clear k_main_cst_8
  -- operation 45 writes main_call5_v1
  rw [after_cons]
  have n_main_call5_v1 : (op45 (F := F)).result W44 (Proc.devRef (τ := τ) .tc main_call5_v1) = val_main_call5_v1 (F := F) := by
    rw [unary_result]
    beta_reduce
    rw [toBuf_main_call5_v1, ofBuf_main_call5_v0, h_main_call5_v0] <;> rfl
  have k_main_arg0 : (op45 (F := F)).result W44 (Proc.devRef (τ := τ) .tc main_arg0) = (V (Proc.devRef (τ := τ) .tc main_arg0)) := by
    rw [unary_result_ne (h := show main_arg0 ≠ main_call5_v1 by decide)] <;> exact h_main_arg0
  have k_main_arg1 : (op45 (F := F)).result W44 (Proc.devRef (τ := τ) .tc main_arg1) = (V (Proc.devRef (τ := τ) .tc main_arg1)) := by
    rw [unary_result_ne (h := show main_arg1 ≠ main_call5_v1 by decide)] <;> exact h_main_arg1
  have k_main_v15 : (op45 (F := F)).result W44 (Proc.devRef (τ := τ) .tc main_v15) = val_main_v15 (F := F) (V (Proc.devRef (τ := τ) .tc main_arg0)) := by
    rw [unary_result_ne (h := show main_v15 ≠ main_call5_v1 by decide)] <;> exact h_main_v15
  have k_main_v21 : (op45 (F := F)).result W44 (Proc.devRef (τ := τ) .tc main_v21) = val_main_v21 (F := F) (V (Proc.devRef (τ := τ) .tc main_arg1)) := by
    rw [unary_result_ne (h := show main_v21 ≠ main_call5_v1 by decide)] <;> exact h_main_v21
  have k_main_v24 : (op45 (F := F)).result W44 (Proc.devRef (τ := τ) .tc main_v24) = val_main_v24 (F := F) (V (Proc.devRef (τ := τ) .tc main_arg1)) := by
    rw [unary_result_ne (h := show main_v24 ≠ main_call5_v1 by decide)] <;> exact h_main_v24
  have k_main_cst_8 : (op45 (F := F)).result W44 (Proc.devRef (τ := τ) .tc main_cst_8) = val_main_cst_8 (F := F) := by
    rw [unary_result_ne (h := show main_cst_8 ≠ main_call5_v1 by decide)] <;> exact h_main_cst_8
  generalize (op45 (F := F)).result W44 = W45 at n_main_call5_v1 k_main_arg0 k_main_arg1 k_main_v15 k_main_v21 k_main_v24 k_main_cst_8 ⊢
  clear h_main_arg0 h_main_arg1 h_main_v15 h_main_v21 h_main_v24 h_main_cst_8 h_main_call5_v0
  have h_main_call5_v1 := n_main_call5_v1; clear n_main_call5_v1
  have h_main_arg0 := k_main_arg0; clear k_main_arg0
  have h_main_arg1 := k_main_arg1; clear k_main_arg1
  have h_main_v15 := k_main_v15; clear k_main_v15
  have h_main_v21 := k_main_v21; clear k_main_v21
  have h_main_v24 := k_main_v24; clear k_main_v24
  have h_main_cst_8 := k_main_cst_8; clear k_main_cst_8
  -- operation 46 writes main_call5_v2
  rw [after_cons]
  have n_main_call5_v2 : (op46 (F := F)).result W45 (Proc.devRef (τ := τ) .tc main_call5_v2) = val_main_call5_v2 (F := F) (V (Proc.devRef (τ := τ) .tc main_arg1)) := by
    rw [binary_result]
    beta_reduce
    rw [toBuf_main_call5_v2, ofBuf_main_call5_v1, ofBuf_main_v24, h_main_call5_v1, h_main_v24] <;> rfl
  have k_main_arg0 : (op46 (F := F)).result W45 (Proc.devRef (τ := τ) .tc main_arg0) = (V (Proc.devRef (τ := τ) .tc main_arg0)) := by
    rw [binary_result_ne (h := show main_arg0 ≠ main_call5_v2 by decide)] <;> exact h_main_arg0
  have k_main_arg1 : (op46 (F := F)).result W45 (Proc.devRef (τ := τ) .tc main_arg1) = (V (Proc.devRef (τ := τ) .tc main_arg1)) := by
    rw [binary_result_ne (h := show main_arg1 ≠ main_call5_v2 by decide)] <;> exact h_main_arg1
  have k_main_v15 : (op46 (F := F)).result W45 (Proc.devRef (τ := τ) .tc main_v15) = val_main_v15 (F := F) (V (Proc.devRef (τ := τ) .tc main_arg0)) := by
    rw [binary_result_ne (h := show main_v15 ≠ main_call5_v2 by decide)] <;> exact h_main_v15
  have k_main_v21 : (op46 (F := F)).result W45 (Proc.devRef (τ := τ) .tc main_v21) = val_main_v21 (F := F) (V (Proc.devRef (τ := τ) .tc main_arg1)) := by
    rw [binary_result_ne (h := show main_v21 ≠ main_call5_v2 by decide)] <;> exact h_main_v21
  have k_main_cst_8 : (op46 (F := F)).result W45 (Proc.devRef (τ := τ) .tc main_cst_8) = val_main_cst_8 (F := F) := by
    rw [binary_result_ne (h := show main_cst_8 ≠ main_call5_v2 by decide)] <;> exact h_main_cst_8
  generalize (op46 (F := F)).result W45 = W46 at n_main_call5_v2 k_main_arg0 k_main_arg1 k_main_v15 k_main_v21 k_main_cst_8 ⊢
  clear h_main_arg0 h_main_arg1 h_main_v15 h_main_v21 h_main_v24 h_main_cst_8 h_main_call5_v1
  have h_main_call5_v2 := n_main_call5_v2; clear n_main_call5_v2
  have h_main_arg0 := k_main_arg0; clear k_main_arg0
  have h_main_arg1 := k_main_arg1; clear k_main_arg1
  have h_main_v15 := k_main_v15; clear k_main_v15
  have h_main_v21 := k_main_v21; clear k_main_v21
  have h_main_cst_8 := k_main_cst_8; clear k_main_cst_8
  -- operation 47 writes main_call5_v3
  rw [after_cons]
  have n_main_call5_v3 : (op47 (F := F)).result W46 (Proc.devRef (τ := τ) .tc main_call5_v3) = val_main_call5_v3 (F := F) := by
    rw [unary_result]
    beta_reduce
    rw [toBuf_main_call5_v3, ofBuf_main_cst_8, h_main_cst_8] <;> rfl
  have k_main_arg0 : (op47 (F := F)).result W46 (Proc.devRef (τ := τ) .tc main_arg0) = (V (Proc.devRef (τ := τ) .tc main_arg0)) := by
    rw [unary_result_ne (h := show main_arg0 ≠ main_call5_v3 by decide)] <;> exact h_main_arg0
  have k_main_arg1 : (op47 (F := F)).result W46 (Proc.devRef (τ := τ) .tc main_arg1) = (V (Proc.devRef (τ := τ) .tc main_arg1)) := by
    rw [unary_result_ne (h := show main_arg1 ≠ main_call5_v3 by decide)] <;> exact h_main_arg1
  have k_main_v15 : (op47 (F := F)).result W46 (Proc.devRef (τ := τ) .tc main_v15) = val_main_v15 (F := F) (V (Proc.devRef (τ := τ) .tc main_arg0)) := by
    rw [unary_result_ne (h := show main_v15 ≠ main_call5_v3 by decide)] <;> exact h_main_v15
  have k_main_v21 : (op47 (F := F)).result W46 (Proc.devRef (τ := τ) .tc main_v21) = val_main_v21 (F := F) (V (Proc.devRef (τ := τ) .tc main_arg1)) := by
    rw [unary_result_ne (h := show main_v21 ≠ main_call5_v3 by decide)] <;> exact h_main_v21
  have k_main_call5_v2 : (op47 (F := F)).result W46 (Proc.devRef (τ := τ) .tc main_call5_v2) = val_main_call5_v2 (F := F) (V (Proc.devRef (τ := τ) .tc main_arg1)) := by
    rw [unary_result_ne (h := show main_call5_v2 ≠ main_call5_v3 by decide)] <;> exact h_main_call5_v2
  generalize (op47 (F := F)).result W46 = W47 at n_main_call5_v3 k_main_arg0 k_main_arg1 k_main_v15 k_main_v21 k_main_call5_v2 ⊢
  clear h_main_arg0 h_main_arg1 h_main_v15 h_main_v21 h_main_cst_8 h_main_call5_v2
  have h_main_call5_v3 := n_main_call5_v3; clear n_main_call5_v3
  have h_main_arg0 := k_main_arg0; clear k_main_arg0
  have h_main_arg1 := k_main_arg1; clear k_main_arg1
  have h_main_v15 := k_main_v15; clear k_main_v15
  have h_main_v21 := k_main_v21; clear k_main_v21
  have h_main_call5_v2 := k_main_call5_v2; clear k_main_call5_v2
  -- operation 48 writes main_call5_v4
  rw [after_cons]
  have n_main_call5_v4 : (op48 (F := F)).result W47 (Proc.devRef (τ := τ) .tc main_call5_v4) = val_main_call5_v4 (F := F) := by
    rw [unary_result]
    beta_reduce
    rw [toBuf_main_call5_v4, ofBuf_main_call5_v3, h_main_call5_v3] <;> rfl
  have k_main_arg0 : (op48 (F := F)).result W47 (Proc.devRef (τ := τ) .tc main_arg0) = (V (Proc.devRef (τ := τ) .tc main_arg0)) := by
    rw [unary_result_ne (h := show main_arg0 ≠ main_call5_v4 by decide)] <;> exact h_main_arg0
  have k_main_arg1 : (op48 (F := F)).result W47 (Proc.devRef (τ := τ) .tc main_arg1) = (V (Proc.devRef (τ := τ) .tc main_arg1)) := by
    rw [unary_result_ne (h := show main_arg1 ≠ main_call5_v4 by decide)] <;> exact h_main_arg1
  have k_main_v15 : (op48 (F := F)).result W47 (Proc.devRef (τ := τ) .tc main_v15) = val_main_v15 (F := F) (V (Proc.devRef (τ := τ) .tc main_arg0)) := by
    rw [unary_result_ne (h := show main_v15 ≠ main_call5_v4 by decide)] <;> exact h_main_v15
  have k_main_v21 : (op48 (F := F)).result W47 (Proc.devRef (τ := τ) .tc main_v21) = val_main_v21 (F := F) (V (Proc.devRef (τ := τ) .tc main_arg1)) := by
    rw [unary_result_ne (h := show main_v21 ≠ main_call5_v4 by decide)] <;> exact h_main_v21
  have k_main_call5_v2 : (op48 (F := F)).result W47 (Proc.devRef (τ := τ) .tc main_call5_v2) = val_main_call5_v2 (F := F) (V (Proc.devRef (τ := τ) .tc main_arg1)) := by
    rw [unary_result_ne (h := show main_call5_v2 ≠ main_call5_v4 by decide)] <;> exact h_main_call5_v2
  generalize (op48 (F := F)).result W47 = W48 at n_main_call5_v4 k_main_arg0 k_main_arg1 k_main_v15 k_main_v21 k_main_call5_v2 ⊢
  clear h_main_arg0 h_main_arg1 h_main_v15 h_main_v21 h_main_call5_v2 h_main_call5_v3
  have h_main_call5_v4 := n_main_call5_v4; clear n_main_call5_v4
  have h_main_arg0 := k_main_arg0; clear k_main_arg0
  have h_main_arg1 := k_main_arg1; clear k_main_arg1
  have h_main_v15 := k_main_v15; clear k_main_v15
  have h_main_v21 := k_main_v21; clear k_main_v21
  have h_main_call5_v2 := k_main_call5_v2; clear k_main_call5_v2
  -- operation 49 writes main_v25
  rw [after_cons]
  have n_main_v25 : (op49 (F := F)).result W48 (Proc.devRef (τ := τ) .tc main_v25) = val_main_v25 (F := F) (V (Proc.devRef (τ := τ) .tc main_arg1)) := by
    rw [binary_result]
    beta_reduce
    rw [toBuf_main_v25, ofBuf_main_call5_v4, ofBuf_main_call5_v2, h_main_call5_v4, h_main_call5_v2] <;> rfl
  have k_main_arg0 : (op49 (F := F)).result W48 (Proc.devRef (τ := τ) .tc main_arg0) = (V (Proc.devRef (τ := τ) .tc main_arg0)) := by
    rw [binary_result_ne (h := show main_arg0 ≠ main_v25 by decide)] <;> exact h_main_arg0
  have k_main_arg1 : (op49 (F := F)).result W48 (Proc.devRef (τ := τ) .tc main_arg1) = (V (Proc.devRef (τ := τ) .tc main_arg1)) := by
    rw [binary_result_ne (h := show main_arg1 ≠ main_v25 by decide)] <;> exact h_main_arg1
  have k_main_v15 : (op49 (F := F)).result W48 (Proc.devRef (τ := τ) .tc main_v15) = val_main_v15 (F := F) (V (Proc.devRef (τ := τ) .tc main_arg0)) := by
    rw [binary_result_ne (h := show main_v15 ≠ main_v25 by decide)] <;> exact h_main_v15
  have k_main_v21 : (op49 (F := F)).result W48 (Proc.devRef (τ := τ) .tc main_v21) = val_main_v21 (F := F) (V (Proc.devRef (τ := τ) .tc main_arg1)) := by
    rw [binary_result_ne (h := show main_v21 ≠ main_v25 by decide)] <;> exact h_main_v21
  generalize (op49 (F := F)).result W48 = W49 at n_main_v25 k_main_arg0 k_main_arg1 k_main_v15 k_main_v21 ⊢
  clear h_main_arg0 h_main_arg1 h_main_v15 h_main_v21 h_main_call5_v2 h_main_call5_v4
  have h_main_v25 := n_main_v25; clear n_main_v25
  have h_main_arg0 := k_main_arg0; clear k_main_arg0
  have h_main_arg1 := k_main_arg1; clear k_main_arg1
  have h_main_v15 := k_main_v15; clear k_main_v15
  have h_main_v21 := k_main_v21; clear k_main_v21
  -- operation 50 writes main_v26
  rw [after_cons]
  have n_main_v26 : (op50 (F := F)).result W49 (Proc.devRef (τ := τ) .tc main_v26) = val_main_v26 (F := F) (V (Proc.devRef (τ := τ) .tc main_arg1)) := by
    rw [unary_result, h_main_v21] <;> rfl
  have k_main_arg0 : (op50 (F := F)).result W49 (Proc.devRef (τ := τ) .tc main_arg0) = (V (Proc.devRef (τ := τ) .tc main_arg0)) := by
    rw [unary_result_ne (h := show main_arg0 ≠ main_v26 by decide)] <;> exact h_main_arg0
  have k_main_arg1 : (op50 (F := F)).result W49 (Proc.devRef (τ := τ) .tc main_arg1) = (V (Proc.devRef (τ := τ) .tc main_arg1)) := by
    rw [unary_result_ne (h := show main_arg1 ≠ main_v26 by decide)] <;> exact h_main_arg1
  have k_main_v15 : (op50 (F := F)).result W49 (Proc.devRef (τ := τ) .tc main_v15) = val_main_v15 (F := F) (V (Proc.devRef (τ := τ) .tc main_arg0)) := by
    rw [unary_result_ne (h := show main_v15 ≠ main_v26 by decide)] <;> exact h_main_v15
  have k_main_v25 : (op50 (F := F)).result W49 (Proc.devRef (τ := τ) .tc main_v25) = val_main_v25 (F := F) (V (Proc.devRef (τ := τ) .tc main_arg1)) := by
    rw [unary_result_ne (h := show main_v25 ≠ main_v26 by decide)] <;> exact h_main_v25
  generalize (op50 (F := F)).result W49 = W50 at n_main_v26 k_main_arg0 k_main_arg1 k_main_v15 k_main_v25 ⊢
  clear h_main_arg0 h_main_arg1 h_main_v15 h_main_v21 h_main_v25
  have h_main_v26 := n_main_v26; clear n_main_v26
  have h_main_arg0 := k_main_arg0; clear k_main_arg0
  have h_main_arg1 := k_main_arg1; clear k_main_arg1
  have h_main_v15 := k_main_v15; clear k_main_v15
  have h_main_v25 := k_main_v25; clear k_main_v25
  -- operation 51 writes main_v27
  rw [after_cons]
  have n_main_v27 : (op51 (F := F)).result W50 (Proc.devRef (τ := τ) .tc main_v27) = val_main_v27 (F := F) (V (Proc.devRef (τ := τ) .tc main_arg1)) := by
    rw [binary_result, h_main_v25, h_main_v26] <;> rfl
  have k_main_arg0 : (op51 (F := F)).result W50 (Proc.devRef (τ := τ) .tc main_arg0) = (V (Proc.devRef (τ := τ) .tc main_arg0)) := by
    rw [binary_result_ne (h := show main_arg0 ≠ main_v27 by decide)] <;> exact h_main_arg0
  have k_main_arg1 : (op51 (F := F)).result W50 (Proc.devRef (τ := τ) .tc main_arg1) = (V (Proc.devRef (τ := τ) .tc main_arg1)) := by
    rw [binary_result_ne (h := show main_arg1 ≠ main_v27 by decide)] <;> exact h_main_arg1
  have k_main_v15 : (op51 (F := F)).result W50 (Proc.devRef (τ := τ) .tc main_v15) = val_main_v15 (F := F) (V (Proc.devRef (τ := τ) .tc main_arg0)) := by
    rw [binary_result_ne (h := show main_v15 ≠ main_v27 by decide)] <;> exact h_main_v15
  generalize (op51 (F := F)).result W50 = W51 at n_main_v27 k_main_arg0 k_main_arg1 k_main_v15 ⊢
  clear h_main_arg0 h_main_arg1 h_main_v15 h_main_v25 h_main_v26
  have h_main_v27 := n_main_v27; clear n_main_v27
  have h_main_arg0 := k_main_arg0; clear k_main_arg0
  have h_main_arg1 := k_main_arg1; clear k_main_arg1
  have h_main_v15 := k_main_v15; clear k_main_v15
  -- operation 52 writes main_v28
  rw [after_cons]
  have n_main_v28 : (op52 (F := F)).result W51 (Proc.devRef (τ := τ) .tc main_v28) = val_main_v28 (F := F) (V (Proc.devRef (τ := τ) .tc main_arg1)) := by
    rw [binary_result, h_main_v27, h_main_arg1] <;> rfl
  have k_main_arg0 : (op52 (F := F)).result W51 (Proc.devRef (τ := τ) .tc main_arg0) = (V (Proc.devRef (τ := τ) .tc main_arg0)) := by
    rw [binary_result_ne (h := show main_arg0 ≠ main_v28 by decide)] <;> exact h_main_arg0
  have k_main_arg1 : (op52 (F := F)).result W51 (Proc.devRef (τ := τ) .tc main_arg1) = (V (Proc.devRef (τ := τ) .tc main_arg1)) := by
    rw [binary_result_ne (h := show main_arg1 ≠ main_v28 by decide)] <;> exact h_main_arg1
  have k_main_v15 : (op52 (F := F)).result W51 (Proc.devRef (τ := τ) .tc main_v15) = val_main_v15 (F := F) (V (Proc.devRef (τ := τ) .tc main_arg0)) := by
    rw [binary_result_ne (h := show main_v15 ≠ main_v28 by decide)] <;> exact h_main_v15
  generalize (op52 (F := F)).result W51 = W52 at n_main_v28 k_main_arg0 k_main_arg1 k_main_v15 ⊢
  clear h_main_arg0 h_main_arg1 h_main_v15 h_main_v27
  have h_main_v28 := n_main_v28; clear n_main_v28
  have h_main_arg0 := k_main_arg0; clear k_main_arg0
  have h_main_arg1 := k_main_arg1; clear k_main_arg1
  have h_main_v15 := k_main_v15; clear k_main_v15
  -- operation 53 writes main_v29
  rw [after_cons]
  have n_main_v29 : (op53 (F := F)).result W52 (Proc.devRef (τ := τ) .tc main_v29) = val_main_v29 (F := F) (V (Proc.devRef (τ := τ) .tc main_arg1)) := by
    rw [binary_result, h_main_arg1, h_main_v28] <;> rfl
  have k_main_arg0 : (op53 (F := F)).result W52 (Proc.devRef (τ := τ) .tc main_arg0) = (V (Proc.devRef (τ := τ) .tc main_arg0)) := by
    rw [binary_result_ne (h := show main_arg0 ≠ main_v29 by decide)] <;> exact h_main_arg0
  have k_main_arg1 : (op53 (F := F)).result W52 (Proc.devRef (τ := τ) .tc main_arg1) = (V (Proc.devRef (τ := τ) .tc main_arg1)) := by
    rw [binary_result_ne (h := show main_arg1 ≠ main_v29 by decide)] <;> exact h_main_arg1
  have k_main_v15 : (op53 (F := F)).result W52 (Proc.devRef (τ := τ) .tc main_v15) = val_main_v15 (F := F) (V (Proc.devRef (τ := τ) .tc main_arg0)) := by
    rw [binary_result_ne (h := show main_v15 ≠ main_v29 by decide)] <;> exact h_main_v15
  generalize (op53 (F := F)).result W52 = W53 at n_main_v29 k_main_arg0 k_main_arg1 k_main_v15 ⊢
  clear h_main_arg0 h_main_arg1 h_main_v15 h_main_v28
  have h_main_v29 := n_main_v29; clear n_main_v29
  have h_main_arg0 := k_main_arg0; clear k_main_arg0
  have h_main_arg1 := k_main_arg1; clear k_main_arg1
  have h_main_v15 := k_main_v15; clear k_main_v15
  -- operation 54 writes main_v30
  rw [after_cons]
  have n_main_v30 : (op54 (F := F)).result W53 (Proc.devRef (τ := τ) .tc main_v30) = val_main_v30 (F := F) (V (Proc.devRef (τ := τ) .tc main_arg0)) (V (Proc.devRef (τ := τ) .tc main_arg1)) := by
    rw [binary_result, h_main_v15, h_main_v29] <;> rfl
  have k_main_arg0 : (op54 (F := F)).result W53 (Proc.devRef (τ := τ) .tc main_arg0) = (V (Proc.devRef (τ := τ) .tc main_arg0)) := by
    rw [binary_result_ne (h := show main_arg0 ≠ main_v30 by decide)] <;> exact h_main_arg0
  have k_main_arg1 : (op54 (F := F)).result W53 (Proc.devRef (τ := τ) .tc main_arg1) = (V (Proc.devRef (τ := τ) .tc main_arg1)) := by
    rw [binary_result_ne (h := show main_arg1 ≠ main_v30 by decide)] <;> exact h_main_arg1
  generalize (op54 (F := F)).result W53 = W54 at n_main_v30 k_main_arg0 k_main_arg1 ⊢
  clear h_main_arg0 h_main_arg1 h_main_v15 h_main_v29
  have h_main_v30 := n_main_v30; clear n_main_v30
  have h_main_arg0 := k_main_arg0; clear k_main_arg0
  have h_main_arg1 := k_main_arg1; clear k_main_arg1
  exact hP _ h_main_v30 h_main_arg0 h_main_arg1

/-- After the line the result buffer holds the last stage at the arguments' first contents, and the arguments are unchanged. -/
theorem after_ops_read (V : Valuation τ sig (Elt F)) :
    after (ops (F := F)) V (Proc.devRef (τ := τ) .tc main_v30) = val_main_v30 (F := F) (V (Proc.devRef (τ := τ) .tc main_arg0)) (V (Proc.devRef (τ := τ) .tc main_arg1))
      ∧ after (ops (F := F)) V (Proc.devRef (τ := τ) .tc main_arg0) = V (Proc.devRef (τ := τ) .tc main_arg0)
      ∧ after (ops (F := F)) V (Proc.devRef (τ := τ) .tc main_arg1) = V (Proc.devRef (τ := τ) .tc main_arg1) :=
  after_ops V (fun W => W (Proc.devRef (τ := τ) .tc main_v30) = val_main_v30 (F := F) (V (Proc.devRef (τ := τ) .tc main_arg0)) (V (Proc.devRef (τ := τ) .tc main_arg1))
      ∧ W (Proc.devRef (τ := τ) .tc main_arg0) = V (Proc.devRef (τ := τ) .tc main_arg0) ∧ W (Proc.devRef (τ := τ) .tc main_arg1) = V (Proc.devRef (τ := τ) .tc main_arg1))
    (fun _ a b c => ⟨a, b, c⟩)

/-- On every device, for any float values, from any memory with zero counters: every weakly fair execution of the
    program terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = val_main_v30 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have e := after_ops_read (F := F) (launchContents m c)
      ⟨(h c main_v30).trans e.1, (h c main_arg0).trans e.2.1, (h c main_arg1).trans e.2.2⟩)
    (run_seq scopedRefs_eq scopedSems_eq defs main (fun _ => ops) main_eq (fun _ => ops_sub) m ρ)

end Cert.BitLinear.RefRun

end
-- ==== Proof.Finite.lean ====
/-
  From the precondition to "every entry of both arguments is a real number".

  The precondition is all(|x| < +∞) ∧ all(|w| < +∞): each conjunct is the conjunction, over every index, of the one-bit
  comparison |v[i]| < +∞, and the whole is 1.  A conjunction of bits that is 1 has every bit 1, so |x[i]| < +∞ at every
  index i, and likewise for w.  Over the extended reals |a| is max a (-a) and the pattern 0x7F800000 denotes +∞; of the
  three kinds of extended real, -∞ and +∞ both have magnitude +∞, which is not below +∞, so an entry whose magnitude is
  below +∞ is a real number.
-/
import proofs.«102947_j88905823027952_2_alg».proof.Pre_finite_inputs
import proofs.«102947_j88905823027952_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.BitLinear.Finite

open Idealize.ShloMosaic Idealize.ShloMosaic.ValueIdx

/-- The f32 pattern 0x7F800000 denotes +∞. -/
theorem ofBits_inf : Ideal.ofBits .f32 0x7F800000#32 = (⊤ : EReal) := by simp [Ideal.ofBits, Ideal.ieee]

/-- An extended real whose magnitude max a (-a) is below +∞ is a real number: the magnitude of -∞ and of +∞ is +∞. -/
theorem real_of_abs_lt_top (a : EReal) (h : max a (-a) < ⊤) : ∃ r : ℝ, a = (r : EReal) := by
  induction a using EReal.rec with
  | bot => simp at h
  | top => simp at h
  | coe r => exact ⟨r, rfl⟩

/-- A one-bit word made from a truth value is 1 exactly when the truth value is true. -/
theorem ofBool_eq_one (b : Bool) : BitVec.ofBool b = 1#1 ↔ b = true := by cases b <;> decide

/-- The comparison |a| < +∞, as the precondition writes it on one entry, answering 1 says that a is a real number. -/
theorem real_of_cmp (a : Ideal .f32)
    (h : FloatOps.cmpf .olt (FloatOps.hostAbsf a) (FloatOps.ofBits (F := Ideal) .f32 0x7F800000#32) = 1#1) :
    ∃ r : ℝ, (a : EReal) = (r : EReal) := by
  change Ideal.cmp .olt (max (a : EReal) (-(a : EReal))) (Ideal.ofBits .f32 0x7F800000#32) = 1#1 at h
  rw [ofBits_inf] at h
  unfold Ideal.cmp at h
  rw [ofBool_eq_one, decide_eq_true_eq] at h
  exact real_of_abs_lt_top a h

/-- The scalar shape has one index. -/
instance : Subsingleton Cert.Pre_finite_inputs.S_.Idx := ⟨fun a b => funext fun d => d.elim0⟩

/-- THE PRECONDITION DECODED: when all(|x| < +∞) ∧ all(|w| < +∞) is 1, every entry of x and of w is a real number. -/
theorem real_of_pre [Cert.Pre_finite_inputs.Facts]
    (x : FVec Ideal Cert.Pre_finite_inputs.S4x2048x4096 .f32) (w : FVec Ideal Cert.Pre_finite_inputs.S4096x4096 .f32)
    (h : Cert.Pre_finite_inputs.fn (F := Ideal) x w = fun _ => 1#1) :
    (∀ i, ∃ r : ℝ, (x i : EReal) = (r : EReal)) ∧ (∀ j, ∃ r : ℝ, (w j : EReal) = (r : EReal)) := by
  have e := congrFun h ValueIdx.ix0
  dsimp only [Cert.Pre_finite_inputs.fn] at e
  change IntOp.andi _ _ = 1#1 at e
  obtain ⟨ex, ew⟩ := IntOp.andi_eq_one.1 e
  refine ⟨fun i => ?_, fun j => ?_⟩
  · exact real_of_cmp (x i) (Host.reduce_andi_all _ _ _ _ _ ex i)
  · exact real_of_cmp (w j) (Host.reduce_andi_all _ _ _ _ _ ew j)

end Cert.BitLinear.Finite

end
-- ==== Proof.lean ====
/-
  The certificate of the BitLinear layer: a Pallas kernel that quantises activations in groups of 64 columns
  (absmax, 8 bits) and multiplies them, tile by tile over a 16 × 8 grid with an f32 accumulator, by ternary-quantised
  weights, against the jnp reference that does the same with straight-through estimators and one einsum.

  Over the extended reals both programs compute out[b, s, o] = Σ_c Q(x)[b, s, c] · W[o, c] (`Cert.BitLinear.G`):
  the weights' quantisation is the same chain of host operations in both programs; the kernel's eight partial sums per
  row tile regroup the reference's one sum (addition is commutative and associative); the kernel's groups of 64 inside
  a 512-column tile are the reference's groups; and the reference's straight-through estimator x + (q - x) is q because
  the inputs are finite — the one place the precondition is used.
-/
import proofs.«102947_j88905823027952_2_alg».proof.Defs
import proofs.«102947_j88905823027952_2_alg».proof.Proof.Gen.Kernel
import proofs.«102947_j88905823027952_2_alg».proof.Proof.Gen.Kernel.Skeleton
import proofs.«102947_j88905823027952_2_alg».proof.Proof.Gen.Kernel.Launch
import proofs.«102947_j88905823027952_2_alg».proof.Proof.Gen.Kernel.Points
import proofs.«102947_j88905823027952_2_alg».proof.Proof.Gen.Kernel.Frame
import proofs.«102947_j88905823027952_2_alg».proof.Proof.Gen.KernelIdeal
import proofs.«102947_j88905823027952_2_alg».proof.Proof.Gen.KernelIdeal.Skeleton
import proofs.«102947_j88905823027952_2_alg».proof.Proof.Gen.KernelIdeal.Launch
import proofs.«102947_j88905823027952_2_alg».proof.Proof.Gen.KernelIdeal.Points
import proofs.«102947_j88905823027952_2_alg».proof.Proof.Gen.KernelIdeal.Frame
import proofs.«102947_j88905823027952_2_alg».proof.Proof.Gen.ReferenceIdeal
import proofs.«102947_j88905823027952_2_alg».proof.Proof.Gen.Pre_finite_inputs
import proofs.«102947_j88905823027952_2_alg».proof.Proof.KRun
import proofs.«102947_j88905823027952_2_alg».proof.Proof.RefSide
import proofs.«102947_j88905823027952_2_alg».proof.Proof.RefRun
import proofs.«102947_j88905823027952_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.BitLinear.RefRun.run m ρ)

/-- The ideal pass rewrote nothing. -/
theorem preserves : Cert.preserves_Kernel_KernelIdeal := trivial

/-- From memories agreeing on finite arguments both programs end with G of the activations and the quantised weights. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.BitLinear.RefRun.run m' ρ')
  rw [(hagree c).1, (hagree c).2]
  obtain ⟨hx, hw⟩ := Cert.BitLinear.Finite.real_of_pre _ _ (hpre c)
  exact Cert.BitLinear.Ref.ref_value _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
